-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S128x32 .f32) (main_arg10 : FVec F S32 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S128 .f32) (main_arg7 : FVec F S3x128x128 .f32) (main_arg8 : FVec F S128 .f32) (main_arg9 : FVec F S128x32 .f32) (main_arg10 : FVec F S32 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S50000 32) (main_arg3 : FVec F S3x128x128 .f32) (main_arg4 : FVec F S128 .f32) (main_arg5 : FVec F S3x128x128 .f32) (main_arg6 : FVec F S128 .f32) (main_arg7 : FVec F S3x128x128 .f32) (main_arg8 : FVec F S128 .f32) (main_arg9 : FVec F S128x32 .f32) (main_arg10 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S500 : Shape := ⟨1, ![500]⟩
abbrev S500x128 : Shape := ⟨2, ![500, 128]⟩
abbrev S500x1 : Shape := ⟨2, ![500, 1]⟩
abbrev S500x32 : Shape := ⟨2, ![500, 32]⟩
abbrev S1x32 : Shape := ⟨2, ![1, 32]⟩

abbrev nBuf : Space → Nat
  | .hbm => 208
  | .vmem => 36
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S128, .f32⟩
  | 5 => ⟨S3x128x128, .f32⟩
  | 6 => ⟨S128, .f32⟩
  | 7 => ⟨S3x128x128, .f32⟩
  | 8 => ⟨S128, .f32⟩
  | 9 => ⟨S128x32, .f32⟩
  | 10 => ⟨S32, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S50000x128, .bf16⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .bf16⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S50000x1, .f32⟩
  | 51 => ⟨S50000x1, .f32⟩
  | 52 => ⟨S50000x128, .f32⟩
  | 53 => ⟨S50000x128, .f32⟩
  | 54 => ⟨S50000x1, .f32⟩
  | 55 => ⟨S50000x128, .f32⟩
  | 56 => ⟨S50000x128, .f32⟩
  | 57 => ⟨S50000x128, .bf16⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .bf16⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S50000x1, .f32⟩
  | 73 => ⟨S50000x1, .f32⟩
  | 74 => ⟨S50000x128, .f32⟩
  | 75 => ⟨S50000x128, .f32⟩
  | 76 => ⟨S1x128x128, .f32⟩
  | 77 => ⟨S128x128, .f32⟩
  | 78 => ⟨S1x128x128, .f32⟩
  | 79 => ⟨S128x128, .f32⟩
  | 80 => ⟨S1x128x128, .f32⟩
  | 81 => ⟨S128x128, .f32⟩
  | 82 => ⟨S1x128, .f32⟩
  | 83 => ⟨S50000x128, .f32⟩
  | 84 => ⟨S50000x1, .f32⟩
  | 85 => ⟨S50000x128, .f32⟩
  | 86 => ⟨S50000x128, .f32⟩
  | 87 => ⟨S50000x128, .bf16⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .bf16⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S50000x1, .f32⟩
  | 103 => ⟨S50000x1, .f32⟩
  | 104 => ⟨S50000x128, .f32⟩
  | 105 => ⟨S50000x128, .f32⟩
  | 106 => ⟨S50000x1, .f32⟩
  | 107 => ⟨S50000x128, .f32⟩
  | 108 => ⟨S50000x128, .f32⟩
  | 109 => ⟨S50000x128, .bf16⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x128, .bf16⟩
  | 119 => ⟨S600000x128, .f32⟩
  | 120 => ⟨S_, .f32⟩
  | 121 => ⟨S50000x128, .f32⟩
  | 122 => ⟨S600000x1, .i32⟩
  | 123 => ⟨S50000x128, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S1x128x128, .f32⟩
  | 3 => ⟨S128x128, .f32⟩
  | 4 => ⟨S1x128x128, .f32⟩
  | 5 => ⟨S128x128, .f32⟩
  | 6 => ⟨S1x128, .f32⟩
  | 7 => ⟨S50000x128, .f32⟩
  | 8 => ⟨S50000x1, .f32⟩
  | 9 => ⟨S50000x128, .f32⟩
  | 10 => ⟨S50000x128, .f32⟩
  | 11 => ⟨S50000x128, .bf16⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .bf16⟩
  | 21 => ⟨S600000x128, .f32⟩
  | 22 => ⟨S_, .f32⟩
  | 23 => ⟨S50000x128, .f32⟩
  | 24 => ⟨S600000x1, .i32⟩
  | 25 => ⟨S50000x128, .f32⟩
  | 26 => ⟨S50000x1, .f32⟩
  | 27 => ⟨S50000x1, .f32⟩
  | 28 => ⟨S50000x128, .f32⟩
  | 29 => ⟨S50000x128, .f32⟩
  | 30 => ⟨S50000x1, .f32⟩
  | 31 => ⟨S50000x128, .f32⟩
  | 32 => ⟨S50000x128, .f32⟩
  | 33 => ⟨S50000x128, .bf16⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .bf16⟩
  | 43 => ⟨S600000x128, .f32⟩
  | 44 => ⟨S_, .f32⟩
  | 45 => ⟨S50000x128, .f32⟩
  | 46 => ⟨S600000x1, .i32⟩
  | 47 => ⟨S50000x128, .f32⟩
  | 48 => ⟨S50000x1, .f32⟩
  | 49 => ⟨S50000x1, .f32⟩
  | 50 => ⟨S50000x128, .f32⟩
  | 51 => ⟨S50000x128, .f32⟩
  | 52 => ⟨S1x128x128, .f32⟩
  | 53 => ⟨S128x128, .f32⟩
  | 54 => ⟨S1x128x128, .f32⟩
  | 55 => ⟨S128x128, .f32⟩
  | 56 => ⟨S1x128x128, .f32⟩
  | 57 => ⟨S128x128, .f32⟩
  | 58 => ⟨S1x128, .f32⟩
  | 59 => ⟨S50000x128, .f32⟩
  | 60 => ⟨S_, .f32⟩
  | 61 => ⟨S50000, .f32⟩
  | 62 => ⟨S_, .f32⟩
  | 63 => ⟨S500, .f32⟩
  | 64 => ⟨S50000x1, .i32⟩
  | 65 => ⟨S500, .f32⟩
  | 66 => ⟨S_, .f32⟩
  | 67 => ⟨S500x128, .f32⟩
  | 68 => ⟨S50000x1, .i32⟩
  | 69 => ⟨S500x128, .f32⟩
  | 70 => ⟨S_, .f32⟩
  | 71 => ⟨S500, .f32⟩
  | 72 => ⟨S500, .f32⟩
  | 73 => ⟨S500x1, .f32⟩
  | 74 => ⟨S500x128, .f32⟩
  | 75 => ⟨S500x128, .f32⟩
  | 76 => ⟨S500x32, .f32⟩
  | 77 => ⟨S1x32, .f32⟩
  | 78 => ⟨S500x32, .f32⟩
  | 79 => ⟨S500x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_9 : Ref sig .tc := ⟨.hbm, 88, rfl⟩
abbrev main_v64 : Ref sig .tc := ⟨.hbm, 89, rfl⟩
abbrev main_v65 : Ref sig .tc := ⟨.hbm, 90, rfl⟩
abbrev main_c_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_12 : Ref sig .tc := ⟨.hbm, 110, rfl⟩
abbrev main_v83 : Ref sig .tc := ⟨.hbm, 111, rfl⟩
abbrev main_v84 : Ref sig .tc := ⟨.hbm, 112, rfl⟩
abbrev main_c_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_15 : Ref sig .tc := ⟨.hbm, 140, rfl⟩
abbrev main_v110 : Ref sig .tc := ⟨.hbm, 141, rfl⟩
abbrev main_v111 : Ref sig .tc := ⟨.hbm, 142, rfl⟩
abbrev main_c_16 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_17 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_c_18 : Ref sig .tc := ⟨.hbm, 162, rfl⟩
abbrev main_v129 : Ref sig .tc := ⟨.hbm, 163, rfl⟩
abbrev main_v130 : Ref sig .tc := ⟨.hbm, 164, rfl⟩
abbrev main_c_19 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_20 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_21 : Ref sig .tc := ⟨.hbm, 188, rfl⟩
abbrev main_v152 : Ref sig .tc := ⟨.hbm, 189, rfl⟩
abbrev main_cst_22 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_23 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_24 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S500 : S_.BroadcastsInDim S500 (![] : Fin 0 → Fin S500.rank)
  bcast_S_S500x128 : S_.BroadcastsInDim S500x128 (![] : Fin 0 → Fin S500x128.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S32_S1x32_1 : S32.BroadcastsInDim S1x32 (![1] : Fin 1 → Fin S1x32.rank)
  bcast_S1x32_S500x32_0_1 : S1x32.BroadcastsInDim S500x32 (![0, 1] : Fin 2 → Fin S500x32.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S500_S50000x1_S50000_n_0_0_1_wf : ScatterDims.WF S500 S50000x1 S50000 [] [0] [0] 1
  scatter_S500x128_S50000x1_S50000x128_1_0_0_1_wf : ScatterDims.WF S500x128 S50000x1 S50000x128 [1] [0] [0] 1
  dot_S500x128_S128x32_S500x32_1_0_0_1_n_n_wf : DotDims.WF S500x128 S128x32 S500x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x32_S500x32_1_0_0_1_n_n : DotDims S500x128 S128x32 S500x32 where
  lhsContracting := [1]
  rhsContracting := [0]
  lhsNonContracting := [0]
  rhsNonContracting := [1]
  lhsBatch := []
  rhsBatch := []
  wf := dot_S500x128_S128x32_S500x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v97) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v99) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v101) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v103) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v104) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v105) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v105) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v124) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v143) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v145) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v147) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v149) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v150) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v151) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S3x128x128 : Shape := ⟨3, ![3, 128, 128]⟩
abbrev S128 : Shape := ⟨1, ![128]⟩
abbrev S128x32 : Shape := ⟨2, ![128, 32]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S500 : Shape := ⟨1, ![500]⟩
abbrev S50000x1 : Shape := ⟨2, ![50000, 1]⟩
abbrev S500x128 : Shape := ⟨2, ![500, 128]⟩
abbrev S500x1 : Shape := ⟨2, ![500, 1]⟩
abbrev S500x32 : Shape := ⟨2, ![500, 32]⟩
abbrev S1x32 : Shape := ⟨2, ![1, 32]⟩

abbrev nBuf : Space → Nat
  | .hbm => 271
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S3x128x128, .f32⟩
  | 4 => ⟨S128, .f32⟩
  | 5 => ⟨S3x128x128, .f32⟩
  | 6 => ⟨S128, .f32⟩
  | 7 => ⟨S3x128x128, .f32⟩
  | 8 => ⟨S128, .f32⟩
  | 9 => ⟨S128x32, .f32⟩
  | 10 => ⟨S32, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000, .f32⟩
  | 50 => ⟨S600000, .f32⟩
  | 51 => ⟨S600000, .f32⟩
  | 52 => ⟨S600000x1, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000x128, .f32⟩
  | 62 => ⟨S600000x128, .f32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S1x128x128, .f32⟩
  | 69 => ⟨S128x128, .f32⟩
  | 70 => ⟨S50000x128, .f32⟩
  | 71 => ⟨S1x128x128, .f32⟩
  | 72 => ⟨S128x128, .f32⟩
  | 73 => ⟨S50000x128, .f32⟩
  | 74 => ⟨S50000x128, .f32⟩
  | 75 => ⟨S600000x1, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000, .f32⟩
  | 123 => ⟨S600000, .f32⟩
  | 124 => ⟨S600000, .f32⟩
  | 125 => ⟨S600000x1, .f32⟩
  | 126 => ⟨S_, .i32⟩
  | 127 => ⟨S600000, .i32⟩
  | _ => ⟨S50000x128, .f32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000x128, .f32⟩
  | 7 => ⟨S600000x128, .f32⟩
  | 8 => ⟨S600000x128, .f32⟩
  | 9 => ⟨S_, .f32⟩
  | 10 => ⟨S50000x128, .f32⟩
  | 11 => ⟨S600000x1, .i32⟩
  | 12 => ⟨S50000x128, .f32⟩
  | 13 => ⟨S1x128x128, .f32⟩
  | 14 => ⟨S128x128, .f32⟩
  | 15 => ⟨S50000x128, .f32⟩
  | 16 => ⟨S1x128x128, .f32⟩
  | 17 => ⟨S128x128, .f32⟩
  | 18 => ⟨S50000x128, .f32⟩
  | 19 => ⟨S50000x128, .f32⟩
  | 20 => ⟨S600000x1, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000, .f32⟩
  | 68 => ⟨S600000, .f32⟩
  | 69 => ⟨S600000, .f32⟩
  | 70 => ⟨S600000x1, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000x128, .f32⟩
  | 80 => ⟨S600000x128, .f32⟩
  | 81 => ⟨S600000x128, .f32⟩
  | 82 => ⟨S_, .f32⟩
  | 83 => ⟨S50000x128, .f32⟩
  | 84 => ⟨S600000x1, .i32⟩
  | 85 => ⟨S50000x128, .f32⟩
  | 86 => ⟨S1x128x128, .f32⟩
  | 87 => ⟨S128x128, .f32⟩
  | 88 => ⟨S50000x128, .f32⟩
  | 89 => ⟨S1x128x128, .f32⟩
  | 90 => ⟨S128x128, .f32⟩
  | 91 => ⟨S50000x128, .f32⟩
  | 92 => ⟨S50000x128, .f32⟩
  | 93 => ⟨S600000x1, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128x128, .f32⟩
  | 114 => ⟨S128x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S50000, .f32⟩
  | 125 => ⟨S_, .f32⟩
  | 126 => ⟨S500, .f32⟩
  | 127 => ⟨S50000x1, .i32⟩
  | _ => ⟨S50000x128, .f32⟩

abbrev hbmTy0_2 (i : Nat) : BufTy := match i % 128 with
  | 0 => ⟨S500, .f32⟩
  | 1 => ⟨S_, .f32⟩
  | 2 => ⟨S500x128, .f32⟩
  | 3 => ⟨S50000x1, .i32⟩
  | 4 => ⟨S500x128, .f32⟩
  | 5 => ⟨S_, .f32⟩
  | 6 => ⟨S500, .f32⟩
  | 7 => ⟨S500, .f32⟩
  | 8 => ⟨S500x1, .f32⟩
  | 9 => ⟨S500x128, .f32⟩
  | 10 => ⟨S500x128, .f32⟩
  | 11 => ⟨S500x32, .f32⟩
  | 12 => ⟨S1x32, .f32⟩
  | 13 => ⟨S500x32, .f32⟩
  | 14 => ⟨S500x32, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call1_cst : Ref sig .tc := ⟨.hbm, 102, rfl⟩
abbrev main_call1_v0 : Ref sig .tc := ⟨.hbm, 103, rfl⟩
abbrev main_v73 : Ref sig .tc := ⟨.hbm, 104, rfl⟩
abbrev main_c_14 : Ref sig .tc := ⟨.hbm, 105, rfl⟩
abbrev main_v74 : Ref sig .tc := ⟨.hbm, 106, rfl⟩
abbrev main_v75 : Ref sig .tc := ⟨.hbm, 107, rfl⟩
abbrev main_c_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_18 : Ref sig .tc := ⟨.hbm, 126, rfl⟩
abbrev main_v91 : Ref sig .tc := ⟨.hbm, 127, rfl⟩
abbrev main_v92 : Ref sig .tc := ⟨.hbm, 128, rfl⟩
abbrev main_c_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_21 : Ref sig .tc := ⟨.hbm, 149, rfl⟩
abbrev main_v111 : Ref sig .tc := ⟨.hbm, 150, rfl⟩
abbrev main_v112 : Ref sig .tc := ⟨.hbm, 151, rfl⟩
abbrev main_c_22 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_23 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_24 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_call2_cst : Ref sig .tc := ⟨.hbm, 175, rfl⟩
abbrev main_call2_v0 : Ref sig .tc := ⟨.hbm, 176, rfl⟩
abbrev main_v133 : Ref sig .tc := ⟨.hbm, 177, rfl⟩
abbrev main_c_25 : Ref sig .tc := ⟨.hbm, 178, rfl⟩
abbrev main_v134 : Ref sig .tc := ⟨.hbm, 179, rfl⟩
abbrev main_v135 : Ref sig .tc := ⟨.hbm, 180, rfl⟩
abbrev main_c_26 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_27 : Ref sig .tc := ⟨.hbm, 187, rfl⟩
abbrev main_v141 : Ref sig .tc := ⟨.hbm, 188, rfl⟩
abbrev main_v142 : Ref sig .tc := ⟨.hbm, 189, rfl⟩
abbrev main_c_28 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_29 : Ref sig .tc := ⟨.hbm, 199, rfl⟩
abbrev main_v151 : Ref sig .tc := ⟨.hbm, 200, rfl⟩
abbrev main_v152 : Ref sig .tc := ⟨.hbm, 201, rfl⟩
abbrev main_c_30 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_31 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_c_32 : Ref sig .tc := ⟨.hbm, 222, rfl⟩
abbrev main_v171 : Ref sig .tc := ⟨.hbm, 223, rfl⟩
abbrev main_v172 : Ref sig .tc := ⟨.hbm, 224, rfl⟩
abbrev main_c_33 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_cst_34 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_cst_35 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_call3_cst : Ref sig .tc := ⟨.hbm, 248, rfl⟩
abbrev main_call3_v0 : Ref sig .tc := ⟨.hbm, 249, rfl⟩
abbrev main_v193 : Ref sig .tc := ⟨.hbm, 250, rfl⟩
abbrev main_cst_36 : Ref sig .tc := ⟨.hbm, 251, rfl⟩
abbrev main_v194 : Ref sig .tc := ⟨.hbm, 252, rfl⟩
abbrev main_cst_37 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_cst_38 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_cst_39 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S500 : S_.BroadcastsInDim S500 (![] : Fin 0 → Fin S500.rank)
  bcast_S50000_S50000x1_0 : S50000.BroadcastsInDim S50000x1 (![0] : Fin 1 → Fin S50000x1.rank)
  bcast_S_S500x128 : S_.BroadcastsInDim S500x128 (![] : Fin 0 → Fin S500x128.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S32_S1x32_1 : S32.BroadcastsInDim S1x32 (![1] : Fin 1 → Fin S1x32.rank)
  bcast_S1x32_S500x32_0_1 : S1x32.BroadcastsInDim S500x32 (![0, 1] : Fin 2 → Fin S500x32.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S500_S50000x1_S50000_n_0_0_1_wf : ScatterDims.WF S500 S50000x1 S50000 [] [0] [0] 1
  scatter_S500x128_S50000x1_S50000x128_1_0_0_1_wf : ScatterDims.WF S500x128 S50000x1 S50000x128 [1] [0] [0] 1
  dot_S500x128_S128x32_S500x32_1_0_0_1_n_n_wf : DotDims.WF S500x128 S128x32 S500x32 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x32_S500x32_1_0_0_1_n_n : DotDims S500x128 S128x32 S500x32 where
  lhsContracting := [1]
  rhsContracting := [0]
  lhsNonContracting := [0]
  rhsNonContracting := [1]
  lhsBatch := []
  rhsBatch := []
  wf := dot_S500x128_S128x32_S500x32_1_0_0_1_n_n_wf

class Facts : Prop extends Facts₀ where

variable [Facts]
-- ==== Proof.KernelRun.lean ====
/-
  The kernel program's run with its result named.

  @main is nine segments: stretches of host operations around three pipelined regions. The buffer contents at each
  segment boundary are a fold from the launch memory: a stretch applies its operations, a region leaves its arrays at
  what its write-backs fold to and every other buffer as entered. Every weakly fair execution terminates with every
  unscoped buffer at the last boundary's contents; so the result buffer holds the last fold's value there, and the
  arguments, which nothing writes, hold what they were launched with.
-/
import proofs.«177079_j59863254171804_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the value the last
    stretch of host operations leaves there and the argument arrays as launched. -/
theorem run : θ_run defs (onTc (τ := τ) (main (F := F))) ⟨m, fun _ => 0, ρ⟩ (fun r => ∀ c : Dev nD,
      r.2.mem ((c.tc : Thread nD τ).loc main_v167) = W9 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v167 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.RefOps.lean ====
/-
  The reference program as a list of its 260 host operations, and the list cut into five stretches: the head (the two
  rows of the edge list and the per-node factor), the three layers, and the tail (pooling and the linear head). The
  contents of the buffers after two stretches in a row are those after the second, from those after the first.
-/
import proofs.«177079_j59863254171804_2_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The program's 260 operations, in order (a called function's operations stand in its call's place). -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v12) (TRef.of (T := ⟨S50000, .f32⟩) main_call0_v1) (TRef.of (T := ⟨S50000, .f32⟩) main_v13) select,
    nullary main_c (constantI S_ 32 0#32),
    unary main_c main_v14 (broadcastInDim S600000 ![] bcast_S_S600000 : (⟨S_, .i32⟩ : BufTy).Contents (Elt F) → (⟨S600000, .i32⟩ : BufTy).Contents (Elt F)),
    binary main_v1 main_v14 main_v15 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v16 (broadcastInDim S600000 ![] bcast_S_S600000 : (⟨S_, .i32⟩ : BufTy).Contents (Elt F) → (⟨S600000, .i32⟩ : BufTy).Contents (Elt F)),
    binary main_v1 main_v16 main_v17 (addi : (⟨S600000, .i32⟩ : BufTy).Contents (Elt F) → (⟨S600000, .i32⟩ : BufTy).Contents (Elt F) → (⟨S600000, .i32⟩ : BufTy).Contents (Elt F)),
    ternary main_v15 main_v17 main_v1 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v18 main_v19 (broadcastInDim S600000x1 ![0] bcast_S600000_S600000x1_0 : (⟨S600000, .i32⟩ : BufTy).Contents (Elt F) → (⟨S600000x1, .i32⟩ : BufTy).Contents (Elt F)),
    binary main_v13 main_v19 main_v20 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v21 (broadcastInDim S600000 ![] bcast_S_S600000 : (⟨S_, .i32⟩ : BufTy).Contents (Elt F) → (⟨S600000, .i32⟩ : BufTy).Contents (Elt F)),
    binary main_v3 main_v21 main_v22 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v23 (broadcastInDim S600000 ![] bcast_S_S600000 : (⟨S_, .i32⟩ : BufTy).Contents (Elt F) → (⟨S600000, .i32⟩ : BufTy).Contents (Elt F)),
    binary main_v3 main_v23 main_v24 (addi : (⟨S600000, .i32⟩ : BufTy).Contents (Elt F) → (⟨S600000, .i32⟩ : BufTy).Contents (Elt F) → (⟨S600000, .i32⟩ : BufTy).Contents (Elt F)),
    ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v25 main_v26 (broadcastInDim S600000x1 ![0] bcast_S600000_S600000x1_0 : (⟨S600000, .i32⟩ : BufTy).Contents (Elt F) → (⟨S600000x1, .i32⟩ : BufTy).Contents (Elt F)),
    binary main_v13 main_v26 main_v27 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v20 main_v27 main_v28 (mulf : (⟨S600000, .f32⟩ : BufTy).Contents (Elt F) → (⟨S600000, .f32⟩ : BufTy).Contents (Elt F) → (⟨S600000, .f32⟩ : BufTy).Contents (Elt F)),
    unary main_v28 main_v29 (Host.negf : (⟨S600000, .f32⟩ : BufTy).Contents (Elt F) → (⟨S600000, .f32⟩ : BufTy).Contents (Elt F)),
    unary main_v29 main_v30 (broadcastInDim S600000x1 ![0] bcast_S600000_S600000x1_0 : (⟨S600000, .f32⟩ : BufTy).Contents (Elt F) → (⟨S600000x1, .f32⟩ : BufTy).Contents (Elt F)),
    nullary main_c_7 (constantI S_ 32 0#32),
    unary main_c_7 main_v31 (broadcastInDim S600000 ![] bcast_S_S600000 : (⟨S_, .i32⟩ : BufTy).Contents (Elt F) → (⟨S600000, .i32⟩ : BufTy).Contents (Elt F)),
    binary main_v1 main_v31 main_v32 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v33 (broadcastInDim S600000 ![] bcast_S_S600000 : (⟨S_, .i32⟩ : BufTy).Contents (Elt F) → (⟨S600000, .i32⟩ : BufTy).Contents (Elt F)),
    binary main_v1 main_v33 main_v34 (addi : (⟨S600000, .i32⟩ : BufTy).Contents (Elt F) → (⟨S600000, .i32⟩ : BufTy).Contents (Elt F) → (⟨S600000, .i32⟩ : BufTy).Contents (Elt F)),
    ternary main_v32 main_v34 main_v1 main_v35 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v35 main_v36 (broadcastInDim S600000x1 ![0] bcast_S600000_S600000x1_0 : (⟨S600000, .i32⟩ : BufTy).Contents (Elt F) → (⟨S600000x1, .i32⟩ : BufTy).Contents (Elt F)),
    binary main_arg0 main_v36 main_v37 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v30 main_v38 (broadcastInDim S600000x128 ![0, 1] bcast_S600000x1_S600000x128_0_1 : (⟨S600000x1, .f32⟩ : BufTy).Contents (Elt F) → (⟨S600000x128, .f32⟩ : BufTy).Contents (Elt F)),
    binary main_v38 main_v37 main_v39 (mulf : (⟨S600000x128, .f32⟩ : BufTy).Contents (Elt F) → (⟨S600000x128, .f32⟩ : BufTy).Contents (Elt F) → (⟨S600000x128, .f32⟩ : BufTy).Contents (Elt F)),
    nullary main_cst_9 (constant S_ .f32 0x00000000#32),
    unary main_cst_9 main_v40 (broadcastInDim S50000x128 ![] bcast_S_S50000x128 : (⟨S_, .f32⟩ : BufTy).Contents (Elt F) → (⟨S50000x128, .f32⟩ : BufTy).Contents (Elt F)),
    unary main_v3 main_v41 (broadcastInDim S600000x1 ![0] bcast_S600000_S600000x1_0 : (⟨S600000, .i32⟩ : BufTy).Contents (Elt F) → (⟨S600000x1, .i32⟩ : BufTy).Contents (Elt F)),
    ternary main_v40 main_v41 main_v39 main_v42 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg3 main_v43 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v43 main_v44 rfl shapeCasts_S1x128x128_S128x128,
    binary main_arg0 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v46 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v46 main_v47 rfl shapeCasts_S1x128x128_S128x128,
    binary main_v42 main_v47 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v45 main_v48 main_v49 (addf : (⟨S50000x128, .f32⟩ : BufTy).Contents (Elt F) → (⟨S50000x128, .f32⟩ : BufTy).Contents (Elt F) → (⟨S50000x128, .f32⟩ : BufTy).Contents (Elt F)),
    unary main_v29 main_v50 (broadcastInDim S600000x1 ![0] bcast_S600000_S600000x1_0 : (⟨S600000, .f32⟩ : BufTy).Contents (Elt F) → (⟨S600000x1, .f32⟩ : BufTy).Contents (Elt F)),
    nullary main_c_10 (constantI S_ 32 0#32),
    unary main_c_10 main_v51 (broadcastInDim S600000 ![] bcast_S_S600000 : (⟨S_, .i32⟩ : BufTy).Contents (Elt F) → (⟨S600000, .i32⟩ : BufTy).Contents (Elt F)),
    binary main_v1 main_v51 main_v52 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v53 (broadcastInDim S600000 ![] bcast_S_S600000 : (⟨S_, .i32⟩ : BufTy).Contents (Elt F) → (⟨S600000, .i32⟩ : BufTy).Contents (Elt F)),
    binary main_v1 main_v53 main_v54 (addi : (⟨S600000, .i32⟩ : BufTy).Contents (Elt F) → (⟨S600000, .i32⟩ : BufTy).Contents (Elt F) → (⟨S600000, .i32⟩ : BufTy).Contents (Elt F)),
    ternary main_v52 main_v54 main_v1 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v55 main_v56 (broadcastInDim S600000x1 ![0] bcast_S600000_S600000x1_0 : (⟨S600000, .i32⟩ : BufTy).Contents (Elt F) → (⟨S600000x1, .i32⟩ : BufTy).Contents (Elt F)),
    binary main_v42 main_v56 main_v57 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v50 main_v58 (broadcastInDim S600000x128 ![0, 1] bcast_S600000x1_S600000x128_0_1 : (⟨S600000x1, .f32⟩ : BufTy).Contents (Elt F) → (⟨S600000x128, .f32⟩ : BufTy).Contents (Elt F)),
    binary main_v58 main_v57 main_v59 (mulf : (⟨S600000x128, .f32⟩ : BufTy).Contents (Elt F) → (⟨S600000x128, .f32⟩ : BufTy).Contents (Elt F) → (⟨S600000x128, .f32⟩ : BufTy).Contents (Elt F)),
    nullary main_cst_12 (constant S_ .f32 0x00000000#32),
    unary main_cst_12 main_v60 (broadcastInDim S50000x128 ![] bcast_S_S50000x128 : (⟨S_, .f32⟩ : BufTy).Contents (Elt F) → (⟨S50000x128, .f32⟩ : BufTy).Contents (Elt F)),
    unary main_v3 main_v61 (broadcastInDim S600000x1 ![0] bcast_S600000_S600000x1_0 : (⟨S600000, .i32⟩ : BufTy).Contents (Elt F) → (⟨S600000x1, .i32⟩ : BufTy).Contents (Elt F)),
    ternary main_v60 main_v61 main_v59 main_v62 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_13 (constant S_ .f32 0x40000000#32),
    unary main_cst_13 main_v63 (broadcastInDim S50000x128 ![] bcast_S_S50000x128 : (⟨S_, .f32⟩ : BufTy).Contents (Elt F) → (⟨S50000x128, .f32⟩ : BufTy).Contents (Elt F)),
    binary main_v63 main_v62 main_v64 (mulf : (⟨S50000x128, .f32⟩ : BufTy).Contents (Elt F) → (⟨S50000x128, .f32⟩ : BufTy).Contents (Elt F) → (⟨S50000x128, .f32⟩ : BufTy).Contents (Elt F)),
    binary main_v64 main_arg0 main_v65 (subf : (⟨S50000x128, .f32⟩ : BufTy).Contents (Elt F) → (⟨S50000x128, .f32⟩ : BufTy).Contents (Elt F) → (⟨S50000x128, .f32⟩ : BufTy).Contents (Elt F)),
    unary main_arg3 main_v66 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v49 main_v68 main_v69 (addf : (⟨S50000x128, .f32⟩ : BufTy).Contents (Elt F) → (⟨S50000x128, .f32⟩ : BufTy).Contents (Elt F) → (⟨S50000x128, .f32⟩ : BufTy).Contents (Elt F)),
    unary main_arg4 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v72) (TRef.of (T := ⟨S50000x128, .f32⟩) main_call1_v0) (TRef.of (T := ⟨S50000x128, .f32⟩) main_v73) maximumf,
    nullary main_c_14 (constantI S_ 32 0#32),
    unary main_c_14 main_v74 (broadcastInDim S600000 ![] bcast_S_S600000 : (⟨S_, .i32⟩ : BufTy).Contents (Elt F) → (⟨S600000, .i32⟩ : BufTy).Contents (Elt F)),
    binary main_v1 main_v74 main_v75 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v76 (broadcastInDim S600000 ![] bcast_S_S600000 : (⟨S_, .i32⟩ : BufTy).Contents (Elt F) → (⟨S600000, .i32⟩ : BufTy).Contents (Elt F)),
    binary main_v1 main_v76 main_v77 (addi : (⟨S600000, .i32⟩ : BufTy).Contents (Elt F) → (⟨S600000, .i32⟩ : BufTy).Contents (Elt F) → (⟨S600000, .i32⟩ : BufTy).Contents (Elt F)),
    ternary main_v75 main_v77 main_v1 main_v78 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v78 main_v79 (broadcastInDim S600000x1 ![0] bcast_S600000_S600000x1_0 : (⟨S600000, .i32⟩ : BufTy).Contents (Elt F) → (⟨S600000x1, .i32⟩ : BufTy).Contents (Elt F)),
    binary main_v13 main_v79 main_v80 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_16 (constantI S_ 32 0#32),
    unary main_c_16 main_v81 (broadcastInDim S600000 ![] bcast_S_S600000 : (⟨S_, .i32⟩ : BufTy).Contents (Elt F) → (⟨S600000, .i32⟩ : BufTy).Contents (Elt F)),
    binary main_v3 main_v81 main_v82 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v83 (broadcastInDim S600000 ![] bcast_S_S600000 : (⟨S_, .i32⟩ : BufTy).Contents (Elt F) → (⟨S600000, .i32⟩ : BufTy).Contents (Elt F)),
    binary main_v3 main_v83 main_v84 (addi : (⟨S600000, .i32⟩ : BufTy).Contents (Elt F) → (⟨S600000, .i32⟩ : BufTy).Contents (Elt F) → (⟨S600000, .i32⟩ : BufTy).Contents (Elt F)),
    ternary main_v82 main_v84 main_v3 main_v85 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v85 main_v86 (broadcastInDim S600000x1 ![0] bcast_S600000_S600000x1_0 : (⟨S600000, .i32⟩ : BufTy).Contents (Elt F) → (⟨S600000x1, .i32⟩ : BufTy).Contents (Elt F)),
    binary main_v13 main_v86 main_v87 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v80 main_v87 main_v88 (mulf : (⟨S600000, .f32⟩ : BufTy).Contents (Elt F) → (⟨S600000, .f32⟩ : BufTy).Contents (Elt F) → (⟨S600000, .f32⟩ : BufTy).Contents (Elt F)),
    unary main_v88 main_v89 (Host.negf : (⟨S600000, .f32⟩ : BufTy).Contents (Elt F) → (⟨S600000, .f32⟩ : BufTy).Contents (Elt F)),
    unary main_v89 main_v90 (broadcastInDim S600000x1 ![0] bcast_S600000_S600000x1_0 : (⟨S600000, .f32⟩ : BufTy).Contents (Elt F) → (⟨S600000x1, .f32⟩ : BufTy).Contents (Elt F)),
    nullary main_c_18 (constantI S_ 32 0#32),
    unary main_c_18 main_v91 (broadcastInDim S600000 ![] bcast_S_S600000 : (⟨S_, .i32⟩ : BufTy).Contents (Elt F) → (⟨S600000, .i32⟩ : BufTy).Contents (Elt F)),
    binary main_v1 main_v91 main_v92 (cmpi .slt : (⟨S600000, .i32⟩ : BufTy).Contents (Elt F) → (⟨S600000, .i32⟩ : BufTy).Contents (Elt F) → (⟨S600000, .i1⟩ : BufTy).Contents (Elt F)),
    nullary main_c_19 (constantI S_ 32 50000#32),
    unary main_c_19 main_v93 (broadcastInDim S600000 ![] bcast_S_S600000 : (⟨S_, .i32⟩ : BufTy).Contents (Elt F) → (⟨S600000, .i32⟩ : BufTy).Contents (Elt F)),
    binary main_v1 main_v93 main_v94 (addi : (⟨S600000, .i32⟩ : BufTy).Contents (Elt F) → (⟨S600000, .i32⟩ : BufTy).Contents (Elt F) → (⟨S600000, .i32⟩ : BufTy).Contents (Elt F)),
    ternary main_v92 main_v94 main_v1 main_v95 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v95 main_v96 (broadcastInDim S600000x1 ![0] bcast_S600000_S600000x1_0 : (⟨S600000, .i32⟩ : BufTy).Contents (Elt F) → (⟨S600000x1, .i32⟩ : BufTy).Contents (Elt F)),
    binary main_v73 main_v96 main_v97 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v90 main_v98 (broadcastInDim S600000x128 ![0, 1] bcast_S600000x1_S600000x128_0_1 : (⟨S600000x1, .f32⟩ : BufTy).Contents (Elt F) → (⟨S600000x128, .f32⟩ : BufTy).Contents (Elt F)),
    binary main_v98 main_v97 main_v99 (mulf : (⟨S600000x128, .f32⟩ : BufTy).Contents (Elt F) → (⟨S600000x128, .f32⟩ : BufTy).Contents (Elt F) → (⟨S600000x128, .f32⟩ : BufTy).Contents (Elt F)),
    nullary main_cst_20 (constant S_ .f32 0x00000000#32),
    unary main_cst_20 main_v100 (broadcastInDim S50000x128 ![] bcast_S_S50000x128 : (⟨S_, .f32⟩ : BufTy).Contents (Elt F) → (⟨S50000x128, .f32⟩ : BufTy).Contents (Elt F)),
    unary main_v3 main_v101 (broadcastInDim S600000x1 ![0] bcast_S600000_S600000x1_0 : (⟨S600000, .i32⟩ : BufTy).Contents (Elt F) → (⟨S600000x1, .i32⟩ : BufTy).Contents (Elt F)),
    ternary main_v100 main_v101 main_v99 main_v102 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg5 main_v103 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v103 main_v104 rfl shapeCasts_S1x128x128_S128x128,
    binary main_v73 main_v104 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v106 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v106 main_v107 rfl shapeCasts_S1x128x128_S128x128,
    binary main_v102 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v105 main_v108 main_v109 (addf : (⟨S50000x128, .f32⟩ : BufTy).Contents (Elt F) → (⟨S50000x128, .f32⟩ : BufTy).Contents (Elt F) → (⟨S50000x128, .f32⟩ : BufTy).Contents (Elt F)),
    unary main_v89 main_v110 (broadcastInDim S600000x1 ![0] bcast_S600000_S600000x1_0 : (⟨S600000, .f32⟩ : BufTy).Contents (Elt F) → (⟨S600000x1, .f32⟩ : BufTy).Contents (Elt F)),
    nullary main_c_21 (constantI S_ 32 0#32),
    unary main_c_21 main_v111 (broadcastInDim S600000 ![] bcast_S_S600000 : (⟨S_, .i32⟩ : BufTy).Contents (Elt F) → (⟨S600000, .i32⟩ : BufTy).Contents (Elt F)),
    binary main_v1 main_v111 main_v112 (cmpi .slt : (⟨S600000, .i32⟩ : BufTy).Contents (Elt F) → (⟨S600000, .i32⟩ : BufTy).Contents (Elt F) → (⟨S600000, .i1⟩ : BufTy).Contents (Elt F)),
    nullary main_c_22 (constantI S_ 32 50000#32),
    unary main_c_22 main_v113 (broadcastInDim S600000 ![] bcast_S_S600000 : (⟨S_, .i32⟩ : BufTy).Contents (Elt F) → (⟨S600000, .i32⟩ : BufTy).Contents (Elt F)),
    binary main_v1 main_v113 main_v114 (addi : (⟨S600000, .i32⟩ : BufTy).Contents (Elt F) → (⟨S600000, .i32⟩ : BufTy).Contents (Elt F) → (⟨S600000, .i32⟩ : BufTy).Contents (Elt F)),
    ternary main_v112 main_v114 main_v1 main_v115 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v115 main_v116 (broadcastInDim S600000x1 ![0] bcast_S600000_S600000x1_0 : (⟨S600000, .i32⟩ : BufTy).Contents (Elt F) → (⟨S600000x1, .i32⟩ : BufTy).Contents (Elt F)),
    binary main_v102 main_v116 main_v117 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v110 main_v118 (broadcastInDim S600000x128 ![0, 1] bcast_S600000x1_S600000x128_0_1 : (⟨S600000x1, .f32⟩ : BufTy).Contents (Elt F) → (⟨S600000x128, .f32⟩ : BufTy).Contents (Elt F)),
    binary main_v118 main_v117 main_v119 (mulf : (⟨S600000x128, .f32⟩ : BufTy).Contents (Elt F) → (⟨S600000x128, .f32⟩ : BufTy).Contents (Elt F) → (⟨S600000x128, .f32⟩ : BufTy).Contents (Elt F)),
    nullary main_cst_23 (constant S_ .f32 0x00000000#32),
    unary main_cst_23 main_v120 (broadcastInDim S50000x128 ![] bcast_S_S50000x128 : (⟨S_, .f32⟩ : BufTy).Contents (Elt F) → (⟨S50000x128, .f32⟩ : BufTy).Contents (Elt F)),
    unary main_v3 main_v121 (broadcastInDim S600000x1 ![0] bcast_S600000_S600000x1_0 : (⟨S600000, .i32⟩ : BufTy).Contents (Elt F) → (⟨S600000x1, .i32⟩ : BufTy).Contents (Elt F)),
    ternary main_v120 main_v121 main_v119 main_v122 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_24 (constant S_ .f32 0x40000000#32),
    unary main_cst_24 main_v123 (broadcastInDim S50000x128 ![] bcast_S_S50000x128 : (⟨S_, .f32⟩ : BufTy).Contents (Elt F) → (⟨S50000x128, .f32⟩ : BufTy).Contents (Elt F)),
    binary main_v123 main_v122 main_v124 (mulf : (⟨S50000x128, .f32⟩ : BufTy).Contents (Elt F) → (⟨S50000x128, .f32⟩ : BufTy).Contents (Elt F) → (⟨S50000x128, .f32⟩ : BufTy).Contents (Elt F)),
    binary main_v124 main_v73 main_v125 (subf : (⟨S50000x128, .f32⟩ : BufTy).Contents (Elt F) → (⟨S50000x128, .f32⟩ : BufTy).Contents (Elt F) → (⟨S50000x128, .f32⟩ : BufTy).Contents (Elt F)),
    unary main_arg5 main_v126 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v126 main_v127 rfl shapeCasts_S1x128x128_S128x128,
    binary main_v125 main_v127 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v109 main_v128 main_v129 (addf : (⟨S50000x128, .f32⟩ : BufTy).Contents (Elt F) → (⟨S50000x128, .f32⟩ : BufTy).Contents (Elt F) → (⟨S50000x128, .f32⟩ : BufTy).Contents (Elt F)),
    unary main_arg6 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v129 main_v131 main_v132 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v132) (TRef.of (T := ⟨S50000x128, .f32⟩) main_call2_v0) (TRef.of (T := ⟨S50000x128, .f32⟩) main_v133) maximumf,
    nullary main_c_25 (constantI S_ 32 0#32),
    unary main_c_25 main_v134 (broadcastInDim S600000 ![] bcast_S_S600000 : (⟨S_, .i32⟩ : BufTy).Contents (Elt F) → (⟨S600000, .i32⟩ : BufTy).Contents (Elt F)),
    binary main_v1 main_v134 main_v135 (cmpi .slt : (⟨S600000, .i32⟩ : BufTy).Contents (Elt F) → (⟨S600000, .i32⟩ : BufTy).Contents (Elt F) → (⟨S600000, .i1⟩ : BufTy).Contents (Elt F)),
    nullary main_c_26 (constantI S_ 32 50000#32),
    unary main_c_26 main_v136 (broadcastInDim S600000 ![] bcast_S_S600000 : (⟨S_, .i32⟩ : BufTy).Contents (Elt F) → (⟨S600000, .i32⟩ : BufTy).Contents (Elt F)),
    binary main_v1 main_v136 main_v137 (addi : (⟨S600000, .i32⟩ : BufTy).Contents (Elt F) → (⟨S600000, .i32⟩ : BufTy).Contents (Elt F) → (⟨S600000, .i32⟩ : BufTy).Contents (Elt F)),
    ternary main_v135 main_v137 main_v1 main_v138 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v138 main_v139 (broadcastInDim S600000x1 ![0] bcast_S600000_S600000x1_0 : (⟨S600000, .i32⟩ : BufTy).Contents (Elt F) → (⟨S600000x1, .i32⟩ : BufTy).Contents (Elt F)),
    binary main_v13 main_v139 main_v140 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_27 (constantI S_ 32 0#32),
    unary main_c_27 main_v141 (broadcastInDim S600000 ![] bcast_S_S600000 : (⟨S_, .i32⟩ : BufTy).Contents (Elt F) → (⟨S600000, .i32⟩ : BufTy).Contents (Elt F)),
    binary main_v3 main_v141 main_v142 (cmpi .slt : (⟨S600000, .i32⟩ : BufTy).Contents (Elt F) → (⟨S600000, .i32⟩ : BufTy).Contents (Elt F) → (⟨S600000, .i1⟩ : BufTy).Contents (Elt F)),
    nullary main_c_28 (constantI S_ 32 50000#32),
    unary main_c_28 main_v143 (broadcastInDim S600000 ![] bcast_S_S600000 : (⟨S_, .i32⟩ : BufTy).Contents (Elt F) → (⟨S600000, .i32⟩ : BufTy).Contents (Elt F)),
    binary main_v3 main_v143 main_v144 (addi : (⟨S600000, .i32⟩ : BufTy).Contents (Elt F) → (⟨S600000, .i32⟩ : BufTy).Contents (Elt F) → (⟨S600000, .i32⟩ : BufTy).Contents (Elt F)),
    ternary main_v142 main_v144 main_v3 main_v145 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v145 main_v146 (broadcastInDim S600000x1 ![0] bcast_S600000_S600000x1_0 : (⟨S600000, .i32⟩ : BufTy).Contents (Elt F) → (⟨S600000x1, .i32⟩ : BufTy).Contents (Elt F)),
    binary main_v13 main_v146 main_v147 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v140 main_v147 main_v148 (mulf : (⟨S600000, .f32⟩ : BufTy).Contents (Elt F) → (⟨S600000, .f32⟩ : BufTy).Contents (Elt F) → (⟨S600000, .f32⟩ : BufTy).Contents (Elt F)),
    unary main_v148 main_v149 (Host.negf : (⟨S600000, .f32⟩ : BufTy).Contents (Elt F) → (⟨S600000, .f32⟩ : BufTy).Contents (Elt F)),
    unary main_v149 main_v150 (broadcastInDim S600000x1 ![0] bcast_S600000_S600000x1_0 : (⟨S600000, .f32⟩ : BufTy).Contents (Elt F) → (⟨S600000x1, .f32⟩ : BufTy).Contents (Elt F)),
    nullary main_c_29 (constantI S_ 32 0#32),
    unary main_c_29 main_v151 (broadcastInDim S600000 ![] bcast_S_S600000 : (⟨S_, .i32⟩ : BufTy).Contents (Elt F) → (⟨S600000, .i32⟩ : BufTy).Contents (Elt F)),
    binary main_v1 main_v151 main_v152 (cmpi .slt : (⟨S600000, .i32⟩ : BufTy).Contents (Elt F) → (⟨S600000, .i32⟩ : BufTy).Contents (Elt F) → (⟨S600000, .i1⟩ : BufTy).Contents (Elt F)),
    nullary main_c_30 (constantI S_ 32 50000#32),
    unary main_c_30 main_v153 (broadcastInDim S600000 ![] bcast_S_S600000 : (⟨S_, .i32⟩ : BufTy).Contents (Elt F) → (⟨S600000, .i32⟩ : BufTy).Contents (Elt F)),
    binary main_v1 main_v153 main_v154 (addi : (⟨S600000, .i32⟩ : BufTy).Contents (Elt F) → (⟨S600000, .i32⟩ : BufTy).Contents (Elt F) → (⟨S600000, .i32⟩ : BufTy).Contents (Elt F)),
    ternary main_v152 main_v154 main_v1 main_v155 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v155 main_v156 (broadcastInDim S600000x1 ![0] bcast_S600000_S600000x1_0 : (⟨S600000, .i32⟩ : BufTy).Contents (Elt F) → (⟨S600000x1, .i32⟩ : BufTy).Contents (Elt F)),
    binary main_v133 main_v156 main_v157 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v150 main_v158 (broadcastInDim S600000x128 ![0, 1] bcast_S600000x1_S600000x128_0_1 : (⟨S600000x1, .f32⟩ : BufTy).Contents (Elt F) → (⟨S600000x128, .f32⟩ : BufTy).Contents (Elt F)),
    binary main_v158 main_v157 main_v159 (mulf : (⟨S600000x128, .f32⟩ : BufTy).Contents (Elt F) → (⟨S600000x128, .f32⟩ : BufTy).Contents (Elt F) → (⟨S600000x128, .f32⟩ : BufTy).Contents (Elt F)),
    nullary main_cst_31 (constant S_ .f32 0x00000000#32),
    unary main_cst_31 main_v160 (broadcastInDim S50000x128 ![] bcast_S_S50000x128 : (⟨S_, .f32⟩ : BufTy).Contents (Elt F) → (⟨S50000x128, .f32⟩ : BufTy).Contents (Elt F)),
    unary main_v3 main_v161 (broadcastInDim S600000x1 ![0] bcast_S600000_S600000x1_0 : (⟨S600000, .i32⟩ : BufTy).Contents (Elt F) → (⟨S600000x1, .i32⟩ : BufTy).Contents (Elt F)),
    ternary main_v160 main_v161 main_v159 main_v162 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg7 main_v163 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v163 main_v164 rfl shapeCasts_S1x128x128_S128x128,
    binary main_v133 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v166 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v166 main_v167 rfl shapeCasts_S1x128x128_S128x128,
    binary main_v162 main_v167 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v165 main_v168 main_v169 (addf : (⟨S50000x128, .f32⟩ : BufTy).Contents (Elt F) → (⟨S50000x128, .f32⟩ : BufTy).Contents (Elt F) → (⟨S50000x128, .f32⟩ : BufTy).Contents (Elt F)),
    unary main_v149 main_v170 (broadcastInDim S600000x1 ![0] bcast_S600000_S600000x1_0 : (⟨S600000, .f32⟩ : BufTy).Contents (Elt F) → (⟨S600000x1, .f32⟩ : BufTy).Contents (Elt F)),
    nullary main_c_32 (constantI S_ 32 0#32),
    unary main_c_32 main_v171 (broadcastInDim S600000 ![] bcast_S_S600000 : (⟨S_, .i32⟩ : BufTy).Contents (Elt F) → (⟨S600000, .i32⟩ : BufTy).Contents (Elt F)),
    binary main_v1 main_v171 main_v172 (cmpi .slt : (⟨S600000, .i32⟩ : BufTy).Contents (Elt F) → (⟨S600000, .i32⟩ : BufTy).Contents (Elt F) → (⟨S600000, .i1⟩ : BufTy).Contents (Elt F)),
    nullary main_c_33 (constantI S_ 32 50000#32),
    unary main_c_33 main_v173 (broadcastInDim S600000 ![] bcast_S_S600000 : (⟨S_, .i32⟩ : BufTy).Contents (Elt F) → (⟨S600000, .i32⟩ : BufTy).Contents (Elt F)),
    binary main_v1 main_v173 main_v174 (addi : (⟨S600000, .i32⟩ : BufTy).Contents (Elt F) → (⟨S600000, .i32⟩ : BufTy).Contents (Elt F) → (⟨S600000, .i32⟩ : BufTy).Contents (Elt F)),
    ternary main_v172 main_v174 main_v1 main_v175 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v175 main_v176 (broadcastInDim S600000x1 ![0] bcast_S600000_S600000x1_0 : (⟨S600000, .i32⟩ : BufTy).Contents (Elt F) → (⟨S600000x1, .i32⟩ : BufTy).Contents (Elt F)),
    binary main_v162 main_v176 main_v177 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v170 main_v178 (broadcastInDim S600000x128 ![0, 1] bcast_S600000x1_S600000x128_0_1 : (⟨S600000x1, .f32⟩ : BufTy).Contents (Elt F) → (⟨S600000x128, .f32⟩ : BufTy).Contents (Elt F)),
    binary main_v178 main_v177 main_v179 (mulf : (⟨S600000x128, .f32⟩ : BufTy).Contents (Elt F) → (⟨S600000x128, .f32⟩ : BufTy).Contents (Elt F) → (⟨S600000x128, .f32⟩ : BufTy).Contents (Elt F)),
    nullary main_cst_34 (constant S_ .f32 0x00000000#32),
    unary main_cst_34 main_v180 (broadcastInDim S50000x128 ![] bcast_S_S50000x128 : (⟨S_, .f32⟩ : BufTy).Contents (Elt F) → (⟨S50000x128, .f32⟩ : BufTy).Contents (Elt F)),
    unary main_v3 main_v181 (broadcastInDim S600000x1 ![0] bcast_S600000_S600000x1_0 : (⟨S600000, .i32⟩ : BufTy).Contents (Elt F) → (⟨S600000x1, .i32⟩ : BufTy).Contents (Elt F)),
    ternary main_v180 main_v181 main_v179 main_v182 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_35 (constant S_ .f32 0x40000000#32),
    unary main_cst_35 main_v183 (broadcastInDim S50000x128 ![] bcast_S_S50000x128 : (⟨S_, .f32⟩ : BufTy).Contents (Elt F) → (⟨S50000x128, .f32⟩ : BufTy).Contents (Elt F)),
    binary main_v183 main_v182 main_v184 (mulf : (⟨S50000x128, .f32⟩ : BufTy).Contents (Elt F) → (⟨S50000x128, .f32⟩ : BufTy).Contents (Elt F) → (⟨S50000x128, .f32⟩ : BufTy).Contents (Elt F)),
    binary main_v184 main_v133 main_v185 (subf : (⟨S50000x128, .f32⟩ : BufTy).Contents (Elt F) → (⟨S50000x128, .f32⟩ : BufTy).Contents (Elt F) → (⟨S50000x128, .f32⟩ : BufTy).Contents (Elt F)),
    unary main_arg7 main_v186 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v186 main_v187 rfl shapeCasts_S1x128x128_S128x128,
    binary main_v185 main_v187 main_v188 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v169 main_v188 main_v189 (addf : (⟨S50000x128, .f32⟩ : BufTy).Contents (Elt F) → (⟨S50000x128, .f32⟩ : BufTy).Contents (Elt F) → (⟨S50000x128, .f32⟩ : BufTy).Contents (Elt F)),
    unary main_arg8 main_v190 (broadcastInDim S1x128 ![1] bcast_S128_S1x128_1 : (⟨S128, .f32⟩ : BufTy).Contents (Elt F) → (⟨S1x128, .f32⟩ : BufTy).Contents (Elt F)),
    unary main_v190 main_v191 (broadcastInDim S50000x128 ![0, 1] bcast_S1x128_S50000x128_0_1 : (⟨S1x128, .f32⟩ : BufTy).Contents (Elt F) → (⟨S50000x128, .f32⟩ : BufTy).Contents (Elt F)),
    binary main_v189 main_v191 main_v192 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v192) (TRef.of (T := ⟨S50000x128, .f32⟩) main_call3_v0) (TRef.of (T := ⟨S50000x128, .f32⟩) main_v193) maximumf,
    nullary main_cst_36 (constant S_ .f32 0x3F800000#32),
    unary main_cst_36 main_v194 (broadcastInDim S50000 ![] bcast_S_S50000 : (⟨S_, .f32⟩ : BufTy).Contents (Elt F) → (⟨S50000, .f32⟩ : BufTy).Contents (Elt F)),
    nullary main_cst_37 (constant S_ .f32 0x00000000#32),
    unary main_cst_37 main_v195 (broadcastInDim S500 ![] bcast_S_S500 : (⟨S_, .f32⟩ : BufTy).Contents (Elt F) → (⟨S500, .f32⟩ : BufTy).Contents (Elt F)),
    unary main_arg2 main_v196 (broadcastInDim S50000x1 ![0] bcast_S50000_S50000x1_0 : (⟨S50000, .i32⟩ : BufTy).Contents (Elt F) → (⟨S50000x1, .i32⟩ : BufTy).Contents (Elt F)),
    ternary main_v195 main_v196 main_v194 main_v197 ((fun x i u => Host.scatterAdd scatter_S500_S50000x1_S50000_n_0_0_1 x i u) : (⟨S500, .f32⟩ : BufTy).Contents (Elt F) → (⟨S50000x1, .i32⟩ : BufTy).Contents (Elt F) → (⟨S50000, .f32⟩ : BufTy).Contents (Elt F) → (⟨S500, .f32⟩ : BufTy).Contents (Elt F)),
    nullary main_cst_38 (constant S_ .f32 0x00000000#32),
    unary main_cst_38 main_v198 (broadcastInDim S500x128 ![] bcast_S_S500x128 : (⟨S_, .f32⟩ : BufTy).Contents (Elt F) → (⟨S500x128, .f32⟩ : BufTy).Contents (Elt F)),
    unary main_arg2 main_v199 (broadcastInDim S50000x1 ![0] bcast_S50000_S50000x1_0 : (⟨S50000, .i32⟩ : BufTy).Contents (Elt F) → (⟨S50000x1, .i32⟩ : BufTy).Contents (Elt F)),
    ternary main_v198 main_v199 main_v193 main_v200 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    nullary main_cst_39 (constant S_ .f32 0x3F800000#32),
    unary main_cst_39 main_v201 (broadcastInDim S500 ![] bcast_S_S500 : (⟨S_, .f32⟩ : BufTy).Contents (Elt F) → (⟨S500, .f32⟩ : BufTy).Contents (Elt F)),
    binary main_v197 main_v201 main_v202 (maximumf : (⟨S500, .f32⟩ : BufTy).Contents (Elt F) → (⟨S500, .f32⟩ : BufTy).Contents (Elt F) → (⟨S500, .f32⟩ : BufTy).Contents (Elt F)),
    unary main_v202 main_v203 (broadcastInDim S500x1 ![0] bcast_S500_S500x1_0 : (⟨S500, .f32⟩ : BufTy).Contents (Elt F) → (⟨S500x1, .f32⟩ : BufTy).Contents (Elt F)),
    unary main_v203 main_v204 (broadcastInDim S500x128 ![0, 1] bcast_S500x1_S500x128_0_1 : (⟨S500x1, .f32⟩ : BufTy).Contents (Elt F) → (⟨S500x128, .f32⟩ : BufTy).Contents (Elt F)),
    binary main_v200 main_v204 main_v205 (Host.divf : (⟨S500x128, .f32⟩ : BufTy).Contents (Elt F) → (⟨S500x128, .f32⟩ : BufTy).Contents (Elt F) → (⟨S500x128, .f32⟩ : BufTy).Contents (Elt F)),
    binary main_v205 main_arg9 main_v206 ((fun l r => Host.dotGeneral dot_S500x128_S128x32_S500x32_1_0_0_1_n_n none l r) : (⟨S500x128, .f32⟩ : BufTy).Contents (Elt F) → (⟨S128x32, .f32⟩ : BufTy).Contents (Elt F) → (⟨S500x32, .f32⟩ : BufTy).Contents (Elt F)),
    unary main_arg10 main_v207 (broadcastInDim S1x32 ![1] bcast_S32_S1x32_1 : (⟨S32, .f32⟩ : BufTy).Contents (Elt F) → (⟨S1x32, .f32⟩ : BufTy).Contents (Elt F)),
    unary main_v207 main_v208 (broadcastInDim S500x32 ![0, 1] bcast_S1x32_S500x32_0_1 : (⟨S1x32, .f32⟩ : BufTy).Contents (Elt F) → (⟨S500x32, .f32⟩ : BufTy).Contents (Elt F)),
    binary main_v206 main_v208 main_v209 (addf : (⟨S500x32, .f32⟩ : BufTy).Contents (Elt F) → (⟨S500x32, .f32⟩ : BufTy).Contents (Elt F) → (⟨S500x32, .f32⟩ : BufTy).Contents (Elt F)) ]

/-- Operations 0–20: the two rows of the edge list and the per-node factor. -/
abbrev opsHead : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v12) (TRef.of (T := ⟨S50000, .f32⟩) main_call0_v1) (TRef.of (T := ⟨S50000, .f32⟩) main_v13) select ]

/-- Operations 21–93: the first layer. -/
abbrev opsL1 : List (HloOp τ sig (Elt F)) :=
  [ nullary main_c (constantI S_ 32 0#32),
    unary main_c main_v14 (broadcastInDim S600000 ![] bcast_S_S600000 : (⟨S_, .i32⟩ : BufTy).Contents (Elt F) → (⟨S600000, .i32⟩ : BufTy).Contents (Elt F)),
    binary main_v1 main_v14 main_v15 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v16 (broadcastInDim S600000 ![] bcast_S_S600000 : (⟨S_, .i32⟩ : BufTy).Contents (Elt F) → (⟨S600000, .i32⟩ : BufTy).Contents (Elt F)),
    binary main_v1 main_v16 main_v17 (addi : (⟨S600000, .i32⟩ : BufTy).Contents (Elt F) → (⟨S600000, .i32⟩ : BufTy).Contents (Elt F) → (⟨S600000, .i32⟩ : BufTy).Contents (Elt F)),
    ternary main_v15 main_v17 main_v1 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v18 main_v19 (broadcastInDim S600000x1 ![0] bcast_S600000_S600000x1_0 : (⟨S600000, .i32⟩ : BufTy).Contents (Elt F) → (⟨S600000x1, .i32⟩ : BufTy).Contents (Elt F)),
    binary main_v13 main_v19 main_v20 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v21 (broadcastInDim S600000 ![] bcast_S_S600000 : (⟨S_, .i32⟩ : BufTy).Contents (Elt F) → (⟨S600000, .i32⟩ : BufTy).Contents (Elt F)),
    binary main_v3 main_v21 main_v22 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v23 (broadcastInDim S600000 ![] bcast_S_S600000 : (⟨S_, .i32⟩ : BufTy).Contents (Elt F) → (⟨S600000, .i32⟩ : BufTy).Contents (Elt F)),
    binary main_v3 main_v23 main_v24 (addi : (⟨S600000, .i32⟩ : BufTy).Contents (Elt F) → (⟨S600000, .i32⟩ : BufTy).Contents (Elt F) → (⟨S600000, .i32⟩ : BufTy).Contents (Elt F)),
    ternary main_v22 main_v24 main_v3 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v25 main_v26 (broadcastInDim S600000x1 ![0] bcast_S600000_S600000x1_0 : (⟨S600000, .i32⟩ : BufTy).Contents (Elt F) → (⟨S600000x1, .i32⟩ : BufTy).Contents (Elt F)),
    binary main_v13 main_v26 main_v27 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v20 main_v27 main_v28 (mulf : (⟨S600000, .f32⟩ : BufTy).Contents (Elt F) → (⟨S600000, .f32⟩ : BufTy).Contents (Elt F) → (⟨S600000, .f32⟩ : BufTy).Contents (Elt F)),
    unary main_v28 main_v29 (Host.negf : (⟨S600000, .f32⟩ : BufTy).Contents (Elt F) → (⟨S600000, .f32⟩ : BufTy).Contents (Elt F)),
    unary main_v29 main_v30 (broadcastInDim S600000x1 ![0] bcast_S600000_S600000x1_0 : (⟨S600000, .f32⟩ : BufTy).Contents (Elt F) → (⟨S600000x1, .f32⟩ : BufTy).Contents (Elt F)),
    nullary main_c_7 (constantI S_ 32 0#32),
    unary main_c_7 main_v31 (broadcastInDim S600000 ![] bcast_S_S600000 : (⟨S_, .i32⟩ : BufTy).Contents (Elt F) → (⟨S600000, .i32⟩ : BufTy).Contents (Elt F)),
    binary main_v1 main_v31 main_v32 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v33 (broadcastInDim S600000 ![] bcast_S_S600000 : (⟨S_, .i32⟩ : BufTy).Contents (Elt F) → (⟨S600000, .i32⟩ : BufTy).Contents (Elt F)),
    binary main_v1 main_v33 main_v34 (addi : (⟨S600000, .i32⟩ : BufTy).Contents (Elt F) → (⟨S600000, .i32⟩ : BufTy).Contents (Elt F) → (⟨S600000, .i32⟩ : BufTy).Contents (Elt F)),
    ternary main_v32 main_v34 main_v1 main_v35 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v35 main_v36 (broadcastInDim S600000x1 ![0] bcast_S600000_S600000x1_0 : (⟨S600000, .i32⟩ : BufTy).Contents (Elt F) → (⟨S600000x1, .i32⟩ : BufTy).Contents (Elt F)),
    binary main_arg0 main_v36 main_v37 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v30 main_v38 (broadcastInDim S600000x128 ![0, 1] bcast_S600000x1_S600000x128_0_1 : (⟨S600000x1, .f32⟩ : BufTy).Contents (Elt F) → (⟨S600000x128, .f32⟩ : BufTy).Contents (Elt F)),
    binary main_v38 main_v37 main_v39 (mulf : (⟨S600000x128, .f32⟩ : BufTy).Contents (Elt F) → (⟨S600000x128, .f32⟩ : BufTy).Contents (Elt F) → (⟨S600000x128, .f32⟩ : BufTy).Contents (Elt F)),
    nullary main_cst_9 (constant S_ .f32 0x00000000#32),
    unary main_cst_9 main_v40 (broadcastInDim S50000x128 ![] bcast_S_S50000x128 : (⟨S_, .f32⟩ : BufTy).Contents (Elt F) → (⟨S50000x128, .f32⟩ : BufTy).Contents (Elt F)),
    unary main_v3 main_v41 (broadcastInDim S600000x1 ![0] bcast_S600000_S600000x1_0 : (⟨S600000, .i32⟩ : BufTy).Contents (Elt F) → (⟨S600000x1, .i32⟩ : BufTy).Contents (Elt F)),
    ternary main_v40 main_v41 main_v39 main_v42 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg3 main_v43 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v43 main_v44 rfl shapeCasts_S1x128x128_S128x128,
    binary main_arg0 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v46 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v46 main_v47 rfl shapeCasts_S1x128x128_S128x128,
    binary main_v42 main_v47 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v45 main_v48 main_v49 (addf : (⟨S50000x128, .f32⟩ : BufTy).Contents (Elt F) → (⟨S50000x128, .f32⟩ : BufTy).Contents (Elt F) → (⟨S50000x128, .f32⟩ : BufTy).Contents (Elt F)),
    unary main_v29 main_v50 (broadcastInDim S600000x1 ![0] bcast_S600000_S600000x1_0 : (⟨S600000, .f32⟩ : BufTy).Contents (Elt F) → (⟨S600000x1, .f32⟩ : BufTy).Contents (Elt F)),
    nullary main_c_10 (constantI S_ 32 0#32),
    unary main_c_10 main_v51 (broadcastInDim S600000 ![] bcast_S_S600000 : (⟨S_, .i32⟩ : BufTy).Contents (Elt F) → (⟨S600000, .i32⟩ : BufTy).Contents (Elt F)),
    binary main_v1 main_v51 main_v52 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v53 (broadcastInDim S600000 ![] bcast_S_S600000 : (⟨S_, .i32⟩ : BufTy).Contents (Elt F) → (⟨S600000, .i32⟩ : BufTy).Contents (Elt F)),
    binary main_v1 main_v53 main_v54 (addi : (⟨S600000, .i32⟩ : BufTy).Contents (Elt F) → (⟨S600000, .i32⟩ : BufTy).Contents (Elt F) → (⟨S600000, .i32⟩ : BufTy).Contents (Elt F)),
    ternary main_v52 main_v54 main_v1 main_v55 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v55 main_v56 (broadcastInDim S600000x1 ![0] bcast_S600000_S600000x1_0 : (⟨S600000, .i32⟩ : BufTy).Contents (Elt F) → (⟨S600000x1, .i32⟩ : BufTy).Contents (Elt F)),
    binary main_v42 main_v56 main_v57 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v50 main_v58 (broadcastInDim S600000x128 ![0, 1] bcast_S600000x1_S600000x128_0_1 : (⟨S600000x1, .f32⟩ : BufTy).Contents (Elt F) → (⟨S600000x128, .f32⟩ : BufTy).Contents (Elt F)),
    binary main_v58 main_v57 main_v59 (mulf : (⟨S600000x128, .f32⟩ : BufTy).Contents (Elt F) → (⟨S600000x128, .f32⟩ : BufTy).Contents (Elt F) → (⟨S600000x128, .f32⟩ : BufTy).Contents (Elt F)),
    nullary main_cst_12 (constant S_ .f32 0x00000000#32),
    unary main_cst_12 main_v60 (broadcastInDim S50000x128 ![] bcast_S_S50000x128 : (⟨S_, .f32⟩ : BufTy).Contents (Elt F) → (⟨S50000x128, .f32⟩ : BufTy).Contents (Elt F)),
    unary main_v3 main_v61 (broadcastInDim S600000x1 ![0] bcast_S600000_S600000x1_0 : (⟨S600000, .i32⟩ : BufTy).Contents (Elt F) → (⟨S600000x1, .i32⟩ : BufTy).Contents (Elt F)),
    ternary main_v60 main_v61 main_v59 main_v62 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_13 (constant S_ .f32 0x40000000#32),
    unary main_cst_13 main_v63 (broadcastInDim S50000x128 ![] bcast_S_S50000x128 : (⟨S_, .f32⟩ : BufTy).Contents (Elt F) → (⟨S50000x128, .f32⟩ : BufTy).Contents (Elt F)),
    binary main_v63 main_v62 main_v64 (mulf : (⟨S50000x128, .f32⟩ : BufTy).Contents (Elt F) → (⟨S50000x128, .f32⟩ : BufTy).Contents (Elt F) → (⟨S50000x128, .f32⟩ : BufTy).Contents (Elt F)),
    binary main_v64 main_arg0 main_v65 (subf : (⟨S50000x128, .f32⟩ : BufTy).Contents (Elt F) → (⟨S50000x128, .f32⟩ : BufTy).Contents (Elt F) → (⟨S50000x128, .f32⟩ : BufTy).Contents (Elt F)),
    unary main_arg3 main_v66 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v49 main_v68 main_v69 (addf : (⟨S50000x128, .f32⟩ : BufTy).Contents (Elt F) → (⟨S50000x128, .f32⟩ : BufTy).Contents (Elt F) → (⟨S50000x128, .f32⟩ : BufTy).Contents (Elt F)),
    unary main_arg4 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v72) (TRef.of (T := ⟨S50000x128, .f32⟩) main_call1_v0) (TRef.of (T := ⟨S50000x128, .f32⟩) main_v73) maximumf ]

/-- Operations 94–166: the second layer. -/
abbrev opsL2 : List (HloOp τ sig (Elt F)) :=
  [ nullary main_c_14 (constantI S_ 32 0#32),
    unary main_c_14 main_v74 (broadcastInDim S600000 ![] bcast_S_S600000 : (⟨S_, .i32⟩ : BufTy).Contents (Elt F) → (⟨S600000, .i32⟩ : BufTy).Contents (Elt F)),
    binary main_v1 main_v74 main_v75 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v76 (broadcastInDim S600000 ![] bcast_S_S600000 : (⟨S_, .i32⟩ : BufTy).Contents (Elt F) → (⟨S600000, .i32⟩ : BufTy).Contents (Elt F)),
    binary main_v1 main_v76 main_v77 (addi : (⟨S600000, .i32⟩ : BufTy).Contents (Elt F) → (⟨S600000, .i32⟩ : BufTy).Contents (Elt F) → (⟨S600000, .i32⟩ : BufTy).Contents (Elt F)),
    ternary main_v75 main_v77 main_v1 main_v78 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v78 main_v79 (broadcastInDim S600000x1 ![0] bcast_S600000_S600000x1_0 : (⟨S600000, .i32⟩ : BufTy).Contents (Elt F) → (⟨S600000x1, .i32⟩ : BufTy).Contents (Elt F)),
    binary main_v13 main_v79 main_v80 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_16 (constantI S_ 32 0#32),
    unary main_c_16 main_v81 (broadcastInDim S600000 ![] bcast_S_S600000 : (⟨S_, .i32⟩ : BufTy).Contents (Elt F) → (⟨S600000, .i32⟩ : BufTy).Contents (Elt F)),
    binary main_v3 main_v81 main_v82 (cmpi .slt : (⟨S600000, .i32⟩ : BufTy).Contents (Elt F) → (⟨S600000, .i32⟩ : BufTy).Contents (Elt F) → (⟨S600000, .i1⟩ : BufTy).Contents (Elt F)),
    nullary main_c_17 (constantI S_ 32 50000#32),
    unary main_c_17 main_v83 (broadcastInDim S600000 ![] bcast_S_S600000 : (⟨S_, .i32⟩ : BufTy).Contents (Elt F) → (⟨S600000, .i32⟩ : BufTy).Contents (Elt F)),
    binary main_v3 main_v83 main_v84 (addi : (⟨S600000, .i32⟩ : BufTy).Contents (Elt F) → (⟨S600000, .i32⟩ : BufTy).Contents (Elt F) → (⟨S600000, .i32⟩ : BufTy).Contents (Elt F)),
    ternary main_v82 main_v84 main_v3 main_v85 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v85 main_v86 (broadcastInDim S600000x1 ![0] bcast_S600000_S600000x1_0 : (⟨S600000, .i32⟩ : BufTy).Contents (Elt F) → (⟨S600000x1, .i32⟩ : BufTy).Contents (Elt F)),
    binary main_v13 main_v86 main_v87 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v80 main_v87 main_v88 (mulf : (⟨S600000, .f32⟩ : BufTy).Contents (Elt F) → (⟨S600000, .f32⟩ : BufTy).Contents (Elt F) → (⟨S600000, .f32⟩ : BufTy).Contents (Elt F)),
    unary main_v88 main_v89 (Host.negf : (⟨S600000, .f32⟩ : BufTy).Contents (Elt F) → (⟨S600000, .f32⟩ : BufTy).Contents (Elt F)),
    unary main_v89 main_v90 (broadcastInDim S600000x1 ![0] bcast_S600000_S600000x1_0 : (⟨S600000, .f32⟩ : BufTy).Contents (Elt F) → (⟨S600000x1, .f32⟩ : BufTy).Contents (Elt F)),
    nullary main_c_18 (constantI S_ 32 0#32),
    unary main_c_18 main_v91 (broadcastInDim S600000 ![] bcast_S_S600000 : (⟨S_, .i32⟩ : BufTy).Contents (Elt F) → (⟨S600000, .i32⟩ : BufTy).Contents (Elt F)),
    binary main_v1 main_v91 main_v92 (cmpi .slt : (⟨S600000, .i32⟩ : BufTy).Contents (Elt F) → (⟨S600000, .i32⟩ : BufTy).Contents (Elt F) → (⟨S600000, .i1⟩ : BufTy).Contents (Elt F)),
    nullary main_c_19 (constantI S_ 32 50000#32),
    unary main_c_19 main_v93 (broadcastInDim S600000 ![] bcast_S_S600000 : (⟨S_, .i32⟩ : BufTy).Contents (Elt F) → (⟨S600000, .i32⟩ : BufTy).Contents (Elt F)),
    binary main_v1 main_v93 main_v94 (addi : (⟨S600000, .i32⟩ : BufTy).Contents (Elt F) → (⟨S600000, .i32⟩ : BufTy).Contents (Elt F) → (⟨S600000, .i32⟩ : BufTy).Contents (Elt F)),
    ternary main_v92 main_v94 main_v1 main_v95 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v95 main_v96 (broadcastInDim S600000x1 ![0] bcast_S600000_S600000x1_0 : (⟨S600000, .i32⟩ : BufTy).Contents (Elt F) → (⟨S600000x1, .i32⟩ : BufTy).Contents (Elt F)),
    binary main_v73 main_v96 main_v97 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v90 main_v98 (broadcastInDim S600000x128 ![0, 1] bcast_S600000x1_S600000x128_0_1 : (⟨S600000x1, .f32⟩ : BufTy).Contents (Elt F) → (⟨S600000x128, .f32⟩ : BufTy).Contents (Elt F)),
    binary main_v98 main_v97 main_v99 (mulf : (⟨S600000x128, .f32⟩ : BufTy).Contents (Elt F) → (⟨S600000x128, .f32⟩ : BufTy).Contents (Elt F) → (⟨S600000x128, .f32⟩ : BufTy).Contents (Elt F)),
    nullary main_cst_20 (constant S_ .f32 0x00000000#32),
    unary main_cst_20 main_v100 (broadcastInDim S50000x128 ![] bcast_S_S50000x128 : (⟨S_, .f32⟩ : BufTy).Contents (Elt F) → (⟨S50000x128, .f32⟩ : BufTy).Contents (Elt F)),
    unary main_v3 main_v101 (broadcastInDim S600000x1 ![0] bcast_S600000_S600000x1_0 : (⟨S600000, .i32⟩ : BufTy).Contents (Elt F) → (⟨S600000x1, .i32⟩ : BufTy).Contents (Elt F)),
    ternary main_v100 main_v101 main_v99 main_v102 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg5 main_v103 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v103 main_v104 rfl shapeCasts_S1x128x128_S128x128,
    binary main_v73 main_v104 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v106 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v106 main_v107 rfl shapeCasts_S1x128x128_S128x128,
    binary main_v102 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v105 main_v108 main_v109 (addf : (⟨S50000x128, .f32⟩ : BufTy).Contents (Elt F) → (⟨S50000x128, .f32⟩ : BufTy).Contents (Elt F) → (⟨S50000x128, .f32⟩ : BufTy).Contents (Elt F)),
    unary main_v89 main_v110 (broadcastInDim S600000x1 ![0] bcast_S600000_S600000x1_0 : (⟨S600000, .f32⟩ : BufTy).Contents (Elt F) → (⟨S600000x1, .f32⟩ : BufTy).Contents (Elt F)),
    nullary main_c_21 (constantI S_ 32 0#32),
    unary main_c_21 main_v111 (broadcastInDim S600000 ![] bcast_S_S600000 : (⟨S_, .i32⟩ : BufTy).Contents (Elt F) → (⟨S600000, .i32⟩ : BufTy).Contents (Elt F)),
    binary main_v1 main_v111 main_v112 (cmpi .slt : (⟨S600000, .i32⟩ : BufTy).Contents (Elt F) → (⟨S600000, .i32⟩ : BufTy).Contents (Elt F) → (⟨S600000, .i1⟩ : BufTy).Contents (Elt F)),
    nullary main_c_22 (constantI S_ 32 50000#32),
    unary main_c_22 main_v113 (broadcastInDim S600000 ![] bcast_S_S600000 : (⟨S_, .i32⟩ : BufTy).Contents (Elt F) → (⟨S600000, .i32⟩ : BufTy).Contents (Elt F)),
    binary main_v1 main_v113 main_v114 (addi : (⟨S600000, .i32⟩ : BufTy).Contents (Elt F) → (⟨S600000, .i32⟩ : BufTy).Contents (Elt F) → (⟨S600000, .i32⟩ : BufTy).Contents (Elt F)),
    ternary main_v112 main_v114 main_v1 main_v115 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v115 main_v116 (broadcastInDim S600000x1 ![0] bcast_S600000_S600000x1_0 : (⟨S600000, .i32⟩ : BufTy).Contents (Elt F) → (⟨S600000x1, .i32⟩ : BufTy).Contents (Elt F)),
    binary main_v102 main_v116 main_v117 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v110 main_v118 (broadcastInDim S600000x128 ![0, 1] bcast_S600000x1_S600000x128_0_1 : (⟨S600000x1, .f32⟩ : BufTy).Contents (Elt F) → (⟨S600000x128, .f32⟩ : BufTy).Contents (Elt F)),
    binary main_v118 main_v117 main_v119 (mulf : (⟨S600000x128, .f32⟩ : BufTy).Contents (Elt F) → (⟨S600000x128, .f32⟩ : BufTy).Contents (Elt F) → (⟨S600000x128, .f32⟩ : BufTy).Contents (Elt F)),
    nullary main_cst_23 (constant S_ .f32 0x00000000#32),
    unary main_cst_23 main_v120 (broadcastInDim S50000x128 ![] bcast_S_S50000x128 : (⟨S_, .f32⟩ : BufTy).Contents (Elt F) → (⟨S50000x128, .f32⟩ : BufTy).Contents (Elt F)),
    unary main_v3 main_v121 (broadcastInDim S600000x1 ![0] bcast_S600000_S600000x1_0 : (⟨S600000, .i32⟩ : BufTy).Contents (Elt F) → (⟨S600000x1, .i32⟩ : BufTy).Contents (Elt F)),
    ternary main_v120 main_v121 main_v119 main_v122 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_24 (constant S_ .f32 0x40000000#32),
    unary main_cst_24 main_v123 (broadcastInDim S50000x128 ![] bcast_S_S50000x128 : (⟨S_, .f32⟩ : BufTy).Contents (Elt F) → (⟨S50000x128, .f32⟩ : BufTy).Contents (Elt F)),
    binary main_v123 main_v122 main_v124 (mulf : (⟨S50000x128, .f32⟩ : BufTy).Contents (Elt F) → (⟨S50000x128, .f32⟩ : BufTy).Contents (Elt F) → (⟨S50000x128, .f32⟩ : BufTy).Contents (Elt F)),
    binary main_v124 main_v73 main_v125 (subf : (⟨S50000x128, .f32⟩ : BufTy).Contents (Elt F) → (⟨S50000x128, .f32⟩ : BufTy).Contents (Elt F) → (⟨S50000x128, .f32⟩ : BufTy).Contents (Elt F)),
    unary main_arg5 main_v126 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v126 main_v127 rfl shapeCasts_S1x128x128_S128x128,
    binary main_v125 main_v127 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v109 main_v128 main_v129 (addf : (⟨S50000x128, .f32⟩ : BufTy).Contents (Elt F) → (⟨S50000x128, .f32⟩ : BufTy).Contents (Elt F) → (⟨S50000x128, .f32⟩ : BufTy).Contents (Elt F)),
    unary main_arg6 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v129 main_v131 main_v132 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v132) (TRef.of (T := ⟨S50000x128, .f32⟩) main_call2_v0) (TRef.of (T := ⟨S50000x128, .f32⟩) main_v133) maximumf ]

/-- Operations 167–239: the third layer. -/
abbrev opsL3 : List (HloOp τ sig (Elt F)) :=
  [ nullary main_c_25 (constantI S_ 32 0#32),
    unary main_c_25 main_v134 (broadcastInDim S600000 ![] bcast_S_S600000 : (⟨S_, .i32⟩ : BufTy).Contents (Elt F) → (⟨S600000, .i32⟩ : BufTy).Contents (Elt F)),
    binary main_v1 main_v134 main_v135 (cmpi .slt : (⟨S600000, .i32⟩ : BufTy).Contents (Elt F) → (⟨S600000, .i32⟩ : BufTy).Contents (Elt F) → (⟨S600000, .i1⟩ : BufTy).Contents (Elt F)),
    nullary main_c_26 (constantI S_ 32 50000#32),
    unary main_c_26 main_v136 (broadcastInDim S600000 ![] bcast_S_S600000 : (⟨S_, .i32⟩ : BufTy).Contents (Elt F) → (⟨S600000, .i32⟩ : BufTy).Contents (Elt F)),
    binary main_v1 main_v136 main_v137 (addi : (⟨S600000, .i32⟩ : BufTy).Contents (Elt F) → (⟨S600000, .i32⟩ : BufTy).Contents (Elt F) → (⟨S600000, .i32⟩ : BufTy).Contents (Elt F)),
    ternary main_v135 main_v137 main_v1 main_v138 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v138 main_v139 (broadcastInDim S600000x1 ![0] bcast_S600000_S600000x1_0 : (⟨S600000, .i32⟩ : BufTy).Contents (Elt F) → (⟨S600000x1, .i32⟩ : BufTy).Contents (Elt F)),
    binary main_v13 main_v139 main_v140 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_27 (constantI S_ 32 0#32),
    unary main_c_27 main_v141 (broadcastInDim S600000 ![] bcast_S_S600000 : (⟨S_, .i32⟩ : BufTy).Contents (Elt F) → (⟨S600000, .i32⟩ : BufTy).Contents (Elt F)),
    binary main_v3 main_v141 main_v142 (cmpi .slt : (⟨S600000, .i32⟩ : BufTy).Contents (Elt F) → (⟨S600000, .i32⟩ : BufTy).Contents (Elt F) → (⟨S600000, .i1⟩ : BufTy).Contents (Elt F)),
    nullary main_c_28 (constantI S_ 32 50000#32),
    unary main_c_28 main_v143 (broadcastInDim S600000 ![] bcast_S_S600000 : (⟨S_, .i32⟩ : BufTy).Contents (Elt F) → (⟨S600000, .i32⟩ : BufTy).Contents (Elt F)),
    binary main_v3 main_v143 main_v144 (addi : (⟨S600000, .i32⟩ : BufTy).Contents (Elt F) → (⟨S600000, .i32⟩ : BufTy).Contents (Elt F) → (⟨S600000, .i32⟩ : BufTy).Contents (Elt F)),
    ternary main_v142 main_v144 main_v3 main_v145 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v145 main_v146 (broadcastInDim S600000x1 ![0] bcast_S600000_S600000x1_0 : (⟨S600000, .i32⟩ : BufTy).Contents (Elt F) → (⟨S600000x1, .i32⟩ : BufTy).Contents (Elt F)),
    binary main_v13 main_v146 main_v147 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v140 main_v147 main_v148 (mulf : (⟨S600000, .f32⟩ : BufTy).Contents (Elt F) → (⟨S600000, .f32⟩ : BufTy).Contents (Elt F) → (⟨S600000, .f32⟩ : BufTy).Contents (Elt F)),
    unary main_v148 main_v149 (Host.negf : (⟨S600000, .f32⟩ : BufTy).Contents (Elt F) → (⟨S600000, .f32⟩ : BufTy).Contents (Elt F)),
    unary main_v149 main_v150 (broadcastInDim S600000x1 ![0] bcast_S600000_S600000x1_0 : (⟨S600000, .f32⟩ : BufTy).Contents (Elt F) → (⟨S600000x1, .f32⟩ : BufTy).Contents (Elt F)),
    nullary main_c_29 (constantI S_ 32 0#32),
    unary main_c_29 main_v151 (broadcastInDim S600000 ![] bcast_S_S600000 : (⟨S_, .i32⟩ : BufTy).Contents (Elt F) → (⟨S600000, .i32⟩ : BufTy).Contents (Elt F)),
    binary main_v1 main_v151 main_v152 (cmpi .slt : (⟨S600000, .i32⟩ : BufTy).Contents (Elt F) → (⟨S600000, .i32⟩ : BufTy).Contents (Elt F) → (⟨S600000, .i1⟩ : BufTy).Contents (Elt F)),
    nullary main_c_30 (constantI S_ 32 50000#32),
    unary main_c_30 main_v153 (broadcastInDim S600000 ![] bcast_S_S600000 : (⟨S_, .i32⟩ : BufTy).Contents (Elt F) → (⟨S600000, .i32⟩ : BufTy).Contents (Elt F)),
    binary main_v1 main_v153 main_v154 (addi : (⟨S600000, .i32⟩ : BufTy).Contents (Elt F) → (⟨S600000, .i32⟩ : BufTy).Contents (Elt F) → (⟨S600000, .i32⟩ : BufTy).Contents (Elt F)),
    ternary main_v152 main_v154 main_v1 main_v155 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v155 main_v156 (broadcastInDim S600000x1 ![0] bcast_S600000_S600000x1_0 : (⟨S600000, .i32⟩ : BufTy).Contents (Elt F) → (⟨S600000x1, .i32⟩ : BufTy).Contents (Elt F)),
    binary main_v133 main_v156 main_v157 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v150 main_v158 (broadcastInDim S600000x128 ![0, 1] bcast_S600000x1_S600000x128_0_1 : (⟨S600000x1, .f32⟩ : BufTy).Contents (Elt F) → (⟨S600000x128, .f32⟩ : BufTy).Contents (Elt F)),
    binary main_v158 main_v157 main_v159 (mulf : (⟨S600000x128, .f32⟩ : BufTy).Contents (Elt F) → (⟨S600000x128, .f32⟩ : BufTy).Contents (Elt F) → (⟨S600000x128, .f32⟩ : BufTy).Contents (Elt F)),
    nullary main_cst_31 (constant S_ .f32 0x00000000#32),
    unary main_cst_31 main_v160 (broadcastInDim S50000x128 ![] bcast_S_S50000x128 : (⟨S_, .f32⟩ : BufTy).Contents (Elt F) → (⟨S50000x128, .f32⟩ : BufTy).Contents (Elt F)),
    unary main_v3 main_v161 (broadcastInDim S600000x1 ![0] bcast_S600000_S600000x1_0 : (⟨S600000, .i32⟩ : BufTy).Contents (Elt F) → (⟨S600000x1, .i32⟩ : BufTy).Contents (Elt F)),
    ternary main_v160 main_v161 main_v159 main_v162 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_arg7 main_v163 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v163 main_v164 rfl shapeCasts_S1x128x128_S128x128,
    binary main_v133 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v166 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v166 main_v167 rfl shapeCasts_S1x128x128_S128x128,
    binary main_v162 main_v167 main_v168 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v165 main_v168 main_v169 (addf : (⟨S50000x128, .f32⟩ : BufTy).Contents (Elt F) → (⟨S50000x128, .f32⟩ : BufTy).Contents (Elt F) → (⟨S50000x128, .f32⟩ : BufTy).Contents (Elt F)),
    unary main_v149 main_v170 (broadcastInDim S600000x1 ![0] bcast_S600000_S600000x1_0 : (⟨S600000, .f32⟩ : BufTy).Contents (Elt F) → (⟨S600000x1, .f32⟩ : BufTy).Contents (Elt F)),
    nullary main_c_32 (constantI S_ 32 0#32),
    unary main_c_32 main_v171 (broadcastInDim S600000 ![] bcast_S_S600000 : (⟨S_, .i32⟩ : BufTy).Contents (Elt F) → (⟨S600000, .i32⟩ : BufTy).Contents (Elt F)),
    binary main_v1 main_v171 main_v172 (cmpi .slt : (⟨S600000, .i32⟩ : BufTy).Contents (Elt F) → (⟨S600000, .i32⟩ : BufTy).Contents (Elt F) → (⟨S600000, .i1⟩ : BufTy).Contents (Elt F)),
    nullary main_c_33 (constantI S_ 32 50000#32),
    unary main_c_33 main_v173 (broadcastInDim S600000 ![] bcast_S_S600000 : (⟨S_, .i32⟩ : BufTy).Contents (Elt F) → (⟨S600000, .i32⟩ : BufTy).Contents (Elt F)),
    binary main_v1 main_v173 main_v174 (addi : (⟨S600000, .i32⟩ : BufTy).Contents (Elt F) → (⟨S600000, .i32⟩ : BufTy).Contents (Elt F) → (⟨S600000, .i32⟩ : BufTy).Contents (Elt F)),
    ternary main_v172 main_v174 main_v1 main_v175 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v175 main_v176 (broadcastInDim S600000x1 ![0] bcast_S600000_S600000x1_0 : (⟨S600000, .i32⟩ : BufTy).Contents (Elt F) → (⟨S600000x1, .i32⟩ : BufTy).Contents (Elt F)),
    binary main_v162 main_v176 main_v177 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v170 main_v178 (broadcastInDim S600000x128 ![0, 1] bcast_S600000x1_S600000x128_0_1 : (⟨S600000x1, .f32⟩ : BufTy).Contents (Elt F) → (⟨S600000x128, .f32⟩ : BufTy).Contents (Elt F)),
    binary main_v178 main_v177 main_v179 (mulf : (⟨S600000x128, .f32⟩ : BufTy).Contents (Elt F) → (⟨S600000x128, .f32⟩ : BufTy).Contents (Elt F) → (⟨S600000x128, .f32⟩ : BufTy).Contents (Elt F)),
    nullary main_cst_34 (constant S_ .f32 0x00000000#32),
    unary main_cst_34 main_v180 (broadcastInDim S50000x128 ![] bcast_S_S50000x128 : (⟨S_, .f32⟩ : BufTy).Contents (Elt F) → (⟨S50000x128, .f32⟩ : BufTy).Contents (Elt F)),
    unary main_v3 main_v181 (broadcastInDim S600000x1 ![0] bcast_S600000_S600000x1_0 : (⟨S600000, .i32⟩ : BufTy).Contents (Elt F) → (⟨S600000x1, .i32⟩ : BufTy).Contents (Elt F)),
    ternary main_v180 main_v181 main_v179 main_v182 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_35 (constant S_ .f32 0x40000000#32),
    unary main_cst_35 main_v183 (broadcastInDim S50000x128 ![] bcast_S_S50000x128 : (⟨S_, .f32⟩ : BufTy).Contents (Elt F) → (⟨S50000x128, .f32⟩ : BufTy).Contents (Elt F)),
    binary main_v183 main_v182 main_v184 (mulf : (⟨S50000x128, .f32⟩ : BufTy).Contents (Elt F) → (⟨S50000x128, .f32⟩ : BufTy).Contents (Elt F) → (⟨S50000x128, .f32⟩ : BufTy).Contents (Elt F)),
    binary main_v184 main_v133 main_v185 (subf : (⟨S50000x128, .f32⟩ : BufTy).Contents (Elt F) → (⟨S50000x128, .f32⟩ : BufTy).Contents (Elt F) → (⟨S50000x128, .f32⟩ : BufTy).Contents (Elt F)),
    unary main_arg7 main_v186 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v186 main_v187 rfl shapeCasts_S1x128x128_S128x128,
    binary main_v185 main_v187 main_v188 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v169 main_v188 main_v189 (addf : (⟨S50000x128, .f32⟩ : BufTy).Contents (Elt F) → (⟨S50000x128, .f32⟩ : BufTy).Contents (Elt F) → (⟨S50000x128, .f32⟩ : BufTy).Contents (Elt F)),
    unary main_arg8 main_v190 (broadcastInDim S1x128 ![1] bcast_S128_S1x128_1 : (⟨S128, .f32⟩ : BufTy).Contents (Elt F) → (⟨S1x128, .f32⟩ : BufTy).Contents (Elt F)),
    unary main_v190 main_v191 (broadcastInDim S50000x128 ![0, 1] bcast_S1x128_S50000x128_0_1 : (⟨S1x128, .f32⟩ : BufTy).Contents (Elt F) → (⟨S50000x128, .f32⟩ : BufTy).Contents (Elt F)),
    binary main_v189 main_v191 main_v192 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v192) (TRef.of (T := ⟨S50000x128, .f32⟩) main_call3_v0) (TRef.of (T := ⟨S50000x128, .f32⟩) main_v193) maximumf ]

/-- Operations 240–259: the pooling and the linear head. -/
abbrev opsTail : List (HloOp τ sig (Elt F)) :=
  [ nullary main_cst_36 (constant S_ .f32 0x3F800000#32),
    unary main_cst_36 main_v194 (broadcastInDim S50000 ![] bcast_S_S50000 : (⟨S_, .f32⟩ : BufTy).Contents (Elt F) → (⟨S50000, .f32⟩ : BufTy).Contents (Elt F)),
    nullary main_cst_37 (constant S_ .f32 0x00000000#32),
    unary main_cst_37 main_v195 (broadcastInDim S500 ![] bcast_S_S500 : (⟨S_, .f32⟩ : BufTy).Contents (Elt F) → (⟨S500, .f32⟩ : BufTy).Contents (Elt F)),
    unary main_arg2 main_v196 (broadcastInDim S50000x1 ![0] bcast_S50000_S50000x1_0 : (⟨S50000, .i32⟩ : BufTy).Contents (Elt F) → (⟨S50000x1, .i32⟩ : BufTy).Contents (Elt F)),
    ternary main_v195 main_v196 main_v194 main_v197 ((fun x i u => Host.scatterAdd scatter_S500_S50000x1_S50000_n_0_0_1 x i u) : (⟨S500, .f32⟩ : BufTy).Contents (Elt F) → (⟨S50000x1, .i32⟩ : BufTy).Contents (Elt F) → (⟨S50000, .f32⟩ : BufTy).Contents (Elt F) → (⟨S500, .f32⟩ : BufTy).Contents (Elt F)),
    nullary main_cst_38 (constant S_ .f32 0x00000000#32),
    unary main_cst_38 main_v198 (broadcastInDim S500x128 ![] bcast_S_S500x128 : (⟨S_, .f32⟩ : BufTy).Contents (Elt F) → (⟨S500x128, .f32⟩ : BufTy).Contents (Elt F)),
    unary main_arg2 main_v199 (broadcastInDim S50000x1 ![0] bcast_S50000_S50000x1_0 : (⟨S50000, .i32⟩ : BufTy).Contents (Elt F) → (⟨S50000x1, .i32⟩ : BufTy).Contents (Elt F)),
    ternary main_v198 main_v199 main_v193 main_v200 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    nullary main_cst_39 (constant S_ .f32 0x3F800000#32),
    unary main_cst_39 main_v201 (broadcastInDim S500 ![] bcast_S_S500 : (⟨S_, .f32⟩ : BufTy).Contents (Elt F) → (⟨S500, .f32⟩ : BufTy).Contents (Elt F)),
    binary main_v197 main_v201 main_v202 (maximumf : (⟨S500, .f32⟩ : BufTy).Contents (Elt F) → (⟨S500, .f32⟩ : BufTy).Contents (Elt F) → (⟨S500, .f32⟩ : BufTy).Contents (Elt F)),
    unary main_v202 main_v203 (broadcastInDim S500x1 ![0] bcast_S500_S500x1_0 : (⟨S500, .f32⟩ : BufTy).Contents (Elt F) → (⟨S500x1, .f32⟩ : BufTy).Contents (Elt F)),
    unary main_v203 main_v204 (broadcastInDim S500x128 ![0, 1] bcast_S500x1_S500x128_0_1 : (⟨S500x1, .f32⟩ : BufTy).Contents (Elt F) → (⟨S500x128, .f32⟩ : BufTy).Contents (Elt F)),
    binary main_v200 main_v204 main_v205 (Host.divf : (⟨S500x128, .f32⟩ : BufTy).Contents (Elt F) → (⟨S500x128, .f32⟩ : BufTy).Contents (Elt F) → (⟨S500x128, .f32⟩ : BufTy).Contents (Elt F)),
    binary main_v205 main_arg9 main_v206 ((fun l r => Host.dotGeneral dot_S500x128_S128x32_S500x32_1_0_0_1_n_n none l r) : (⟨S500x128, .f32⟩ : BufTy).Contents (Elt F) → (⟨S128x32, .f32⟩ : BufTy).Contents (Elt F) → (⟨S500x32, .f32⟩ : BufTy).Contents (Elt F)),
    unary main_arg10 main_v207 (broadcastInDim S1x32 ![1] bcast_S32_S1x32_1 : (⟨S32, .f32⟩ : BufTy).Contents (Elt F) → (⟨S1x32, .f32⟩ : BufTy).Contents (Elt F)),
    unary main_v207 main_v208 (broadcastInDim S500x32 ![0, 1] bcast_S1x32_S500x32_0_1 : (⟨S1x32, .f32⟩ : BufTy).Contents (Elt F) → (⟨S500x32, .f32⟩ : BufTy).Contents (Elt F)),
    binary main_v206 main_v208 main_v209 (addf : (⟨S500x32, .f32⟩ : BufTy).Contents (Elt F) → (⟨S500x32, .f32⟩ : BufTy).Contents (Elt F) → (⟨S500x32, .f32⟩ : BufTy).Contents (Elt F)) ]

/-- The whole list is the five stretches in a row. -/
theorem ops_split : (ops : List (HloOp τ sig (Elt F))) = opsHead ++ (opsL1 ++ (opsL2 ++ (opsL3 ++ opsTail))) := rfl

/-- The contents after two stretches in a row. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

end Cert.ReferenceIdeal.RunValue

end
-- ==== Proof.RTerms.lean ====
/-
  The reference program's host operations, grouped into the terms its buffers hold.

  From the edge list: the source and destination row numbers (its two rows) and the per-node factor `dinv` (the inverse
  square root of the degree counted by a scatter-add of ones, or zero). The edge weights `ewT`: minus the product of the
  factors of an edge's two normalised end rows. One application of the scaled Laplacian in the edge-weighted
  arrangement, `lhatT`: gather the rows named by the normalised source numbers, weight each by its edge's weight,
  scatter-add by destination. One whole layer `layerT`: `relu (h·W0 + L h·W1 + (2·L(L h) − h)·W2 + b)`, added up left
  to right. The tail: mean pooling by the batch numbers and the linear head.
-/
import proofs.«177079_j59863254171804_2_alg».proof.Proof.Gen.ReferenceIdeal

noncomputable section

namespace Cert.ReferenceIdeal.Terms

open Cert.ReferenceIdeal Cert.ReferenceIdeal.Facts₀ Idealize.ShloMosaic

variable {F : FTy → Type} [FloatOps F]

/-- The source row numbers: row 0 of the edge list. -/
def srcT (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- The destination row numbers: row 1 of the edge list. -/
def dstT (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- The degrees: a one scattered onto each edge's source row, added up from zero. -/
def degT (s : (⟨S600000, .i32⟩ : BufTy).Contents (Elt F)) : (⟨S50000, .f32⟩ : BufTy).Contents (Elt F) :=
  Host.scatterAdd scatter_S50000_S600000x1_S600000_n_0_0_1
    (broadcastInDim S50000 ![] bcast_S_S50000 (constant S_ .f32 0x00000000#32))
    (broadcastInDim S600000x1 ![0] bcast_S600000_S600000x1_0 s)
    (broadcastInDim S600000 ![] bcast_S_S600000 (constant S_ .f32 0x3F800000#32))

/-- The per-node factor: `rsqrt (max deg 1)` where the degree is positive, zero elsewhere. -/
def dinvT (s : (⟨S600000, .i32⟩ : BufTy).Contents (Elt F)) : (⟨S50000, .f32⟩ : BufTy).Contents (Elt F) :=
  select (cmpf .ogt (degT s) (broadcastInDim S50000 ![] bcast_S_S50000 (constant S_ .f32 0x00000000#32)))
    (Host.rsqrt (maximumf (degT s) (broadcastInDim S50000 ![] bcast_S_S50000 (constant S_ .f32 0x3F800000#32))))
    (broadcastInDim S50000 ![] bcast_S_S50000 (id (constant S_ .f32 0x00000000#32)))

/-- The row numbers a gather uses: a negative number counts from the end. -/
def nrmT (s : (⟨S600000, .i32⟩ : BufTy).Contents (Elt F)) : (⟨S600000, .i32⟩ : BufTy).Contents (Elt F) :=
  select (cmpi .slt s (broadcastInDim S600000 ![] bcast_S_S600000 (constantI S_ 32 0#32)))
    (addi s (broadcastInDim S600000 ![] bcast_S_S600000 (constantI S_ 32 50000#32))) s

/-- The edge weights: `-(dinv[src] · dinv[dst])`, both rows normalised. -/
def ewT (d : (⟨S50000, .f32⟩ : BufTy).Contents (Elt F)) (s t : (⟨S600000, .i32⟩ : BufTy).Contents (Elt F)) : (⟨S600000, .f32⟩ : BufTy).Contents (Elt F) :=
  Host.negf (mulf
    (Host.gather gather_S50000_S600000x1_S600000_n_0_n_n_0_1_1 d (broadcastInDim S600000x1 ![0] bcast_S600000_S600000x1_0 (nrmT s)))
    (Host.gather gather_S50000_S600000x1_S600000_n_0_n_n_0_1_1 d (broadcastInDim S600000x1 ![0] bcast_S600000_S600000x1_0 (nrmT t))))

/-- One application of the scaled Laplacian, edge-weighted arrangement: `Σ_{dst = i} w_e · v[src]`. -/
def lhatT (d : (⟨S50000, .f32⟩ : BufTy).Contents (Elt F)) (s t : (⟨S600000, .i32⟩ : BufTy).Contents (Elt F))
    (v : (⟨S50000x128, .f32⟩ : BufTy).Contents (Elt F)) : (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 t)
    (mulf
      (broadcastInDim S600000x128 ![0, 1] bcast_S600000x1_S600000x128_0_1
        (broadcastInDim S600000x1 ![0] bcast_S600000_S600000x1_0 (ewT d s t)))
      (Host.gather gather_S50000x128_S600000x1_S600000x128_1_0_n_n_0_1_1128 v
        (broadcastInDim S600000x1 ![0] bcast_S600000_S600000x1_0 (nrmT s))))

/-- Weight matrix `k` of a layer's three. -/
def w0T (W : (⟨S3x128x128, .f32⟩ : BufTy).Contents (Elt F)) : (⟨S128x128, .f32⟩ : BufTy).Contents (Elt F) :=
  shapeCast S128x128 (extractStridedSlice S1x128x128 ![0, 0, 0] W slices_S3x128x128_S1x128x128_0_0_0) shapeCasts_S1x128x128_S128x128
def w1T (W : (⟨S3x128x128, .f32⟩ : BufTy).Contents (Elt F)) : (⟨S128x128, .f32⟩ : BufTy).Contents (Elt F) :=
  shapeCast S128x128 (extractStridedSlice S1x128x128 ![1, 0, 0] W slices_S3x128x128_S1x128x128_1_0_0) shapeCasts_S1x128x128_S128x128
def w2T (W : (⟨S3x128x128, .f32⟩ : BufTy).Contents (Elt F)) : (⟨S128x128, .f32⟩ : BufTy).Contents (Elt F) :=
  shapeCast S128x128 (extractStridedSlice S1x128x128 ![2, 0, 0] W slices_S3x128x128_S1x128x128_2_0_0) shapeCasts_S1x128x128_S128x128

/-- One layer: `relu (h·W0 + L h·W1 + (2·L(L h) − h)·W2 + b)`. -/
def layerT (d : (⟨S50000, .f32⟩ : BufTy).Contents (Elt F)) (s t : (⟨S600000, .i32⟩ : BufTy).Contents (Elt F))
    (h : (⟨S50000x128, .f32⟩ : BufTy).Contents (Elt F)) (W : (⟨S3x128x128, .f32⟩ : BufTy).Contents (Elt F)) (b : (⟨S128, .f32⟩ : BufTy).Contents (Elt F)) :
    (⟨S50000x128, .f32⟩ : BufTy).Contents (Elt F) :=
  maximumf
    (addf
      (addf
        (addf
          (Host.dotGeneral dot_S50000x128_S128x128_S50000x128_1_0_0_1_n_n none h (w0T W))
          (Host.dotGeneral dot_S50000x128_S128x128_S50000x128_1_0_0_1_n_n none (lhatT d s t h) (w1T W)))
        (Host.dotGeneral dot_S50000x128_S128x128_S50000x128_1_0_0_1_n_n none
          (subf
            (mulf (broadcastInDim S50000x128 ![] bcast_S_S50000x128 (constant S_ .f32 0x40000000#32))
              (lhatT d s t (lhatT d s t h)))
            h)
          (w2T W)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The tail: per-graph node counts and sums by the batch numbers, the mean (count at least one), the linear head. -/
def tailT (bt : (⟨S50000, .i32⟩ : BufTy).Contents (Elt F)) (Wo : (⟨S128x32, .f32⟩ : BufTy).Contents (Elt F))
    (bo : (⟨S32, .f32⟩ : BufTy).Contents (Elt F)) (h : (⟨S50000x128, .f32⟩ : BufTy).Contents (Elt F)) :
    (⟨S500x32, .f32⟩ : BufTy).Contents (Elt F) :=
  addf
    (Host.dotGeneral dot_S500x128_S128x32_S500x32_1_0_0_1_n_n none
      (Host.divf
        (Host.scatterAdd scatter_S500x128_S50000x1_S50000x128_1_0_0_1
          (broadcastInDim S500x128 ![] bcast_S_S500x128 (constant S_ .f32 0x00000000#32))
          (broadcastInDim S50000x1 ![0] bcast_S50000_S50000x1_0 bt) h)
        (broadcastInDim S500x128 ![0, 1] bcast_S500x1_S500x128_0_1
          (broadcastInDim S500x1 ![0] bcast_S500_S500x1_0
            (maximumf
              (Host.scatterAdd scatter_S500_S50000x1_S50000_n_0_0_1
                (broadcastInDim S500 ![] bcast_S_S500 (constant S_ .f32 0x00000000#32))
                (broadcastInDim S50000x1 ![0] bcast_S50000_S50000x1_0 bt)
                (broadcastInDim S50000 ![] bcast_S_S50000 (constant S_ .f32 0x3F800000#32)))
              (broadcastInDim S500 ![] bcast_S_S500 (constant S_ .f32 0x3F800000#32))))))
      Wo)
    (broadcastInDim S500x32 ![0, 1] bcast_S1x32_S500x32_0_1 (broadcastInDim S1x32 ![1] bcast_S32_S1x32_1 bo))

end Cert.ReferenceIdeal.Terms

end
-- ==== Proof.RefHT.lean ====
/-
  The head and the tail of the reference program: the head leaves the two rows of the edge list and the per-node
  factor; the tail leaves the pooled and projected output; both leave the arguments as they were.
-/
import proofs.«177079_j59863254171804_2_alg».proof.Proof.RefOps
import proofs.«177079_j59863254171804_2_alg».proof.Proof.RTerms

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem head_s (V : Valuation τ sig (Elt F)) :
    after opsHead V (Proc.devRef .tc main_v1) = Terms.srcT (V (Proc.devRef .tc main_arg1)) := by
  after_results_simp <;> rfl

set_option maxRecDepth 8192 in
set_option maxHeartbeats 4000000 in
theorem head_t (V : Valuation τ sig (Elt F)) :
    after opsHead V (Proc.devRef .tc main_v3) = Terms.dstT (V (Proc.devRef .tc main_arg1)) := by
  after_results_simp <;> rfl

set_option maxRecDepth 8192 in
set_option maxHeartbeats 4000000 in
theorem head_d (V : Valuation τ sig (Elt F)) :
    after opsHead V (Proc.devRef .tc main_v13) = Terms.dinvT (Terms.srcT (V (Proc.devRef .tc main_arg1))) := by
  after_results_simp <;> rfl

set_option maxRecDepth 8192 in
set_option maxHeartbeats 4000000 in
theorem head_keep_arg0 (V : Valuation τ sig (Elt F)) :
    after opsHead V (Proc.devRef .tc main_arg0) = V (Proc.devRef .tc main_arg0) := by
  after_results_simp <;> rfl

set_option maxRecDepth 8192 in
set_option maxHeartbeats 4000000 in
theorem head_keep_arg1 (V : Valuation τ sig (Elt F)) :
    after opsHead V (Proc.devRef .tc main_arg1) = V (Proc.devRef .tc main_arg1) := by
  after_results_simp <;> rfl

set_option maxRecDepth 8192 in
set_option maxHeartbeats 4000000 in
theorem head_keep_arg2 (V : Valuation τ sig (Elt F)) :
    after opsHead V (Proc.devRef .tc main_arg2) = V (Proc.devRef .tc main_arg2) := by
  after_results_simp <;> rfl

set_option maxRecDepth 8192 in
set_option maxHeartbeats 4000000 in
theorem head_keep_arg3 (V : Valuation τ sig (Elt F)) :
    after opsHead V (Proc.devRef .tc main_arg3) = V (Proc.devRef .tc main_arg3) := by
  after_results_simp <;> rfl

set_option maxRecDepth 8192 in
set_option maxHeartbeats 4000000 in
theorem head_keep_arg4 (V : Valuation τ sig (Elt F)) :
    after opsHead V (Proc.devRef .tc main_arg4) = V (Proc.devRef .tc main_arg4) := by
  after_results_simp <;> rfl

set_option maxRecDepth 8192 in
set_option maxHeartbeats 4000000 in
theorem head_keep_arg5 (V : Valuation τ sig (Elt F)) :
    after opsHead V (Proc.devRef .tc main_arg5) = V (Proc.devRef .tc main_arg5) := by
  after_results_simp <;> rfl

set_option maxRecDepth 8192 in
set_option maxHeartbeats 4000000 in
theorem head_keep_arg6 (V : Valuation τ sig (Elt F)) :
    after opsHead V (Proc.devRef .tc main_arg6) = V (Proc.devRef .tc main_arg6) := by
  after_results_simp <;> rfl

set_option maxRecDepth 8192 in
set_option maxHeartbeats 4000000 in
theorem head_keep_arg7 (V : Valuation τ sig (Elt F)) :
    after opsHead V (Proc.devRef .tc main_arg7) = V (Proc.devRef .tc main_arg7) := by
  after_results_simp <;> rfl

set_option maxRecDepth 8192 in
set_option maxHeartbeats 4000000 in
theorem head_keep_arg8 (V : Valuation τ sig (Elt F)) :
    after opsHead V (Proc.devRef .tc main_arg8) = V (Proc.devRef .tc main_arg8) := by
  after_results_simp <;> rfl

set_option maxRecDepth 8192 in
set_option maxHeartbeats 4000000 in
theorem head_keep_arg9 (V : Valuation τ sig (Elt F)) :
    after opsHead V (Proc.devRef .tc main_arg9) = V (Proc.devRef .tc main_arg9) := by
  after_results_simp <;> rfl

set_option maxRecDepth 8192 in
set_option maxHeartbeats 4000000 in
theorem head_keep_arg10 (V : Valuation τ sig (Elt F)) :
    after opsHead V (Proc.devRef .tc main_arg10) = V (Proc.devRef .tc main_arg10) := by
  after_results_simp <;> rfl

set_option maxRecDepth 8192 in
set_option maxHeartbeats 4000000 in
theorem tail_out (V : Valuation τ sig (Elt F)) :
    after opsTail V (Proc.devRef .tc main_v209) = Terms.tailT (V (Proc.devRef .tc main_arg2)) (V (Proc.devRef .tc main_arg9)) (V (Proc.devRef .tc main_arg10)) (V (Proc.devRef .tc main_v193)) := by
  after_results_simp <;> rfl

set_option maxRecDepth 8192 in
set_option maxHeartbeats 4000000 in
theorem tail_keep_arg0 (V : Valuation τ sig (Elt F)) :
    after opsTail V (Proc.devRef .tc main_arg0) = V (Proc.devRef .tc main_arg0) := by
  after_results_simp <;> rfl

set_option maxRecDepth 8192 in
set_option maxHeartbeats 4000000 in
theorem tail_keep_arg1 (V : Valuation τ sig (Elt F)) :
    after opsTail V (Proc.devRef .tc main_arg1) = V (Proc.devRef .tc main_arg1) := by
  after_results_simp <;> rfl

set_option maxRecDepth 8192 in
set_option maxHeartbeats 4000000 in
theorem tail_keep_arg2 (V : Valuation τ sig (Elt F)) :
    after opsTail V (Proc.devRef .tc main_arg2) = V (Proc.devRef .tc main_arg2) := by
  after_results_simp <;> rfl

set_option maxRecDepth 8192 in
set_option maxHeartbeats 4000000 in
theorem tail_keep_arg3 (V : Valuation τ sig (Elt F)) :
    after opsTail V (Proc.devRef .tc main_arg3) = V (Proc.devRef .tc main_arg3) := by
  after_results_simp <;> rfl

set_option maxRecDepth 8192 in
set_option maxHeartbeats 4000000 in
theorem tail_keep_arg4 (V : Valuation τ sig (Elt F)) :
    after opsTail V (Proc.devRef .tc main_arg4) = V (Proc.devRef .tc main_arg4) := by
  after_results_simp <;> rfl

set_option maxRecDepth 8192 in
set_option maxHeartbeats 4000000 in
theorem tail_keep_arg5 (V : Valuation τ sig (Elt F)) :
    after opsTail V (Proc.devRef .tc main_arg5) = V (Proc.devRef .tc main_arg5) := by
  after_results_simp <;> rfl

set_option maxRecDepth 8192 in
set_option maxHeartbeats 4000000 in
theorem tail_keep_arg6 (V : Valuation τ sig (Elt F)) :
    after opsTail V (Proc.devRef .tc main_arg6) = V (Proc.devRef .tc main_arg6) := by
  after_results_simp <;> rfl

set_option maxRecDepth 8192 in
set_option maxHeartbeats 4000000 in
theorem tail_keep_arg7 (V : Valuation τ sig (Elt F)) :
    after opsTail V (Proc.devRef .tc main_arg7) = V (Proc.devRef .tc main_arg7) := by
  after_results_simp <;> rfl

set_option maxRecDepth 8192 in
set_option maxHeartbeats 4000000 in
theorem tail_keep_arg8 (V : Valuation τ sig (Elt F)) :
    after opsTail V (Proc.devRef .tc main_arg8) = V (Proc.devRef .tc main_arg8) := by
  after_results_simp <;> rfl

set_option maxRecDepth 8192 in
set_option maxHeartbeats 4000000 in
theorem tail_keep_arg9 (V : Valuation τ sig (Elt F)) :
    after opsTail V (Proc.devRef .tc main_arg9) = V (Proc.devRef .tc main_arg9) := by
  after_results_simp <;> rfl

set_option maxRecDepth 8192 in
set_option maxHeartbeats 4000000 in
theorem tail_keep_arg10 (V : Valuation τ sig (Elt F)) :
    after opsTail V (Proc.devRef .tc main_arg10) = V (Proc.devRef .tc main_arg10) := by
  after_results_simp <;> rfl

end Cert.ReferenceIdeal.RunValue

end
-- ==== Proof.RefL1.lean ====
/-
  Layer 1 of the reference program: what its stretch of operations leaves in its output buffer, and the buffers it
  leaves as they were (the per-node factor, the rows of the edge list, the arguments).
-/
import proofs.«177079_j59863254171804_2_alg».proof.Proof.RefOps
import proofs.«177079_j59863254171804_2_alg».proof.Proof.RTerms

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- What the layer leaves in its output buffer: one layer of the per-node factor, the two rows of the edge list, the
    layer's input and its weights and bias, as those buffers stood before the stretch. -/
theorem l1_out (V : Valuation τ sig (Elt F)) :
    after opsL1 V (Proc.devRef .tc main_v73) = Terms.layerT (V (Proc.devRef .tc main_v13)) (V (Proc.devRef .tc main_v1)) (V (Proc.devRef .tc main_v3))
      (V (Proc.devRef .tc main_arg0)) (V (Proc.devRef .tc main_arg3)) (V (Proc.devRef .tc main_arg4)) := by
  after_results_simp <;> rfl

set_option maxRecDepth 8192 in
set_option maxHeartbeats 4000000 in
theorem l1_keep_v13 (V : Valuation τ sig (Elt F)) :
    after opsL1 V (Proc.devRef .tc main_v13) = V (Proc.devRef .tc main_v13) := by
  after_results_simp <;> rfl

set_option maxRecDepth 8192 in
set_option maxHeartbeats 4000000 in
theorem l1_keep_v1 (V : Valuation τ sig (Elt F)) :
    after opsL1 V (Proc.devRef .tc main_v1) = V (Proc.devRef .tc main_v1) := by
  after_results_simp <;> rfl

set_option maxRecDepth 8192 in
set_option maxHeartbeats 4000000 in
theorem l1_keep_v3 (V : Valuation τ sig (Elt F)) :
    after opsL1 V (Proc.devRef .tc main_v3) = V (Proc.devRef .tc main_v3) := by
  after_results_simp <;> rfl

set_option maxRecDepth 8192 in
set_option maxHeartbeats 4000000 in
theorem l1_keep_arg0 (V : Valuation τ sig (Elt F)) :
    after opsL1 V (Proc.devRef .tc main_arg0) = V (Proc.devRef .tc main_arg0) := by
  after_results_simp <;> rfl

set_option maxRecDepth 8192 in
set_option maxHeartbeats 4000000 in
theorem l1_keep_arg1 (V : Valuation τ sig (Elt F)) :
    after opsL1 V (Proc.devRef .tc main_arg1) = V (Proc.devRef .tc main_arg1) := by
  after_results_simp <;> rfl

set_option maxRecDepth 8192 in
set_option maxHeartbeats 4000000 in
theorem l1_keep_arg2 (V : Valuation τ sig (Elt F)) :
    after opsL1 V (Proc.devRef .tc main_arg2) = V (Proc.devRef .tc main_arg2) := by
  after_results_simp <;> rfl

set_option maxRecDepth 8192 in
set_option maxHeartbeats 4000000 in
theorem l1_keep_arg3 (V : Valuation τ sig (Elt F)) :
    after opsL1 V (Proc.devRef .tc main_arg3) = V (Proc.devRef .tc main_arg3) := by
  after_results_simp <;> rfl

set_option maxRecDepth 8192 in
set_option maxHeartbeats 4000000 in
theorem l1_keep_arg4 (V : Valuation τ sig (Elt F)) :
    after opsL1 V (Proc.devRef .tc main_arg4) = V (Proc.devRef .tc main_arg4) := by
  after_results_simp <;> rfl

set_option maxRecDepth 8192 in
set_option maxHeartbeats 4000000 in
theorem l1_keep_arg5 (V : Valuation τ sig (Elt F)) :
    after opsL1 V (Proc.devRef .tc main_arg5) = V (Proc.devRef .tc main_arg5) := by
  after_results_simp <;> rfl

set_option maxRecDepth 8192 in
set_option maxHeartbeats 4000000 in
theorem l1_keep_arg6 (V : Valuation τ sig (Elt F)) :
    after opsL1 V (Proc.devRef .tc main_arg6) = V (Proc.devRef .tc main_arg6) := by
  after_results_simp <;> rfl

set_option maxRecDepth 8192 in
set_option maxHeartbeats 4000000 in
theorem l1_keep_arg7 (V : Valuation τ sig (Elt F)) :
    after opsL1 V (Proc.devRef .tc main_arg7) = V (Proc.devRef .tc main_arg7) := by
  after_results_simp <;> rfl

set_option maxRecDepth 8192 in
set_option maxHeartbeats 4000000 in
theorem l1_keep_arg8 (V : Valuation τ sig (Elt F)) :
    after opsL1 V (Proc.devRef .tc main_arg8) = V (Proc.devRef .tc main_arg8) := by
  after_results_simp <;> rfl

set_option maxRecDepth 8192 in
set_option maxHeartbeats 4000000 in
theorem l1_keep_arg9 (V : Valuation τ sig (Elt F)) :
    after opsL1 V (Proc.devRef .tc main_arg9) = V (Proc.devRef .tc main_arg9) := by
  after_results_simp <;> rfl

set_option maxRecDepth 8192 in
set_option maxHeartbeats 4000000 in
theorem l1_keep_arg10 (V : Valuation τ sig (Elt F)) :
    after opsL1 V (Proc.devRef .tc main_arg10) = V (Proc.devRef .tc main_arg10) := by
  after_results_simp <;> rfl

end Cert.ReferenceIdeal.RunValue

end
-- ==== Proof.RefL2.lean ====
/-
  Layer 2 of the reference program: what its stretch of operations leaves in its output buffer, and the buffers it
  leaves as they were (the per-node factor, the rows of the edge list, the arguments).
-/
import proofs.«177079_j59863254171804_2_alg».proof.Proof.RefOps
import proofs.«177079_j59863254171804_2_alg».proof.Proof.RTerms

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- What the layer leaves in its output buffer: one layer of the per-node factor, the two rows of the edge list, the
    layer's input and its weights and bias, as those buffers stood before the stretch. -/
theorem l2_out (V : Valuation τ sig (Elt F)) :
    after opsL2 V (Proc.devRef .tc main_v133) = Terms.layerT (V (Proc.devRef .tc main_v13)) (V (Proc.devRef .tc main_v1)) (V (Proc.devRef .tc main_v3))
      (V (Proc.devRef .tc main_v73)) (V (Proc.devRef .tc main_arg5)) (V (Proc.devRef .tc main_arg6)) := by
  after_results_simp <;> rfl

set_option maxRecDepth 8192 in
set_option maxHeartbeats 4000000 in
theorem l2_keep_v13 (V : Valuation τ sig (Elt F)) :
    after opsL2 V (Proc.devRef .tc main_v13) = V (Proc.devRef .tc main_v13) := by
  after_results_simp <;> rfl

set_option maxRecDepth 8192 in
set_option maxHeartbeats 4000000 in
theorem l2_keep_v1 (V : Valuation τ sig (Elt F)) :
    after opsL2 V (Proc.devRef .tc main_v1) = V (Proc.devRef .tc main_v1) := by
  after_results_simp <;> rfl

set_option maxRecDepth 8192 in
set_option maxHeartbeats 4000000 in
theorem l2_keep_v3 (V : Valuation τ sig (Elt F)) :
    after opsL2 V (Proc.devRef .tc main_v3) = V (Proc.devRef .tc main_v3) := by
  after_results_simp <;> rfl

set_option maxRecDepth 8192 in
set_option maxHeartbeats 4000000 in
theorem l2_keep_arg0 (V : Valuation τ sig (Elt F)) :
    after opsL2 V (Proc.devRef .tc main_arg0) = V (Proc.devRef .tc main_arg0) := by
  after_results_simp <;> rfl

set_option maxRecDepth 8192 in
set_option maxHeartbeats 4000000 in
theorem l2_keep_arg1 (V : Valuation τ sig (Elt F)) :
    after opsL2 V (Proc.devRef .tc main_arg1) = V (Proc.devRef .tc main_arg1) := by
  after_results_simp <;> rfl

set_option maxRecDepth 8192 in
set_option maxHeartbeats 4000000 in
theorem l2_keep_arg2 (V : Valuation τ sig (Elt F)) :
    after opsL2 V (Proc.devRef .tc main_arg2) = V (Proc.devRef .tc main_arg2) := by
  after_results_simp <;> rfl

set_option maxRecDepth 8192 in
set_option maxHeartbeats 4000000 in
theorem l2_keep_arg3 (V : Valuation τ sig (Elt F)) :
    after opsL2 V (Proc.devRef .tc main_arg3) = V (Proc.devRef .tc main_arg3) := by
  after_results_simp <;> rfl

set_option maxRecDepth 8192 in
set_option maxHeartbeats 4000000 in
theorem l2_keep_arg4 (V : Valuation τ sig (Elt F)) :
    after opsL2 V (Proc.devRef .tc main_arg4) = V (Proc.devRef .tc main_arg4) := by
  after_results_simp <;> rfl

set_option maxRecDepth 8192 in
set_option maxHeartbeats 4000000 in
theorem l2_keep_arg5 (V : Valuation τ sig (Elt F)) :
    after opsL2 V (Proc.devRef .tc main_arg5) = V (Proc.devRef .tc main_arg5) := by
  after_results_simp <;> rfl

set_option maxRecDepth 8192 in
set_option maxHeartbeats 4000000 in
theorem l2_keep_arg6 (V : Valuation τ sig (Elt F)) :
    after opsL2 V (Proc.devRef .tc main_arg6) = V (Proc.devRef .tc main_arg6) := by
  after_results_simp <;> rfl

set_option maxRecDepth 8192 in
set_option maxHeartbeats 4000000 in
theorem l2_keep_arg7 (V : Valuation τ sig (Elt F)) :
    after opsL2 V (Proc.devRef .tc main_arg7) = V (Proc.devRef .tc main_arg7) := by
  after_results_simp <;> rfl

set_option maxRecDepth 8192 in
set_option maxHeartbeats 4000000 in
theorem l2_keep_arg8 (V : Valuation τ sig (Elt F)) :
    after opsL2 V (Proc.devRef .tc main_arg8) = V (Proc.devRef .tc main_arg8) := by
  after_results_simp <;> rfl

set_option maxRecDepth 8192 in
set_option maxHeartbeats 4000000 in
theorem l2_keep_arg9 (V : Valuation τ sig (Elt F)) :
    after opsL2 V (Proc.devRef .tc main_arg9) = V (Proc.devRef .tc main_arg9) := by
  after_results_simp <;> rfl

set_option maxRecDepth 8192 in
set_option maxHeartbeats 4000000 in
theorem l2_keep_arg10 (V : Valuation τ sig (Elt F)) :
    after opsL2 V (Proc.devRef .tc main_arg10) = V (Proc.devRef .tc main_arg10) := by
  after_results_simp <;> rfl

end Cert.ReferenceIdeal.RunValue

end
-- ==== Proof.RefL3.lean ====
/-
  Layer 3 of the reference program: what its stretch of operations leaves in its output buffer, and the buffers it
  leaves as they were (the per-node factor, the rows of the edge list, the arguments).
-/
import proofs.«177079_j59863254171804_2_alg».proof.Proof.RefOps
import proofs.«177079_j59863254171804_2_alg».proof.Proof.RTerms

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- What the layer leaves in its output buffer: one layer of the per-node factor, the two rows of the edge list, the
    layer's input and its weights and bias, as those buffers stood before the stretch. -/
theorem l3_out (V : Valuation τ sig (Elt F)) :
    after opsL3 V (Proc.devRef .tc main_v193) = Terms.layerT (V (Proc.devRef .tc main_v13)) (V (Proc.devRef .tc main_v1)) (V (Proc.devRef .tc main_v3))
      (V (Proc.devRef .tc main_v133)) (V (Proc.devRef .tc main_arg7)) (V (Proc.devRef .tc main_arg8)) := by
  after_results_simp <;> rfl

set_option maxRecDepth 8192 in
set_option maxHeartbeats 4000000 in
theorem l3_keep_arg0 (V : Valuation τ sig (Elt F)) :
    after opsL3 V (Proc.devRef .tc main_arg0) = V (Proc.devRef .tc main_arg0) := by
  after_results_simp <;> rfl

set_option maxRecDepth 8192 in
set_option maxHeartbeats 4000000 in
theorem l3_keep_arg1 (V : Valuation τ sig (Elt F)) :
    after opsL3 V (Proc.devRef .tc main_arg1) = V (Proc.devRef .tc main_arg1) := by
  after_results_simp <;> rfl

set_option maxRecDepth 8192 in
set_option maxHeartbeats 4000000 in
theorem l3_keep_arg2 (V : Valuation τ sig (Elt F)) :
    after opsL3 V (Proc.devRef .tc main_arg2) = V (Proc.devRef .tc main_arg2) := by
  after_results_simp <;> rfl

set_option maxRecDepth 8192 in
set_option maxHeartbeats 4000000 in
theorem l3_keep_arg3 (V : Valuation τ sig (Elt F)) :
    after opsL3 V (Proc.devRef .tc main_arg3) = V (Proc.devRef .tc main_arg3) := by
  after_results_simp <;> rfl

set_option maxRecDepth 8192 in
set_option maxHeartbeats 4000000 in
theorem l3_keep_arg4 (V : Valuation τ sig (Elt F)) :
    after opsL3 V (Proc.devRef .tc main_arg4) = V (Proc.devRef .tc main_arg4) := by
  after_results_simp <;> rfl

set_option maxRecDepth 8192 in
set_option maxHeartbeats 4000000 in
theorem l3_keep_arg5 (V : Valuation τ sig (Elt F)) :
    after opsL3 V (Proc.devRef .tc main_arg5) = V (Proc.devRef .tc main_arg5) := by
  after_results_simp <;> rfl

set_option maxRecDepth 8192 in
set_option maxHeartbeats 4000000 in
theorem l3_keep_arg6 (V : Valuation τ sig (Elt F)) :
    after opsL3 V (Proc.devRef .tc main_arg6) = V (Proc.devRef .tc main_arg6) := by
  after_results_simp <;> rfl

set_option maxRecDepth 8192 in
set_option maxHeartbeats 4000000 in
theorem l3_keep_arg7 (V : Valuation τ sig (Elt F)) :
    after opsL3 V (Proc.devRef .tc main_arg7) = V (Proc.devRef .tc main_arg7) := by
  after_results_simp <;> rfl

set_option maxRecDepth 8192 in
set_option maxHeartbeats 4000000 in
theorem l3_keep_arg8 (V : Valuation τ sig (Elt F)) :
    after opsL3 V (Proc.devRef .tc main_arg8) = V (Proc.devRef .tc main_arg8) := by
  after_results_simp <;> rfl

set_option maxRecDepth 8192 in
set_option maxHeartbeats 4000000 in
theorem l3_keep_arg9 (V : Valuation τ sig (Elt F)) :
    after opsL3 V (Proc.devRef .tc main_arg9) = V (Proc.devRef .tc main_arg9) := by
  after_results_simp <;> rfl

set_option maxRecDepth 8192 in
set_option maxHeartbeats 4000000 in
theorem l3_keep_arg10 (V : Valuation τ sig (Elt F)) :
    after opsL3 V (Proc.devRef .tc main_arg10) = V (Proc.devRef .tc main_arg10) := by
  after_results_simp <;> rfl

end Cert.ReferenceIdeal.RunValue

end
-- ==== Proof.RefRun.lean ====
/-
  The reference program's run, read back without inlining: every weakly fair execution terminates with the output
  buffer at the tail applied to three layers in a row, each layer a term of the per-node factor, the two rows of the
  edge list, the previous layer's output and the layer's weights and bias; the arguments end unchanged. The contents
  after the whole list are followed stretch by stretch: each stretch's output is a named term of the contents before
  it, and the buffers later stretches read are left as they were.
-/
import proofs.«177079_j59863254171804_2_alg».proof.Proof.RefOps
import proofs.«177079_j59863254171804_2_alg».proof.Proof.RefHT
import proofs.«177079_j59863254171804_2_alg».proof.Proof.RefL1
import proofs.«177079_j59863254171804_2_alg».proof.Proof.RefL2
import proofs.«177079_j59863254171804_2_alg».proof.Proof.RefL3

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The output buffer after the whole list, from any contents: the tail of three layers. -/
theorem result_eq (V : Valuation τ sig (Elt F)) :
    after ops V (Proc.devRef .tc main_v209) =
      Terms.tailT (V (Proc.devRef .tc main_arg2)) (V (Proc.devRef .tc main_arg9)) (V (Proc.devRef .tc main_arg10))
        (Terms.layerT (Terms.dinvT (Terms.srcT (V (Proc.devRef .tc main_arg1)))) (Terms.srcT (V (Proc.devRef .tc main_arg1))) (Terms.dstT (V (Proc.devRef .tc main_arg1)))
          (Terms.layerT (Terms.dinvT (Terms.srcT (V (Proc.devRef .tc main_arg1)))) (Terms.srcT (V (Proc.devRef .tc main_arg1))) (Terms.dstT (V (Proc.devRef .tc main_arg1)))
            (Terms.layerT (Terms.dinvT (Terms.srcT (V (Proc.devRef .tc main_arg1)))) (Terms.srcT (V (Proc.devRef .tc main_arg1))) (Terms.dstT (V (Proc.devRef .tc main_arg1))) (V (Proc.devRef .tc main_arg0)) (V (Proc.devRef .tc main_arg3)) (V (Proc.devRef .tc main_arg4)))
            (V (Proc.devRef .tc main_arg5)) (V (Proc.devRef .tc main_arg6)))
          (V (Proc.devRef .tc main_arg7)) (V (Proc.devRef .tc main_arg8))) := by
  rw [ops_split, after_app, after_app, after_app, after_app, tail_out,
    l3_keep_arg2, l3_keep_arg9, l3_keep_arg10, l3_out,
    l2_keep_v13, l2_keep_v1, l2_keep_v3, l2_keep_arg2, l2_keep_arg7, l2_keep_arg8, l2_keep_arg9, l2_keep_arg10, l2_out,
    l1_keep_v13, l1_keep_v1, l1_keep_v3, l1_keep_arg2, l1_keep_arg5, l1_keep_arg6, l1_keep_arg7, l1_keep_arg8,
    l1_keep_arg9, l1_keep_arg10, l1_out,
    head_d, head_s, head_t, head_keep_arg0, head_keep_arg2, head_keep_arg3, head_keep_arg4, head_keep_arg5,
    head_keep_arg6, head_keep_arg7, head_keep_arg8, head_keep_arg9, head_keep_arg10]

theorem arg_eq_0 (V : Valuation τ sig (Elt F)) :
    after ops V (Proc.devRef .tc main_arg0) = V (Proc.devRef .tc main_arg0) := by
  rw [ops_split, after_app, after_app, after_app, after_app, tail_keep_arg0, l3_keep_arg0, l2_keep_arg0, l1_keep_arg0,
    head_keep_arg0]

theorem arg_eq_1 (V : Valuation τ sig (Elt F)) :
    after ops V (Proc.devRef .tc main_arg1) = V (Proc.devRef .tc main_arg1) := by
  rw [ops_split, after_app, after_app, after_app, after_app, tail_keep_arg1, l3_keep_arg1, l2_keep_arg1, l1_keep_arg1,
    head_keep_arg1]

theorem arg_eq_2 (V : Valuation τ sig (Elt F)) :
    after ops V (Proc.devRef .tc main_arg2) = V (Proc.devRef .tc main_arg2) := by
  rw [ops_split, after_app, after_app, after_app, after_app, tail_keep_arg2, l3_keep_arg2, l2_keep_arg2, l1_keep_arg2,
    head_keep_arg2]

theorem arg_eq_3 (V : Valuation τ sig (Elt F)) :
    after ops V (Proc.devRef .tc main_arg3) = V (Proc.devRef .tc main_arg3) := by
  rw [ops_split, after_app, after_app, after_app, after_app, tail_keep_arg3, l3_keep_arg3, l2_keep_arg3, l1_keep_arg3,
    head_keep_arg3]

theorem arg_eq_4 (V : Valuation τ sig (Elt F)) :
    after ops V (Proc.devRef .tc main_arg4) = V (Proc.devRef .tc main_arg4) := by
  rw [ops_split, after_app, after_app, after_app, after_app, tail_keep_arg4, l3_keep_arg4, l2_keep_arg4, l1_keep_arg4,
    head_keep_arg4]

theorem arg_eq_5 (V : Valuation τ sig (Elt F)) :
    after ops V (Proc.devRef .tc main_arg5) = V (Proc.devRef .tc main_arg5) := by
  rw [ops_split, after_app, after_app, after_app, after_app, tail_keep_arg5, l3_keep_arg5, l2_keep_arg5, l1_keep_arg5,
    head_keep_arg5]

theorem arg_eq_6 (V : Valuation τ sig (Elt F)) :
    after ops V (Proc.devRef .tc main_arg6) = V (Proc.devRef .tc main_arg6) := by
  rw [ops_split, after_app, after_app, after_app, after_app, tail_keep_arg6, l3_keep_arg6, l2_keep_arg6, l1_keep_arg6,
    head_keep_arg6]

theorem arg_eq_7 (V : Valuation τ sig (Elt F)) :
    after ops V (Proc.devRef .tc main_arg7) = V (Proc.devRef .tc main_arg7) := by
  rw [ops_split, after_app, after_app, after_app, after_app, tail_keep_arg7, l3_keep_arg7, l2_keep_arg7, l1_keep_arg7,
    head_keep_arg7]

theorem arg_eq_8 (V : Valuation τ sig (Elt F)) :
    after ops V (Proc.devRef .tc main_arg8) = V (Proc.devRef .tc main_arg8) := by
  rw [ops_split, after_app, after_app, after_app, after_app, tail_keep_arg8, l3_keep_arg8, l2_keep_arg8, l1_keep_arg8,
    head_keep_arg8]

theorem arg_eq_9 (V : Valuation τ sig (Elt F)) :
    after ops V (Proc.devRef .tc main_arg9) = V (Proc.devRef .tc main_arg9) := by
  rw [ops_split, after_app, after_app, after_app, after_app, tail_keep_arg9, l3_keep_arg9, l2_keep_arg9, l1_keep_arg9,
    head_keep_arg9]

theorem arg_eq_10 (V : Valuation τ sig (Elt F)) :
    after ops V (Proc.devRef .tc main_arg10) = V (Proc.devRef .tc main_arg10) := by
  rw [ops_split, after_app, after_app, after_app, after_app, tail_keep_arg10, l3_keep_arg10, l2_keep_arg10, l1_keep_arg10,
    head_keep_arg10]

/-- On every device, for any float values, from any memory with zero counters: every weakly fair execution of the
    program terminates with the output at the tail of three layers of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v209) =
        Terms.tailT (m ((c.tc : Thread nD τ).loc main_arg2)) (m ((c.tc : Thread nD τ).loc main_arg9)) (m ((c.tc : Thread nD τ).loc main_arg10))
          (Terms.layerT (Terms.dinvT (Terms.srcT (m ((c.tc : Thread nD τ).loc main_arg1)))) (Terms.srcT (m ((c.tc : Thread nD τ).loc main_arg1))) (Terms.dstT (m ((c.tc : Thread nD τ).loc main_arg1)))
            (Terms.layerT (Terms.dinvT (Terms.srcT (m ((c.tc : Thread nD τ).loc main_arg1)))) (Terms.srcT (m ((c.tc : Thread nD τ).loc main_arg1))) (Terms.dstT (m ((c.tc : Thread nD τ).loc main_arg1)))
              (Terms.layerT (Terms.dinvT (Terms.srcT (m ((c.tc : Thread nD τ).loc main_arg1)))) (Terms.srcT (m ((c.tc : Thread nD τ).loc main_arg1))) (Terms.dstT (m ((c.tc : Thread nD τ).loc main_arg1))) (m ((c.tc : Thread nD τ).loc main_arg0)) (m ((c.tc : Thread nD τ).loc main_arg3)) (m ((c.tc : Thread nD τ).loc main_arg4)))
              (m ((c.tc : Thread nD τ).loc main_arg5)) (m ((c.tc : Thread nD τ).loc main_arg6)))
            (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v209).trans (result_eq _),
      (h c main_arg0).trans (arg_eq_0 _),
      (h c main_arg1).trans (arg_eq_1 _),
      (h c main_arg2).trans (arg_eq_2 _),
      (h c main_arg3).trans (arg_eq_3 _),
      (h c main_arg4).trans (arg_eq_4 _),
      (h c main_arg5).trans (arg_eq_5 _),
      (h c main_arg6).trans (arg_eq_6 _),
      (h c main_arg7).trans (arg_eq_7 _),
      (h c main_arg8).trans (arg_eq_8 _),
      (h c main_arg9).trans (arg_eq_9 _),
      (h c main_arg10).trans (arg_eq_10 _)⟩)
    (run_seq scopedRefs_eq scopedSems_eq defs main (fun _ => ops) main_eq (fun _ => ops_sub) m ρ)

end Cert.ReferenceIdeal.RunValue

end
-- ==== Proof.KTerms.lean ====
/-
  The kernel program's host operations, grouped into the terms its buffers hold.

  From the edge list: the source and destination row numbers (its two rows) and the per-node factor `dinv` (the inverse
  square root of the degree counted by a scatter-add of ones, or zero). One application of the scaled Laplacian in the
  node-scaled arrangement, `lhatT`: scale the node array by `dinv`, gather the rows named by the normalised source
  numbers, scatter-add them by destination, scale by `-dinv`. A layer's weights as three matrices and its bias as one
  row. The tail: mean pooling by the batch numbers and the linear head. Format changes (to bf16 and back) are kept as
  printed; at the ideal instance they are the identity.
-/
import proofs.«177079_j59863254171804_2_alg».proof.Proof.Gen.KernelIdeal

noncomputable section

namespace Cert.KernelIdeal.Terms

open Cert.KernelIdeal Cert.KernelIdeal.Facts₀ Idealize.ShloMosaic

variable {F : FTy → Type} [FloatOps F]

/-- The source row numbers: row 0 of the edge list. -/
def srcT (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- The destination row numbers: row 1 of the edge list. -/
def dstT (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- The degrees: a one scattered onto each edge's source row, added up from zero. -/
def degT (s : (⟨S600000, .i32⟩ : BufTy).Contents (Elt F)) : (⟨S50000, .f32⟩ : BufTy).Contents (Elt F) :=
  Host.scatterAdd scatter_S50000_S600000x1_S600000_n_0_0_1
    (broadcastInDim S50000 ![] bcast_S_S50000 (constant S_ .f32 0x00000000#32))
    (broadcastInDim S600000x1 ![0] bcast_S600000_S600000x1_0 s)
    (broadcastInDim S600000 ![] bcast_S_S600000 (constant S_ .f32 0x3F800000#32))

/-- The per-node factor: `rsqrt (max deg 1)` where the degree is positive, zero elsewhere. -/
def dinvT (s : (⟨S600000, .i32⟩ : BufTy).Contents (Elt F)) : (⟨S50000, .f32⟩ : BufTy).Contents (Elt F) :=
  select (cmpf .ogt (degT s) (broadcastInDim S50000 ![] bcast_S_S50000 (constant S_ .f32 0x00000000#32)))
    (Host.rsqrt (maximumf (degT s) (broadcastInDim S50000 ![] bcast_S_S50000 (constant S_ .f32 0x3F800000#32))))
    (broadcastInDim S50000 ![] bcast_S_S50000 (id (constant S_ .f32 0x00000000#32)))

/-- The row numbers a gather uses: a negative number counts from the end. -/
def nrmT (s : (⟨S600000, .i32⟩ : BufTy).Contents (Elt F)) : (⟨S600000, .i32⟩ : BufTy).Contents (Elt F) :=
  select (cmpi .slt s (broadcastInDim S600000 ![] bcast_S_S600000 (constantI S_ 32 0#32)))
    (addi s (broadcastInDim S600000 ![] bcast_S_S600000 (constantI S_ 32 50000#32))) s

/-- The node array scaled by `dinv`, row by row. -/
def scaleT (d : (⟨S50000, .f32⟩ : BufTy).Contents (Elt F)) (v : (⟨S50000x128, .f32⟩ : BufTy).Contents (Elt F)) :
    (⟨S50000x128, .f32⟩ : BufTy).Contents (Elt F) :=
  mulf (broadcastInDim S50000x128 ![0, 1] bcast_S50000x1_S50000x128_0_1 (broadcastInDim S50000x1 ![0] bcast_S50000_S50000x1_0 d)) v

/-- The unweighted messages summed per destination row: gather the rows of `u` by source, scatter-add by destination. -/
def msgT (s t : (⟨S600000, .i32⟩ : BufTy).Contents (Elt F)) (u : (⟨S50000x128, .f32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 t)
    (extf .f32 (Host.gather gather_S50000x128_S600000x1_S600000x128_1_0_n_n_0_1_1128 (truncf .bf16 u bitsLt_bf16_f32)
      (broadcastInDim S600000x1 ![0] bcast_S600000_S600000x1_0 (nrmT s))) bitsLt_bf16_f32)

/-- One application of the scaled Laplacian, node-scaled arrangement: `-dinv · Σ_{dst = i} (dinv · v)[src]`. -/
def lhatT (d : (⟨S50000, .f32⟩ : BufTy).Contents (Elt F)) (s t : (⟨S600000, .i32⟩ : BufTy).Contents (Elt F))
    (v : (⟨S50000x128, .f32⟩ : BufTy).Contents (Elt F)) : (⟨S50000x128, .f32⟩ : BufTy).Contents (Elt F) :=
  mulf (broadcastInDim S50000x128 ![0, 1] bcast_S50000x1_S50000x128_0_1
      (Host.negf (broadcastInDim S50000x1 ![0] bcast_S50000_S50000x1_0 d)))
    (msgT s t (scaleT d v))

/-- Weight matrix `k` of a layer's three. -/
def w0T (W : (⟨S3x128x128, .f32⟩ : BufTy).Contents (Elt F)) : (⟨S128x128, .f32⟩ : BufTy).Contents (Elt F) :=
  shapeCast S128x128 (extractStridedSlice S1x128x128 ![0, 0, 0] W slices_S3x128x128_S1x128x128_0_0_0) shapeCasts_S1x128x128_S128x128
def w1T (W : (⟨S3x128x128, .f32⟩ : BufTy).Contents (Elt F)) : (⟨S128x128, .f32⟩ : BufTy).Contents (Elt F) :=
  shapeCast S128x128 (extractStridedSlice S1x128x128 ![1, 0, 0] W slices_S3x128x128_S1x128x128_1_0_0) shapeCasts_S1x128x128_S128x128
def w2T (W : (⟨S3x128x128, .f32⟩ : BufTy).Contents (Elt F)) : (⟨S128x128, .f32⟩ : BufTy).Contents (Elt F) :=
  shapeCast S128x128 (extractStridedSlice S1x128x128 ![2, 0, 0] W slices_S3x128x128_S1x128x128_2_0_0) shapeCasts_S1x128x128_S128x128

/-- A layer's bias as one row. -/
def biasT (b : (⟨S128, .f32⟩ : BufTy).Contents (Elt F)) : (⟨S1x128, .f32⟩ : BufTy).Contents (Elt F) :=
  shapeCast S1x128 b shapeCasts_S128_S1x128

/-- The tail: per-graph node counts and sums by the batch numbers, the mean (count at least one), the linear head. -/
def tailT (bt : (⟨S50000, .i32⟩ : BufTy).Contents (Elt F)) (Wo : (⟨S128x32, .f32⟩ : BufTy).Contents (Elt F))
    (bo : (⟨S32, .f32⟩ : BufTy).Contents (Elt F)) (h : (⟨S50000x128, .f32⟩ : BufTy).Contents (Elt F)) :
    (⟨S500x32, .f32⟩ : BufTy).Contents (Elt F) :=
  addf
    (Host.dotGeneral dot_S500x128_S128x32_S500x32_1_0_0_1_n_n none
      (Host.divf
        (Host.scatterAdd scatter_S500x128_S50000x1_S50000x128_1_0_0_1
          (broadcastInDim S500x128 ![] bcast_S_S500x128 (constant S_ .f32 0x00000000#32))
          (broadcastInDim S50000x1 ![0] bcast_S50000_S50000x1_0 bt) h)
        (broadcastInDim S500x128 ![0, 1] bcast_S500x1_S500x128_0_1
          (broadcastInDim S500x1 ![0] bcast_S500_S500x1_0
            (maximumf
              (Host.scatterAdd scatter_S500_S50000x1_S50000_n_0_0_1
                (broadcastInDim S500 ![] bcast_S_S500 (constant S_ .f32 0x00000000#32))
                (broadcastInDim S50000x1 ![0] bcast_S50000_S50000x1_0 bt)
                (broadcastInDim S50000 ![] bcast_S_S50000 (constant S_ .f32 0x3F800000#32)))
              (broadcastInDim S500 ![] bcast_S_S500 (constant S_ .f32 0x3F800000#32))))))
      Wo)
    (broadcastInDim S500x32 ![0, 1] bcast_S1x32_S500x32_0_1 (broadcastInDim S1x32 ![1] bcast_S32_S1x32_1 bo))

end Cert.KernelIdeal.Terms

end
-- ==== Proof.KUnwind.lean ====
/-
  The kernel program's buffer contents, boundary by boundary.

  Each stretch of host operations, run from ANY contents `V`, writes its results as the named terms of the buffers it
  reads (two applications of the scaled Laplacian, a layer's three weight matrices, its bias row; at the end the
  pooling and the head) and leaves every other buffer alone; a region leaves its output array at what its
  write-backs fold to and every buffer outside its windows alone. Chained from the launch memory this gives, at
  each region's entry, the arrays its windows read, and at the return the result.
-/
import proofs.«177079_j59863254171804_2_alg».proof.Proof.Gen.KernelIdeal.Frame
import proofs.«177079_j59863254171804_2_alg».proof.Proof.KTerms

set_option maxRecDepth 16384

noncomputable section

namespace Cert.KernelIdeal.Unwind

open Cert.KernelIdeal Cert.KernelIdeal.Gen Cert.KernelIdeal.Terms Cert.KernelIdeal.Facts₀
open Idealize.ShloMosaic Idealize.ShloMosaic.TcCoe Idealize.SL.Sem Idealize.ShloMosaic.StableHlo

variable {F : FTy → Type} [FloatOps F]

/-! ## What each stretch writes and what it leaves, from any contents -/

section Stretches

variable (V : Valuation τ sig (Elt F))

/-- The head writes the source row numbers … -/
theorem head_v1 : (StableHlo.after hostOps0_1 (StableHlo.after hostOps0 V) (Proc.devRef .tc main_v1) : (⟨S600000, .i32⟩ : BufTy).Contents (Elt F))
    = srcT (V (Proc.devRef .tc main_arg1)) := by
  dsimp only [hostOps0, hostOps0_1]; after_results; rfl
/-- … the destination row numbers … -/
theorem head_v3 : (StableHlo.after hostOps0_1 (StableHlo.after hostOps0 V) (Proc.devRef .tc main_v3) : (⟨S600000, .i32⟩ : BufTy).Contents (Elt F))
    = dstT (V (Proc.devRef .tc main_arg1)) := by
  dsimp only [hostOps0, hostOps0_1]; after_results; rfl
/-- … and the per-node factor. -/
theorem head_v13 : (StableHlo.after hostOps0_1 (StableHlo.after hostOps0 V) (Proc.devRef .tc main_v13) : (⟨S50000, .f32⟩ : BufTy).Contents (Elt F))
    = dinvT (srcT (V (Proc.devRef .tc main_arg1))) := by
  dsimp only [hostOps0, hostOps0_1]; after_results; rfl
theorem head_arg0 : StableHlo.after hostOps0_1 (StableHlo.after hostOps0 V) (Proc.devRef .tc main_arg0) = V (Proc.devRef .tc main_arg0) := by
  dsimp only [hostOps0, hostOps0_1]; after_results; first | rfl | skip
theorem head_arg2 : StableHlo.after hostOps0_1 (StableHlo.after hostOps0 V) (Proc.devRef .tc main_arg2) = V (Proc.devRef .tc main_arg2) := by
  dsimp only [hostOps0, hostOps0_1]; after_results; first | rfl | skip
theorem head_arg3 : StableHlo.after hostOps0_1 (StableHlo.after hostOps0 V) (Proc.devRef .tc main_arg3) = V (Proc.devRef .tc main_arg3) := by
  dsimp only [hostOps0, hostOps0_1]; after_results; first | rfl | skip
theorem head_arg4 : StableHlo.after hostOps0_1 (StableHlo.after hostOps0 V) (Proc.devRef .tc main_arg4) = V (Proc.devRef .tc main_arg4) := by
  dsimp only [hostOps0, hostOps0_1]; after_results; first | rfl | skip
theorem head_arg5 : StableHlo.after hostOps0_1 (StableHlo.after hostOps0 V) (Proc.devRef .tc main_arg5) = V (Proc.devRef .tc main_arg5) := by
  dsimp only [hostOps0, hostOps0_1]; after_results; first | rfl | skip
theorem head_arg6 : StableHlo.after hostOps0_1 (StableHlo.after hostOps0 V) (Proc.devRef .tc main_arg6) = V (Proc.devRef .tc main_arg6) := by
  dsimp only [hostOps0, hostOps0_1]; after_results; first | rfl | skip
theorem head_arg7 : StableHlo.after hostOps0_1 (StableHlo.after hostOps0 V) (Proc.devRef .tc main_arg7) = V (Proc.devRef .tc main_arg7) := by
  dsimp only [hostOps0, hostOps0_1]; after_results; first | rfl | skip
theorem head_arg8 : StableHlo.after hostOps0_1 (StableHlo.after hostOps0 V) (Proc.devRef .tc main_arg8) = V (Proc.devRef .tc main_arg8) := by
  dsimp only [hostOps0, hostOps0_1]; after_results; first | rfl | skip
theorem head_arg9 : StableHlo.after hostOps0_1 (StableHlo.after hostOps0 V) (Proc.devRef .tc main_arg9) = V (Proc.devRef .tc main_arg9) := by
  dsimp only [hostOps0, hostOps0_1]; after_results; first | rfl | skip
theorem head_arg10 : StableHlo.after hostOps0_1 (StableHlo.after hostOps0 V) (Proc.devRef .tc main_arg10) = V (Proc.devRef .tc main_arg10) := by
  dsimp only [hostOps0, hostOps0_1]; after_results; first | rfl | skip

/-- Stretch `hostOps0_2`: the scaled Laplacian applied once … -/
theorem l1_t1 : (StableHlo.after hostOps0_2 V (Proc.devRef .tc main_v32) : (⟨S50000x128, .f32⟩ : BufTy).Contents (Elt F))
    = lhatT (V (Proc.devRef .tc main_v13)) (V (Proc.devRef .tc main_v1)) (V (Proc.devRef .tc main_v3)) (V (Proc.devRef .tc main_arg0)) := by
  dsimp only [hostOps0_2]; after_results_simp; rfl
/-- … and twice, … -/
theorem l1_l : (StableHlo.after hostOps0_2 V (Proc.devRef .tc main_v51) : (⟨S50000x128, .f32⟩ : BufTy).Contents (Elt F))
    = lhatT (V (Proc.devRef .tc main_v13)) (V (Proc.devRef .tc main_v1)) (V (Proc.devRef .tc main_v3)) (lhatT (V (Proc.devRef .tc main_v13)) (V (Proc.devRef .tc main_v1)) (V (Proc.devRef .tc main_v3)) (V (Proc.devRef .tc main_arg0))) := by
  dsimp only [hostOps0_2]; after_results_simp; rfl
/-- … the layer's three weight matrices … -/
theorem l1_w0 : (StableHlo.after hostOps0_2 V (Proc.devRef .tc main_v53) : (⟨S128x128, .f32⟩ : BufTy).Contents (Elt F)) = w0T (V (Proc.devRef .tc main_arg3)) := by
  dsimp only [hostOps0_2]; after_results_simp; rfl
theorem l1_w1 : (StableHlo.after hostOps0_2 V (Proc.devRef .tc main_v55) : (⟨S128x128, .f32⟩ : BufTy).Contents (Elt F)) = w1T (V (Proc.devRef .tc main_arg3)) := by
  dsimp only [hostOps0_2]; after_results_simp; rfl
theorem l1_w2 : (StableHlo.after hostOps0_2 V (Proc.devRef .tc main_v57) : (⟨S128x128, .f32⟩ : BufTy).Contents (Elt F)) = w2T (V (Proc.devRef .tc main_arg3)) := by
  dsimp only [hostOps0_2]; after_results_simp; rfl
/-- … and its bias as one row. -/
theorem l1_bias : (StableHlo.after hostOps0_2 V (Proc.devRef .tc main_v58) : (⟨S1x128, .f32⟩ : BufTy).Contents (Elt F)) = biasT (V (Proc.devRef .tc main_arg4)) := by
  dsimp only [hostOps0_2]; after_results_simp; rfl
theorem l1_arg0 : StableHlo.after hostOps0_2 V (Proc.devRef .tc main_arg0) = V (Proc.devRef .tc main_arg0) := by
  dsimp only [hostOps0_2]; after_results_simp; first | rfl | skip
theorem l1_v13 : StableHlo.after hostOps0_2 V (Proc.devRef .tc main_v13) = V (Proc.devRef .tc main_v13) := by
  dsimp only [hostOps0_2]; after_results_simp; first | rfl | skip
theorem l1_v1 : StableHlo.after hostOps0_2 V (Proc.devRef .tc main_v1) = V (Proc.devRef .tc main_v1) := by
  dsimp only [hostOps0_2]; after_results_simp; first | rfl | skip
theorem l1_v3 : StableHlo.after hostOps0_2 V (Proc.devRef .tc main_v3) = V (Proc.devRef .tc main_v3) := by
  dsimp only [hostOps0_2]; after_results_simp; first | rfl | skip
theorem l1_arg2 : StableHlo.after hostOps0_2 V (Proc.devRef .tc main_arg2) = V (Proc.devRef .tc main_arg2) := by
  dsimp only [hostOps0_2]; after_results_simp; first | rfl | skip
theorem l1_arg5 : StableHlo.after hostOps0_2 V (Proc.devRef .tc main_arg5) = V (Proc.devRef .tc main_arg5) := by
  dsimp only [hostOps0_2]; after_results_simp; first | rfl | skip
theorem l1_arg6 : StableHlo.after hostOps0_2 V (Proc.devRef .tc main_arg6) = V (Proc.devRef .tc main_arg6) := by
  dsimp only [hostOps0_2]; after_results_simp; first | rfl | skip
theorem l1_arg7 : StableHlo.after hostOps0_2 V (Proc.devRef .tc main_arg7) = V (Proc.devRef .tc main_arg7) := by
  dsimp only [hostOps0_2]; after_results_simp; first | rfl | skip
theorem l1_arg8 : StableHlo.after hostOps0_2 V (Proc.devRef .tc main_arg8) = V (Proc.devRef .tc main_arg8) := by
  dsimp only [hostOps0_2]; after_results_simp; first | rfl | skip
theorem l1_arg9 : StableHlo.after hostOps0_2 V (Proc.devRef .tc main_arg9) = V (Proc.devRef .tc main_arg9) := by
  dsimp only [hostOps0_2]; after_results_simp; first | rfl | skip
theorem l1_arg10 : StableHlo.after hostOps0_2 V (Proc.devRef .tc main_arg10) = V (Proc.devRef .tc main_arg10) := by
  dsimp only [hostOps0_2]; after_results_simp; first | rfl | skip

/-- Stretch `hostOps1`: the scaled Laplacian applied once … -/
theorem l2_t1 : (StableHlo.after hostOps1 V (Proc.devRef .tc main_v78) : (⟨S50000x128, .f32⟩ : BufTy).Contents (Elt F))
    = lhatT (V (Proc.devRef .tc main_v13)) (V (Proc.devRef .tc main_v1)) (V (Proc.devRef .tc main_v3)) (V (Proc.devRef .tc main_v59)) := by
  dsimp only [hostOps1]; after_results_simp; rfl
/-- … and twice, … -/
theorem l2_l : (StableHlo.after hostOps1 V (Proc.devRef .tc main_v97) : (⟨S50000x128, .f32⟩ : BufTy).Contents (Elt F))
    = lhatT (V (Proc.devRef .tc main_v13)) (V (Proc.devRef .tc main_v1)) (V (Proc.devRef .tc main_v3)) (lhatT (V (Proc.devRef .tc main_v13)) (V (Proc.devRef .tc main_v1)) (V (Proc.devRef .tc main_v3)) (V (Proc.devRef .tc main_v59))) := by
  dsimp only [hostOps1]; after_results_simp; rfl
/-- … the layer's three weight matrices … -/
theorem l2_w0 : (StableHlo.after hostOps1 V (Proc.devRef .tc main_v99) : (⟨S128x128, .f32⟩ : BufTy).Contents (Elt F)) = w0T (V (Proc.devRef .tc main_arg5)) := by
  dsimp only [hostOps1]; after_results_simp; rfl
theorem l2_w1 : (StableHlo.after hostOps1 V (Proc.devRef .tc main_v101) : (⟨S128x128, .f32⟩ : BufTy).Contents (Elt F)) = w1T (V (Proc.devRef .tc main_arg5)) := by
  dsimp only [hostOps1]; after_results_simp; rfl
theorem l2_w2 : (StableHlo.after hostOps1 V (Proc.devRef .tc main_v103) : (⟨S128x128, .f32⟩ : BufTy).Contents (Elt F)) = w2T (V (Proc.devRef .tc main_arg5)) := by
  dsimp only [hostOps1]; after_results_simp; rfl
/-- … and its bias as one row. -/
theorem l2_bias : (StableHlo.after hostOps1 V (Proc.devRef .tc main_v104) : (⟨S1x128, .f32⟩ : BufTy).Contents (Elt F)) = biasT (V (Proc.devRef .tc main_arg6)) := by
  dsimp only [hostOps1]; after_results_simp; rfl
theorem l2_v59 : StableHlo.after hostOps1 V (Proc.devRef .tc main_v59) = V (Proc.devRef .tc main_v59) := by
  dsimp only [hostOps1]; after_results_simp; first | rfl | skip
theorem l2_v13 : StableHlo.after hostOps1 V (Proc.devRef .tc main_v13) = V (Proc.devRef .tc main_v13) := by
  dsimp only [hostOps1]; after_results_simp; first | rfl | skip
theorem l2_v1 : StableHlo.after hostOps1 V (Proc.devRef .tc main_v1) = V (Proc.devRef .tc main_v1) := by
  dsimp only [hostOps1]; after_results_simp; first | rfl | skip
theorem l2_v3 : StableHlo.after hostOps1 V (Proc.devRef .tc main_v3) = V (Proc.devRef .tc main_v3) := by
  dsimp only [hostOps1]; after_results_simp; first | rfl | skip
theorem l2_arg2 : StableHlo.after hostOps1 V (Proc.devRef .tc main_arg2) = V (Proc.devRef .tc main_arg2) := by
  dsimp only [hostOps1]; after_results_simp; first | rfl | skip
theorem l2_arg7 : StableHlo.after hostOps1 V (Proc.devRef .tc main_arg7) = V (Proc.devRef .tc main_arg7) := by
  dsimp only [hostOps1]; after_results_simp; first | rfl | skip
theorem l2_arg8 : StableHlo.after hostOps1 V (Proc.devRef .tc main_arg8) = V (Proc.devRef .tc main_arg8) := by
  dsimp only [hostOps1]; after_results_simp; first | rfl | skip
theorem l2_arg9 : StableHlo.after hostOps1 V (Proc.devRef .tc main_arg9) = V (Proc.devRef .tc main_arg9) := by
  dsimp only [hostOps1]; after_results_simp; first | rfl | skip
theorem l2_arg10 : StableHlo.after hostOps1 V (Proc.devRef .tc main_arg10) = V (Proc.devRef .tc main_arg10) := by
  dsimp only [hostOps1]; after_results_simp; first | rfl | skip

/-- Stretch `hostOps2`: the scaled Laplacian applied once … -/
theorem l3_t1 : (StableHlo.after hostOps2 V (Proc.devRef .tc main_v124) : (⟨S50000x128, .f32⟩ : BufTy).Contents (Elt F))
    = lhatT (V (Proc.devRef .tc main_v13)) (V (Proc.devRef .tc main_v1)) (V (Proc.devRef .tc main_v3)) (V (Proc.devRef .tc main_v105)) := by
  dsimp only [hostOps2]; after_results_simp; rfl
/-- … and twice, … -/
theorem l3_l : (StableHlo.after hostOps2 V (Proc.devRef .tc main_v143) : (⟨S50000x128, .f32⟩ : BufTy).Contents (Elt F))
    = lhatT (V (Proc.devRef .tc main_v13)) (V (Proc.devRef .tc main_v1)) (V (Proc.devRef .tc main_v3)) (lhatT (V (Proc.devRef .tc main_v13)) (V (Proc.devRef .tc main_v1)) (V (Proc.devRef .tc main_v3)) (V (Proc.devRef .tc main_v105))) := by
  dsimp only [hostOps2]; after_results_simp; rfl
/-- … the layer's three weight matrices … -/
theorem l3_w0 : (StableHlo.after hostOps2 V (Proc.devRef .tc main_v145) : (⟨S128x128, .f32⟩ : BufTy).Contents (Elt F)) = w0T (V (Proc.devRef .tc main_arg7)) := by
  dsimp only [hostOps2]; after_results_simp; rfl
theorem l3_w1 : (StableHlo.after hostOps2 V (Proc.devRef .tc main_v147) : (⟨S128x128, .f32⟩ : BufTy).Contents (Elt F)) = w1T (V (Proc.devRef .tc main_arg7)) := by
  dsimp only [hostOps2]; after_results_simp; rfl
theorem l3_w2 : (StableHlo.after hostOps2 V (Proc.devRef .tc main_v149) : (⟨S128x128, .f32⟩ : BufTy).Contents (Elt F)) = w2T (V (Proc.devRef .tc main_arg7)) := by
  dsimp only [hostOps2]; after_results_simp; rfl
/-- … and its bias as one row. -/
theorem l3_bias : (StableHlo.after hostOps2 V (Proc.devRef .tc main_v150) : (⟨S1x128, .f32⟩ : BufTy).Contents (Elt F)) = biasT (V (Proc.devRef .tc main_arg8)) := by
  dsimp only [hostOps2]; after_results_simp; rfl
theorem l3_v105 : StableHlo.after hostOps2 V (Proc.devRef .tc main_v105) = V (Proc.devRef .tc main_v105) := by
  dsimp only [hostOps2]; after_results_simp; first | rfl | skip
theorem l3_arg2 : StableHlo.after hostOps2 V (Proc.devRef .tc main_arg2) = V (Proc.devRef .tc main_arg2) := by
  dsimp only [hostOps2]; after_results_simp; first | rfl | skip
theorem l3_arg9 : StableHlo.after hostOps2 V (Proc.devRef .tc main_arg9) = V (Proc.devRef .tc main_arg9) := by
  dsimp only [hostOps2]; after_results_simp; first | rfl | skip
theorem l3_arg10 : StableHlo.after hostOps2 V (Proc.devRef .tc main_arg10) = V (Proc.devRef .tc main_arg10) := by
  dsimp only [hostOps2]; after_results_simp; first | rfl | skip

/-- The last stretch: pooling by the batch numbers and the linear head, of the third layer's output. -/
theorem tail_v167 : (StableHlo.after hostOps3 V (Proc.devRef .tc main_v167) : (⟨S500x32, .f32⟩ : BufTy).Contents (Elt F))
    = tailT (V (Proc.devRef .tc main_arg2)) (V (Proc.devRef .tc main_arg9)) (V (Proc.devRef .tc main_arg10)) (V (Proc.devRef .tc main_v151)) := by
  dsimp only [hostOps3]; after_results_simp; rfl

end Stretches

/-! ## The chain of boundary contents, from the launch memory -/

section Chain

variable (m : (ℓ : Loc nD τ sig) → Buf (Elt F) ℓ) (ρ : Dev nD → PrngReg) (c : Dev nD)

/-- The source row numbers, the destination row numbers and the per-node factor of the launched edge list. -/
abbrev srcA : (⟨S600000, .i32⟩ : BufTy).Contents (Elt F) := srcT (m ((c : Thread nD τ).loc main_arg1))
abbrev dstA : (⟨S600000, .i32⟩ : BufTy).Contents (Elt F) := dstT (m ((c : Thread nD τ).loc main_arg1))
abbrev dinvA : (⟨S50000, .f32⟩ : BufTy).Contents (Elt F) := dinvT (srcA m c)

/-! ### After the head -/
theorem W2_v1 : (W2 m ρ c (Proc.devRef .tc main_v1) : (⟨S600000, .i32⟩ : BufTy).Contents (Elt F)) = srcA m c := head_v1 (W0 m ρ c)
theorem W2_v3 : (W2 m ρ c (Proc.devRef .tc main_v3) : (⟨S600000, .i32⟩ : BufTy).Contents (Elt F)) = dstA m c := head_v3 (W0 m ρ c)
theorem W2_v13 : (W2 m ρ c (Proc.devRef .tc main_v13) : (⟨S50000, .f32⟩ : BufTy).Contents (Elt F)) = dinvA m c := head_v13 (W0 m ρ c)
theorem W2_arg0 : (W2 m ρ c (Proc.devRef .tc main_arg0) : (⟨S50000x128, .f32⟩ : BufTy).Contents (Elt F)) = (m ((c : Thread nD τ).loc main_arg0)) := head_arg0 (W0 m ρ c)
theorem W2_arg2 : (W2 m ρ c (Proc.devRef .tc main_arg2) : (⟨S50000, .i32⟩ : BufTy).Contents (Elt F)) = (m ((c : Thread nD τ).loc main_arg2)) := head_arg2 (W0 m ρ c)
theorem W2_arg3 : (W2 m ρ c (Proc.devRef .tc main_arg3) : (⟨S3x128x128, .f32⟩ : BufTy).Contents (Elt F)) = (m ((c : Thread nD τ).loc main_arg3)) := head_arg3 (W0 m ρ c)
theorem W2_arg4 : (W2 m ρ c (Proc.devRef .tc main_arg4) : (⟨S128, .f32⟩ : BufTy).Contents (Elt F)) = (m ((c : Thread nD τ).loc main_arg4)) := head_arg4 (W0 m ρ c)
theorem W2_arg5 : (W2 m ρ c (Proc.devRef .tc main_arg5) : (⟨S3x128x128, .f32⟩ : BufTy).Contents (Elt F)) = (m ((c : Thread nD τ).loc main_arg5)) := head_arg5 (W0 m ρ c)
theorem W2_arg6 : (W2 m ρ c (Proc.devRef .tc main_arg6) : (⟨S128, .f32⟩ : BufTy).Contents (Elt F)) = (m ((c : Thread nD τ).loc main_arg6)) := head_arg6 (W0 m ρ c)
theorem W2_arg7 : (W2 m ρ c (Proc.devRef .tc main_arg7) : (⟨S3x128x128, .f32⟩ : BufTy).Contents (Elt F)) = (m ((c : Thread nD τ).loc main_arg7)) := head_arg7 (W0 m ρ c)
theorem W2_arg8 : (W2 m ρ c (Proc.devRef .tc main_arg8) : (⟨S128, .f32⟩ : BufTy).Contents (Elt F)) = (m ((c : Thread nD τ).loc main_arg8)) := head_arg8 (W0 m ρ c)
theorem W2_arg9 : (W2 m ρ c (Proc.devRef .tc main_arg9) : (⟨S128x32, .f32⟩ : BufTy).Contents (Elt F)) = (m ((c : Thread nD τ).loc main_arg9)) := head_arg9 (W0 m ρ c)
theorem W2_arg10 : (W2 m ρ c (Proc.devRef .tc main_arg10) : (⟨S32, .f32⟩ : BufTy).Contents (Elt F)) = (m ((c : Thread nD τ).loc main_arg10)) := head_arg10 (W0 m ρ c)

/-! ### At region 0's entry -/
theorem W3_v32 : (W3 m ρ c (Proc.devRef .tc main_v32) : (⟨S50000x128, .f32⟩ : BufTy).Contents (Elt F)) = lhatT (dinvA m c) (srcA m c) (dstA m c) (m ((c : Thread nD τ).loc main_arg0)) := by
  refine (l1_t1 (W2 m ρ c)).trans ?_
  rw [W2_v13 m ρ c, W2_v1 m ρ c, W2_v3 m ρ c, W2_arg0 m ρ c]
theorem W3_v51 : (W3 m ρ c (Proc.devRef .tc main_v51) : (⟨S50000x128, .f32⟩ : BufTy).Contents (Elt F)) = lhatT (dinvA m c) (srcA m c) (dstA m c) (lhatT (dinvA m c) (srcA m c) (dstA m c) (m ((c : Thread nD τ).loc main_arg0))) := by
  refine (l1_l (W2 m ρ c)).trans ?_
  rw [W2_v13 m ρ c, W2_v1 m ρ c, W2_v3 m ρ c, W2_arg0 m ρ c]
theorem W3_v53 : (W3 m ρ c (Proc.devRef .tc main_v53) : (⟨S128x128, .f32⟩ : BufTy).Contents (Elt F)) = w0T (m ((c : Thread nD τ).loc main_arg3)) := (l1_w0 (W2 m ρ c)).trans (by rw [W2_arg3 m ρ c])
theorem W3_v55 : (W3 m ρ c (Proc.devRef .tc main_v55) : (⟨S128x128, .f32⟩ : BufTy).Contents (Elt F)) = w1T (m ((c : Thread nD τ).loc main_arg3)) := (l1_w1 (W2 m ρ c)).trans (by rw [W2_arg3 m ρ c])
theorem W3_v57 : (W3 m ρ c (Proc.devRef .tc main_v57) : (⟨S128x128, .f32⟩ : BufTy).Contents (Elt F)) = w2T (m ((c : Thread nD τ).loc main_arg3)) := (l1_w2 (W2 m ρ c)).trans (by rw [W2_arg3 m ρ c])
theorem W3_v58 : (W3 m ρ c (Proc.devRef .tc main_v58) : (⟨S1x128, .f32⟩ : BufTy).Contents (Elt F)) = biasT (m ((c : Thread nD τ).loc main_arg4)) := (l1_bias (W2 m ρ c)).trans (by rw [W2_arg4 m ρ c])
theorem W3_arg0 : (W3 m ρ c (Proc.devRef .tc main_arg0) : (⟨S50000x128, .f32⟩ : BufTy).Contents (Elt F)) = (m ((c : Thread nD τ).loc main_arg0)) := (l1_arg0 (W2 m ρ c)).trans (W2_arg0 m ρ c)
theorem W3_v13 : (W3 m ρ c (Proc.devRef .tc main_v13) : (⟨S50000, .f32⟩ : BufTy).Contents (Elt F)) = dinvA m c := (l1_v13 (W2 m ρ c)).trans (W2_v13 m ρ c)
theorem W3_v1 : (W3 m ρ c (Proc.devRef .tc main_v1) : (⟨S600000, .i32⟩ : BufTy).Contents (Elt F)) = srcA m c := (l1_v1 (W2 m ρ c)).trans (W2_v1 m ρ c)
theorem W3_v3 : (W3 m ρ c (Proc.devRef .tc main_v3) : (⟨S600000, .i32⟩ : BufTy).Contents (Elt F)) = dstA m c := (l1_v3 (W2 m ρ c)).trans (W2_v3 m ρ c)
theorem W3_arg2 : (W3 m ρ c (Proc.devRef .tc main_arg2) : (⟨S50000, .i32⟩ : BufTy).Contents (Elt F)) = (m ((c : Thread nD τ).loc main_arg2)) := (l1_arg2 (W2 m ρ c)).trans (W2_arg2 m ρ c)
theorem W3_arg5 : (W3 m ρ c (Proc.devRef .tc main_arg5) : (⟨S3x128x128, .f32⟩ : BufTy).Contents (Elt F)) = (m ((c : Thread nD τ).loc main_arg5)) := (l1_arg5 (W2 m ρ c)).trans (W2_arg5 m ρ c)
theorem W3_arg6 : (W3 m ρ c (Proc.devRef .tc main_arg6) : (⟨S128, .f32⟩ : BufTy).Contents (Elt F)) = (m ((c : Thread nD τ).loc main_arg6)) := (l1_arg6 (W2 m ρ c)).trans (W2_arg6 m ρ c)
theorem W3_arg7 : (W3 m ρ c (Proc.devRef .tc main_arg7) : (⟨S3x128x128, .f32⟩ : BufTy).Contents (Elt F)) = (m ((c : Thread nD τ).loc main_arg7)) := (l1_arg7 (W2 m ρ c)).trans (W2_arg7 m ρ c)
theorem W3_arg8 : (W3 m ρ c (Proc.devRef .tc main_arg8) : (⟨S128, .f32⟩ : BufTy).Contents (Elt F)) = (m ((c : Thread nD τ).loc main_arg8)) := (l1_arg8 (W2 m ρ c)).trans (W2_arg8 m ρ c)
theorem W3_arg9 : (W3 m ρ c (Proc.devRef .tc main_arg9) : (⟨S128x32, .f32⟩ : BufTy).Contents (Elt F)) = (m ((c : Thread nD τ).loc main_arg9)) := (l1_arg9 (W2 m ρ c)).trans (W2_arg9 m ρ c)
theorem W3_arg10 : (W3 m ρ c (Proc.devRef .tc main_arg10) : (⟨S32, .f32⟩ : BufTy).Contents (Elt F)) = (m ((c : Thread nD τ).loc main_arg10)) := (l1_arg10 (W2 m ρ c)).trans (W2_arg10 m ρ c)

/-! ### At region 0's exit -/
theorem W4_v13 : (W4 m ρ c (Proc.devRef .tc main_v13) : (⟨S50000, .f32⟩ : BufTy).Contents (Elt F)) = dinvA m c := (W4_of_ne m ρ c main_v13 (by decide)).trans (W3_v13 m ρ c)
theorem W4_v1 : (W4 m ρ c (Proc.devRef .tc main_v1) : (⟨S600000, .i32⟩ : BufTy).Contents (Elt F)) = srcA m c := (W4_of_ne m ρ c main_v1 (by decide)).trans (W3_v1 m ρ c)
theorem W4_v3 : (W4 m ρ c (Proc.devRef .tc main_v3) : (⟨S600000, .i32⟩ : BufTy).Contents (Elt F)) = dstA m c := (W4_of_ne m ρ c main_v3 (by decide)).trans (W3_v3 m ρ c)
theorem W4_arg2 : (W4 m ρ c (Proc.devRef .tc main_arg2) : (⟨S50000, .i32⟩ : BufTy).Contents (Elt F)) = (m ((c : Thread nD τ).loc main_arg2)) := (W4_of_ne m ρ c main_arg2 (by decide)).trans (W3_arg2 m ρ c)
theorem W4_arg5 : (W4 m ρ c (Proc.devRef .tc main_arg5) : (⟨S3x128x128, .f32⟩ : BufTy).Contents (Elt F)) = (m ((c : Thread nD τ).loc main_arg5)) := (W4_of_ne m ρ c main_arg5 (by decide)).trans (W3_arg5 m ρ c)
theorem W4_arg6 : (W4 m ρ c (Proc.devRef .tc main_arg6) : (⟨S128, .f32⟩ : BufTy).Contents (Elt F)) = (m ((c : Thread nD τ).loc main_arg6)) := (W4_of_ne m ρ c main_arg6 (by decide)).trans (W3_arg6 m ρ c)
theorem W4_arg7 : (W4 m ρ c (Proc.devRef .tc main_arg7) : (⟨S3x128x128, .f32⟩ : BufTy).Contents (Elt F)) = (m ((c : Thread nD τ).loc main_arg7)) := (W4_of_ne m ρ c main_arg7 (by decide)).trans (W3_arg7 m ρ c)
theorem W4_arg8 : (W4 m ρ c (Proc.devRef .tc main_arg8) : (⟨S128, .f32⟩ : BufTy).Contents (Elt F)) = (m ((c : Thread nD τ).loc main_arg8)) := (W4_of_ne m ρ c main_arg8 (by decide)).trans (W3_arg8 m ρ c)
theorem W4_arg9 : (W4 m ρ c (Proc.devRef .tc main_arg9) : (⟨S128x32, .f32⟩ : BufTy).Contents (Elt F)) = (m ((c : Thread nD τ).loc main_arg9)) := (W4_of_ne m ρ c main_arg9 (by decide)).trans (W3_arg9 m ρ c)
theorem W4_arg10 : (W4 m ρ c (Proc.devRef .tc main_arg10) : (⟨S32, .f32⟩ : BufTy).Contents (Elt F)) = (m ((c : Thread nD τ).loc main_arg10)) := (W4_of_ne m ρ c main_arg10 (by decide)).trans (W3_arg10 m ρ c)
/-- The first layer's output: region 0's output array as its write-backs leave it. -/
theorem W4_v59 : W4 m ρ c (Proc.devRef .tc main_v59) = (dat0 (V3 m ρ) c).arrAt 7 cfg0.N := W4_arr m ρ c 7

/-! ### At region 1's entry -/
theorem W5_v78 : (W5 m ρ c (Proc.devRef .tc main_v78) : (⟨S50000x128, .f32⟩ : BufTy).Contents (Elt F)) = lhatT (dinvA m c) (srcA m c) (dstA m c) (W4 m ρ c (Proc.devRef .tc main_v59)) := by
  refine (l2_t1 (W4 m ρ c)).trans ?_
  rw [W4_v13 m ρ c, W4_v1 m ρ c, W4_v3 m ρ c]
theorem W5_v97 : (W5 m ρ c (Proc.devRef .tc main_v97) : (⟨S50000x128, .f32⟩ : BufTy).Contents (Elt F)) = lhatT (dinvA m c) (srcA m c) (dstA m c) (lhatT (dinvA m c) (srcA m c) (dstA m c) (W4 m ρ c (Proc.devRef .tc main_v59))) := by
  refine (l2_l (W4 m ρ c)).trans ?_
  rw [W4_v13 m ρ c, W4_v1 m ρ c, W4_v3 m ρ c]
theorem W5_v99 : (W5 m ρ c (Proc.devRef .tc main_v99) : (⟨S128x128, .f32⟩ : BufTy).Contents (Elt F)) = w0T (m ((c : Thread nD τ).loc main_arg5)) := (l2_w0 (W4 m ρ c)).trans (by rw [W4_arg5 m ρ c])
theorem W5_v101 : (W5 m ρ c (Proc.devRef .tc main_v101) : (⟨S128x128, .f32⟩ : BufTy).Contents (Elt F)) = w1T (m ((c : Thread nD τ).loc main_arg5)) := (l2_w1 (W4 m ρ c)).trans (by rw [W4_arg5 m ρ c])
theorem W5_v103 : (W5 m ρ c (Proc.devRef .tc main_v103) : (⟨S128x128, .f32⟩ : BufTy).Contents (Elt F)) = w2T (m ((c : Thread nD τ).loc main_arg5)) := (l2_w2 (W4 m ρ c)).trans (by rw [W4_arg5 m ρ c])
theorem W5_v104 : (W5 m ρ c (Proc.devRef .tc main_v104) : (⟨S1x128, .f32⟩ : BufTy).Contents (Elt F)) = biasT (m ((c : Thread nD τ).loc main_arg6)) := (l2_bias (W4 m ρ c)).trans (by rw [W4_arg6 m ρ c])
theorem W5_v59 : W5 m ρ c (Proc.devRef .tc main_v59) = W4 m ρ c (Proc.devRef .tc main_v59) := l2_v59 (W4 m ρ c)
theorem W5_v13 : (W5 m ρ c (Proc.devRef .tc main_v13) : (⟨S50000, .f32⟩ : BufTy).Contents (Elt F)) = dinvA m c := (l2_v13 (W4 m ρ c)).trans (W4_v13 m ρ c)
theorem W5_v1 : (W5 m ρ c (Proc.devRef .tc main_v1) : (⟨S600000, .i32⟩ : BufTy).Contents (Elt F)) = srcA m c := (l2_v1 (W4 m ρ c)).trans (W4_v1 m ρ c)
theorem W5_v3 : (W5 m ρ c (Proc.devRef .tc main_v3) : (⟨S600000, .i32⟩ : BufTy).Contents (Elt F)) = dstA m c := (l2_v3 (W4 m ρ c)).trans (W4_v3 m ρ c)
theorem W5_arg2 : (W5 m ρ c (Proc.devRef .tc main_arg2) : (⟨S50000, .i32⟩ : BufTy).Contents (Elt F)) = (m ((c : Thread nD τ).loc main_arg2)) := (l2_arg2 (W4 m ρ c)).trans (W4_arg2 m ρ c)
theorem W5_arg7 : (W5 m ρ c (Proc.devRef .tc main_arg7) : (⟨S3x128x128, .f32⟩ : BufTy).Contents (Elt F)) = (m ((c : Thread nD τ).loc main_arg7)) := (l2_arg7 (W4 m ρ c)).trans (W4_arg7 m ρ c)
theorem W5_arg8 : (W5 m ρ c (Proc.devRef .tc main_arg8) : (⟨S128, .f32⟩ : BufTy).Contents (Elt F)) = (m ((c : Thread nD τ).loc main_arg8)) := (l2_arg8 (W4 m ρ c)).trans (W4_arg8 m ρ c)
theorem W5_arg9 : (W5 m ρ c (Proc.devRef .tc main_arg9) : (⟨S128x32, .f32⟩ : BufTy).Contents (Elt F)) = (m ((c : Thread nD τ).loc main_arg9)) := (l2_arg9 (W4 m ρ c)).trans (W4_arg9 m ρ c)
theorem W5_arg10 : (W5 m ρ c (Proc.devRef .tc main_arg10) : (⟨S32, .f32⟩ : BufTy).Contents (Elt F)) = (m ((c : Thread nD τ).loc main_arg10)) := (l2_arg10 (W4 m ρ c)).trans (W4_arg10 m ρ c)

/-! ### At region 1's exit -/
theorem W6_v13 : (W6 m ρ c (Proc.devRef .tc main_v13) : (⟨S50000, .f32⟩ : BufTy).Contents (Elt F)) = dinvA m c := (W6_of_ne m ρ c main_v13 (by decide)).trans (W5_v13 m ρ c)
theorem W6_v1 : (W6 m ρ c (Proc.devRef .tc main_v1) : (⟨S600000, .i32⟩ : BufTy).Contents (Elt F)) = srcA m c := (W6_of_ne m ρ c main_v1 (by decide)).trans (W5_v1 m ρ c)
theorem W6_v3 : (W6 m ρ c (Proc.devRef .tc main_v3) : (⟨S600000, .i32⟩ : BufTy).Contents (Elt F)) = dstA m c := (W6_of_ne m ρ c main_v3 (by decide)).trans (W5_v3 m ρ c)
theorem W6_arg2 : (W6 m ρ c (Proc.devRef .tc main_arg2) : (⟨S50000, .i32⟩ : BufTy).Contents (Elt F)) = (m ((c : Thread nD τ).loc main_arg2)) := (W6_of_ne m ρ c main_arg2 (by decide)).trans (W5_arg2 m ρ c)
theorem W6_arg7 : (W6 m ρ c (Proc.devRef .tc main_arg7) : (⟨S3x128x128, .f32⟩ : BufTy).Contents (Elt F)) = (m ((c : Thread nD τ).loc main_arg7)) := (W6_of_ne m ρ c main_arg7 (by decide)).trans (W5_arg7 m ρ c)
theorem W6_arg8 : (W6 m ρ c (Proc.devRef .tc main_arg8) : (⟨S128, .f32⟩ : BufTy).Contents (Elt F)) = (m ((c : Thread nD τ).loc main_arg8)) := (W6_of_ne m ρ c main_arg8 (by decide)).trans (W5_arg8 m ρ c)
theorem W6_arg9 : (W6 m ρ c (Proc.devRef .tc main_arg9) : (⟨S128x32, .f32⟩ : BufTy).Contents (Elt F)) = (m ((c : Thread nD τ).loc main_arg9)) := (W6_of_ne m ρ c main_arg9 (by decide)).trans (W5_arg9 m ρ c)
theorem W6_arg10 : (W6 m ρ c (Proc.devRef .tc main_arg10) : (⟨S32, .f32⟩ : BufTy).Contents (Elt F)) = (m ((c : Thread nD τ).loc main_arg10)) := (W6_of_ne m ρ c main_arg10 (by decide)).trans (W5_arg10 m ρ c)
/-- The second layer's output. -/
theorem W6_v105 : W6 m ρ c (Proc.devRef .tc main_v105) = (dat1 (V5 m ρ) c).arrAt 7 cfg1.N := W6_arr m ρ c 7

/-! ### At region 2's entry -/
theorem W7_v124 : (W7 m ρ c (Proc.devRef .tc main_v124) : (⟨S50000x128, .f32⟩ : BufTy).Contents (Elt F)) = lhatT (dinvA m c) (srcA m c) (dstA m c) (W6 m ρ c (Proc.devRef .tc main_v105)) := by
  refine (l3_t1 (W6 m ρ c)).trans ?_
  rw [W6_v13 m ρ c, W6_v1 m ρ c, W6_v3 m ρ c]
theorem W7_v143 : (W7 m ρ c (Proc.devRef .tc main_v143) : (⟨S50000x128, .f32⟩ : BufTy).Contents (Elt F)) = lhatT (dinvA m c) (srcA m c) (dstA m c) (lhatT (dinvA m c) (srcA m c) (dstA m c) (W6 m ρ c (Proc.devRef .tc main_v105))) := by
  refine (l3_l (W6 m ρ c)).trans ?_
  rw [W6_v13 m ρ c, W6_v1 m ρ c, W6_v3 m ρ c]
theorem W7_v145 : (W7 m ρ c (Proc.devRef .tc main_v145) : (⟨S128x128, .f32⟩ : BufTy).Contents (Elt F)) = w0T (m ((c : Thread nD τ).loc main_arg7)) := (l3_w0 (W6 m ρ c)).trans (by rw [W6_arg7 m ρ c])
theorem W7_v147 : (W7 m ρ c (Proc.devRef .tc main_v147) : (⟨S128x128, .f32⟩ : BufTy).Contents (Elt F)) = w1T (m ((c : Thread nD τ).loc main_arg7)) := (l3_w1 (W6 m ρ c)).trans (by rw [W6_arg7 m ρ c])
theorem W7_v149 : (W7 m ρ c (Proc.devRef .tc main_v149) : (⟨S128x128, .f32⟩ : BufTy).Contents (Elt F)) = w2T (m ((c : Thread nD τ).loc main_arg7)) := (l3_w2 (W6 m ρ c)).trans (by rw [W6_arg7 m ρ c])
theorem W7_v150 : (W7 m ρ c (Proc.devRef .tc main_v150) : (⟨S1x128, .f32⟩ : BufTy).Contents (Elt F)) = biasT (m ((c : Thread nD τ).loc main_arg8)) := (l3_bias (W6 m ρ c)).trans (by rw [W6_arg8 m ρ c])
theorem W7_v105 : W7 m ρ c (Proc.devRef .tc main_v105) = W6 m ρ c (Proc.devRef .tc main_v105) := l3_v105 (W6 m ρ c)
theorem W7_arg2 : (W7 m ρ c (Proc.devRef .tc main_arg2) : (⟨S50000, .i32⟩ : BufTy).Contents (Elt F)) = (m ((c : Thread nD τ).loc main_arg2)) := (l3_arg2 (W6 m ρ c)).trans (W6_arg2 m ρ c)
theorem W7_arg9 : (W7 m ρ c (Proc.devRef .tc main_arg9) : (⟨S128x32, .f32⟩ : BufTy).Contents (Elt F)) = (m ((c : Thread nD τ).loc main_arg9)) := (l3_arg9 (W6 m ρ c)).trans (W6_arg9 m ρ c)
theorem W7_arg10 : (W7 m ρ c (Proc.devRef .tc main_arg10) : (⟨S32, .f32⟩ : BufTy).Contents (Elt F)) = (m ((c : Thread nD τ).loc main_arg10)) := (l3_arg10 (W6 m ρ c)).trans (W6_arg10 m ρ c)

/-! ### At region 2's exit, and the result -/
theorem W8_arg2 : (W8 m ρ c (Proc.devRef .tc main_arg2) : (⟨S50000, .i32⟩ : BufTy).Contents (Elt F)) = (m ((c : Thread nD τ).loc main_arg2)) := (W8_of_ne m ρ c main_arg2 (by decide)).trans (W7_arg2 m ρ c)
theorem W8_arg9 : (W8 m ρ c (Proc.devRef .tc main_arg9) : (⟨S128x32, .f32⟩ : BufTy).Contents (Elt F)) = (m ((c : Thread nD τ).loc main_arg9)) := (W8_of_ne m ρ c main_arg9 (by decide)).trans (W7_arg9 m ρ c)
theorem W8_arg10 : (W8 m ρ c (Proc.devRef .tc main_arg10) : (⟨S32, .f32⟩ : BufTy).Contents (Elt F)) = (m ((c : Thread nD τ).loc main_arg10)) := (W8_of_ne m ρ c main_arg10 (by decide)).trans (W7_arg10 m ρ c)
/-- The third layer's output. -/
theorem W8_v151 : W8 m ρ c (Proc.devRef .tc main_v151) = (dat2 (V7 m ρ) c).arrAt 7 cfg2.N := W8_arr m ρ c 7
/-- The result buffer at the return: the tail of the third layer's output. -/
theorem W9_v167 : (W9 m ρ c (Proc.devRef .tc main_v167) : (⟨S500x32, .f32⟩ : BufTy).Contents (Elt F))
    = tailT (m ((c : Thread nD τ).loc main_arg2)) (m ((c : Thread nD τ).loc main_arg9)) (m ((c : Thread nD τ).loc main_arg10)) (W8 m ρ c (Proc.devRef .tc main_v151)) := by
  refine (tail_v167 (W8 m ρ c)).trans ?_
  rw [W8_arg2 m ρ c, W8_arg9 m ρ c, W8_arg10 m ρ c]

end Chain

end Cert.KernelIdeal.Unwind

end
-- ==== Proof.Spec.lean ====
/-
  The mathematics of one Chebyshev graph-convolution layer, stated once over plain index types.

  A graph has 50000 nodes and 600000 edges; edge `e` carries two 32-bit row numbers `src e` and `dst e`.
  A gather reads the row `grow s`: the number `s` counted from the end when negative (`nrm`), then clamped into
  `[0, 50000)`. A scatter-add puts update `e` on row `i` exactly when `dst e`, read signed, is `i` (`lands`).
  With `d` the per-node factor (the inverse square root of the degree, or zero), the scaled Laplacian applied to a
  node array `v` is written in two arrangements:

    `LR`: each edge's message is weighted by `-(d (src) * d (dst))` and the messages are summed per landing row;
    `LK`: the node array is scaled by `d` first, the unweighted messages are summed, and the sum is scaled by `-d i`.

  On real numbers the two agree (an update landing on `i` has `grow (dst e) = i`, and a real factor moves across a
  finite sum of reals); on the extended reals this needs every entry real, which is what `IsReal` records.
  `comb` is the dense step of a layer, `relu (t0·W0 + t1·W1 + (2·l − t0)·W2 + b)`, in the order both programs add it up.
-/
import Idealize.ShloMosaic.PureOps.Ideal
import Idealize.ShloMosaic.Lib.ValueIdx

noncomputable section

namespace Cert.Cheb

open Idealize.ShloMosaic

/-- An extended real that is a real number. -/
def IsReal (x : EReal) : Prop := ∃ r : ℝ, x = (r : EReal)

/-- A row number counted from the end when negative: `s + 50000` if `s < 0` (signed), else `s`. -/
def nrm (s : BitVec 32) : BitVec 32 := Scalar.select (IntOp.cmpi .slt s 0#32) (IntOp.addi s 50000#32) s

/-- The row a gather reads for the row number `s`: normalised, then clamped into `[0, 50000)`. -/
def grow (s : BitVec 32) : Fin 50000 := ⟨min (nrm s).toInt.toNat (50000 - 1), by omega⟩

/-- The updates that a scatter lands on row `i` of an array with `n` rows: those whose signed row number is `i`. -/
def lands {n : Nat} (idx : Fin 600000 → BitVec 32) (i : Fin n) : Finset (Fin 600000) :=
  Finset.univ.filter (fun e => (idx e).toInt = (i.val : Int))

/-- The literal two of the recurrence `2·L − T0`, as its binary word. -/
def two : EReal := Ideal.ofBits .f32 0x40000000#32

/-- The literal one, as its binary word. -/
def one : EReal := Ideal.ofBits .f32 0x3F800000#32

/-- A node's degree as the program adds it up: zero plus a one for every edge whose source row lands on it. -/
def degS (src : Fin 600000 → BitVec 32) (i : Fin 50000) : EReal := 0 + ∑ _e ∈ lands src i, one

/-- The per-node factor: the inverse square root of the degree (at least one), or zero for a node of degree zero. -/
def dinvS (src : Fin 600000 → BitVec 32) (i : Fin 50000) : EReal :=
  Scalar.select (FloatOps.cmpf (F := Ideal) (φ := .f32) .ogt (degS src i) (0 : EReal))
    (Ideal.rsqrt (max (degS src i) one)) (0 : EReal)

/-- The scaled Laplacian, edge-weighted arrangement. -/
def LR (d : Fin 50000 → EReal) (src dst : Fin 600000 → BitVec 32) (v : Fin 50000 → Fin 128 → EReal)
    (i : Fin 50000) (c : Fin 128) : EReal :=
  0 + ∑ e ∈ lands dst i, (-(d (grow (src e)) * d (grow (dst e)))) * v (grow (src e)) c

/-- The scaled Laplacian, node-scaled arrangement. -/
def LK (d : Fin 50000 → EReal) (src dst : Fin 600000 → BitVec 32) (v : Fin 50000 → Fin 128 → EReal)
    (i : Fin 50000) (c : Fin 128) : EReal :=
  (-(d i)) * (0 + ∑ e ∈ lands dst i, d (grow (src e)) * v (grow (src e)) c)

/-- The dense step: `relu (t0·W0 + t1·W1 + (2·l − t0)·W2 + b)`, added up left to right. -/
def comb (t0 t1 l : Fin 50000 → Fin 128 → EReal) (w0 w1 w2 : Fin 128 → Fin 128 → EReal) (b : Fin 128 → EReal)
    (i : Fin 50000) (c : Fin 128) : EReal :=
  max ((((∑ k : Fin 128, t0 i k * w0 k c) + ∑ k : Fin 128, t1 i k * w1 k c)
        + ∑ k : Fin 128, (two * l i k - t0 i k) * w2 k c) + b c) 0

/-- One layer with the node-scaled Laplacian (the kernel's arrangement). -/
def layerK (d : Fin 50000 → EReal) (src dst : Fin 600000 → BitVec 32) (h : Fin 50000 → Fin 128 → EReal)
    (w0 w1 w2 : Fin 128 → Fin 128 → EReal) (b : Fin 128 → EReal) : Fin 50000 → Fin 128 → EReal :=
  comb h (LK d src dst h) (LK d src dst (LK d src dst h)) w0 w1 w2 b

/-- One layer with the edge-weighted Laplacian (the reference's arrangement). -/
def layerR (d : Fin 50000 → EReal) (src dst : Fin 600000 → BitVec 32) (h : Fin 50000 → Fin 128 → EReal)
    (w0 w1 w2 : Fin 128 → Fin 128 → EReal) (b : Fin 128 → EReal) : Fin 50000 → Fin 128 → EReal :=
  comb h (LR d src dst h) (LR d src dst (LR d src dst h)) w0 w1 w2 b

end Cert.Cheb

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.LibRowScatterSum.lean ====
/-
  A scatter-add of rows, and of vector entries, by ONE row number per update, read at an index as a sum over the updates.

  An integer column `idx : [E, 1]` names one row of the operand for each of `E` updates. Update element `(e, c')` of
  `u : [E, C]` lands on operand element `(i, c)` of `[N, C]` exactly when `idx[e, 0]`, read as a signed integer, is `i`
  and `c' = c` (an update whose row is outside `[0, N)` lands nowhere). So on the extended reals the accumulated
  scatter is, at `(i, c)`, the operand's element plus the sum of `u[e, c]` over the updates `e` whose row number is `i`:
  which updates contribute depends on the column of row numbers only, not on `c` and not on the width `C`.
  The same for a vector of updates `[E]` scattered into `[N]`.
-/
import Idealize.ShloMosaic.Lib.ValueIdx
import Idealize.ShloMosaic.PureOps.Ideal.Laws
import proofs.«177079_j59863254171804_2_alg».proof.Proof.LibRowIndex

noncomputable section

namespace Cert.Lib.RowScatterSum

open Idealize.ShloMosaic Idealize.ShloMosaic.ValueIdx Cert.Lib.RowIndex

/-! ## Rows of a matrix -/

section Rows

variable {N C E w : Nat} (wf : ScatterDims.WF ⟨2, ![N, C]⟩ ⟨2, ![E, 1]⟩ ⟨2, ![E, C]⟩ [1] [0] [0] 1)

/-- On the row axis the start of an update's window is its row number, read signed. -/
theorem start_row (idx : IVec ⟨2, ![E, 1]⟩ w) (u : (⟨2, ![E, C]⟩ : Shape).Idx) :
    (rowScatterDims N C E wf).start u idx 0 = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at zero. -/
theorem start_col (idx : IVec ⟨2, ![E, 1]⟩ w) (u : (⟨2, ![E, C]⟩ : Shape).Idx) :
    (rowScatterDims N C E wf).start u idx 1 = 0 := by
  unfold ScatterDims.start
  rw [dif_neg (show ¬ (1 : Fin 2) ∈ (rowScatterDims N C E wf).scatterDimsToOperandDims from
    (by decide : ¬ (1 : Fin 2) ∈ ([0] : List (Fin 2))))]

/-- The row axis is inserted: no window coordinate on it. -/
theorem window_row (u : (⟨2, ![E, C]⟩ : Shape).Idx) : (rowScatterDims N C E wf).window u 0 = 0 := by
  unfold ScatterDims.window
  rw [dif_neg (show ¬ (0 : Fin 2) ∈ (rowScatterDims N C E wf).sKept from
    (by decide : ¬ (0 : Fin 2) ∈ (List.finRange 2).filter (fun a => a ∉ ([0] : List (Fin 2)))))]

/-- The window coordinate on the column axis is the update's column. -/
theorem window_col (u : (⟨2, ![E, C]⟩ : Shape).Idx) : (rowScatterDims N C E wf).window u 1 = (u 1).val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- Update element `(e, c')` lands on `(i, c)` exactly when its row number is `i` and its column is `c`. -/
theorem lands_iff (idx : IVec ⟨2, ![E, 1]⟩ w) (e : Fin E) (c' : Fin C) (i : Fin N) (c : Fin C) :
    (rowScatterDims N C E wf).resultIdx? (ix2 e c') idx = some (ix2 i c)
      ↔ ((idx (ix2 e 0)).toInt = (i.val : Int) ∧ c' = c) := by
  have s0 : (rowScatterDims N C E wf).start (ix2 e c') idx 0 = (idx (ix2 e 0)).toInt := start_row wf idx (ix2 e c')
  have s1 := start_col wf idx (ix2 e c')
  have w0 := window_row wf (ix2 e c')
  have w1 : (rowScatterDims N C E wf).window (ix2 e c') 1 = c'.val := window_col wf (ix2 e c')
  unfold ScatterDims.resultIdx?
  constructor
  · intro h
    split at h
    · rename_i hb
      have hv := Option.some.inj h
      have e0 : ((rowScatterDims N C E wf).start (ix2 e c') idx 0
          + ((rowScatterDims N C E wf).window (ix2 e c') 0 : Int)).toNat = i.val :=
        congrArg (fun f : (⟨2, ![N, C]⟩ : Shape).Idx => (f 0).val) hv
      have e1 : ((rowScatterDims N C E wf).start (ix2 e c') idx 1
          + ((rowScatterDims N C E wf).window (ix2 e c') 1 : Int)).toNat = c.val :=
        congrArg (fun f : (⟨2, ![N, C]⟩ : Shape).Idx => (f 1).val) hv
      have hb0 := (hb 0).1
      rw [s0, w0] at e0 hb0
      rw [s1, w1] at e1
      simp only [Nat.cast_zero, add_zero] at e0 hb0
      exact ⟨by omega, Fin.ext (by omega)⟩
    · exact absurd h (by simp)
  · rintro ⟨hr, rfl⟩
    split
    · refine congrArg some (funext fun a => Fin.ext ?_)
      match a with
      | ⟨0, _⟩ =>
        show ((rowScatterDims N C E wf).start (ix2 e c') idx 0
          + ((rowScatterDims N C E wf).window (ix2 e c') 0 : Int)).toNat = i.val
        rw [s0, w0, hr]; simp
      | ⟨1, _⟩ =>
        show ((rowScatterDims N C E wf).start (ix2 e c') idx 1
          + ((rowScatterDims N C E wf).window (ix2 e c') 1 : Int)).toNat = c'.val
        rw [s1, w1]; simp
    · rename_i hb
      exfalso; apply hb; intro a
      match a with
      | ⟨0, _⟩ =>
        show 0 ≤ (rowScatterDims N C E wf).start (ix2 e c') idx 0 + ((rowScatterDims N C E wf).window (ix2 e c') 0 : Int)
          ∧ (rowScatterDims N C E wf).start (ix2 e c') idx 0 + ((rowScatterDims N C E wf).window (ix2 e c') 0 : Int) < (N : Int)
        rw [s0, w0, hr]; have := i.isLt; constructor <;> omega
      | ⟨1, _⟩ =>
        show 0 ≤ (rowScatterDims N C E wf).start (ix2 e c') idx 1 + ((rowScatterDims N C E wf).window (ix2 e c') 1 : Int)
          ∧ (rowScatterDims N C E wf).start (ix2 e c') idx 1 + ((rowScatterDims N C E wf).window (ix2 e c') 1 : Int) < (C : Int)
        rw [s1, w1]; have := c'.isLt; constructor <;> omega

/-- The accumulated row scatter at `(i, c)`: the operand's element plus the sum, over the updates whose row number is
    `i`, of the update's element in column `c`. -/
theorem rowScatterAdd_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (rowScatterDims N C E wf) x idx upd (ix2 i c)
      = x (ix2 i c) + ∑ e ∈ Finset.univ.filter (fun e : Fin E => (idx (ix2 e 0)).toInt = (i.val : Int)), upd (ix2 e c) := by
  show Ideal.hostScatterAdd (rowScatterDims N C E wf) x idx upd (ix2 i c) = _
  unfold Ideal.hostScatterAdd
  congr 1
  rw [Finset.sum_filter, sum_idx2, Finset.sum_filter]
  refine Finset.sum_congr rfl fun e _ => ?_
  by_cases hr : (idx (ix2 e 0)).toInt = (i.val : Int)
  · rw [if_pos hr, Finset.sum_eq_single c]
    · rw [if_pos ((lands_iff wf idx e c i c).mpr ⟨hr, rfl⟩)]
    · intro c' _ hne
      exact if_neg fun h => hne ((lands_iff wf idx e c' i c).mp h).2
    · intro h; exact absurd (Finset.mem_univ c) h
  · rw [if_neg hr]
    exact Finset.sum_eq_zero fun c' _ => if_neg fun h => hr ((lands_iff wf idx e c' i c).mp h).1

end Rows

/-! ## Entries of a vector -/

section Entries

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `zeros.at[idx].add(u)` for updates `u : [E]` into `[N]` and a column of positions
    `idx : [E, 1]`: no window axis, the operand's one axis inserted, one start index per update. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vstart (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

theorem vwindow (u : (⟨1, ![E]⟩ : Shape).Idx) : (vecScatterDims N E wf).window u 0 = 0 := by
  unfold ScatterDims.window
  rw [dif_neg (show ¬ (0 : Fin 1) ∈ (vecScatterDims N E wf).sKept from
    (by decide : ¬ (0 : Fin 1) ∈ (List.finRange 1).filter (fun a => a ∉ ([0] : List (Fin 1)))))]

/-- Update `e` lands on entry `i` exactly when its position, read signed, is `i`. -/
theorem vlands_iff (idx : IVec ⟨2, ![E, 1]⟩ w) (e : Fin E) (i : Fin N) :
    (vecScatterDims N E wf).resultIdx? (ix1 e) idx = some (ix1 i) ↔ (idx (ix2 e 0)).toInt = (i.val : Int) := by
  have s0 : (vecScatterDims N E wf).start (ix1 e) idx 0 = (idx (ix2 e 0)).toInt := vstart wf idx (ix1 e)
  have w0 := vwindow wf (ix1 e)
  unfold ScatterDims.resultIdx?
  constructor
  · intro h
    split at h
    · rename_i hb
      have e0 : ((vecScatterDims N E wf).start (ix1 e) idx 0
          + ((vecScatterDims N E wf).window (ix1 e) 0 : Int)).toNat = i.val :=
        congrArg (fun f : (⟨1, ![N]⟩ : Shape).Idx => (f 0).val) (Option.some.inj h)
      have hb0 := (hb 0).1
      rw [s0, w0] at e0 hb0
      simp only [Nat.cast_zero, add_zero] at e0 hb0
      omega
    · exact absurd h (by simp)
  · intro hr
    split
    · refine congrArg some (funext fun a => Fin.ext ?_)
      match a with
      | ⟨0, _⟩ =>
        show ((vecScatterDims N E wf).start (ix1 e) idx 0
          + ((vecScatterDims N E wf).window (ix1 e) 0 : Int)).toNat = i.val
        rw [s0, w0, hr]; simp
    · rename_i hb
      exfalso; apply hb; intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [s0, w0, hr]; have := i.isLt; constructor <;> omega

/-- The accumulated scatter of vector entries at `i`: the operand's entry plus the sum of the updates whose position is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (vecScatterDims N E wf) x idx upd (ix1 i)
      = x (ix1 i) + ∑ e ∈ Finset.univ.filter (fun e : Fin E => (idx (ix2 e 0)).toInt = (i.val : Int)), upd (ix1 e) := by
  show Ideal.hostScatterAdd (vecScatterDims N E wf) x idx upd (ix1 i) = _
  unfold Ideal.hostScatterAdd
  congr 1
  rw [Finset.sum_filter, sum_idx1, Finset.sum_filter]
  refine Finset.sum_congr rfl fun e _ => ?_
  by_cases hr : (idx (ix2 e 0)).toInt = (i.val : Int)
  · rw [if_pos hr, if_pos ((vlands_iff wf idx e i).mpr hr)]
  · rw [if_neg hr, if_neg fun h => hr ((vlands_iff wf idx e i).mp h)]

end Entries

end Cert.Lib.RowScatterSum

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KRead.lean ====
/-
  The kernel program's host terms read at an index, at the ideal instance.

  Each term of the host program is a composition of pointwise operations, broadcasts, slices, reshapes, one gather of
  rows and one scatter-add of rows. Read at a coordinate, each is the corresponding expression of the plain-index
  mathematics: a broadcast reads the operand at the kept coordinates, a gather reads the clamped row its start index
  names, a scatter-add sums the updates whose row number is the row read.
-/
import proofs.«177079_j59863254171804_2_alg».proof.Proof.KTerms
import proofs.«177079_j59863254171804_2_alg».proof.Proof.Spec
import proofs.«177079_j59863254171804_2_alg».proof.Proof.LibRowIndex
import proofs.«177079_j59863254171804_2_alg».proof.Proof.LibRowScatterSum
import proofs.«177079_j59863254171804_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TermsRead

open Cert.KernelIdeal Idealize.ShloMosaic Idealize.ShloMosaic.ValueIdx

open Facts₀

/-! ## Broadcasts read at coordinates -/

/-- A vector of 50000 entries as a column: entry `i`, whatever the unit coordinate. -/
theorem col_apply {α : Type} (d : S50000.Idx → α) (i : Fin 50000) (u : Fin 1) :
    broadcastInDim S50000x1 ![0] bcast_S50000_S50000x1_0 d (ix2 i u) = d (ix1 i) :=
  broadcastInDim_apply _ bcast_S50000_S50000x1_0 d (ix2 i u) (ix1 i) (fun a => match a with
    | ⟨0, _⟩ => by show i.val = if (50000 : Nat) = 1 then 0 else i.val; rw [if_neg (by decide)])

/-- A column of 50000 entries along the 128 columns: the column's entry `i`. -/
theorem rows_apply {α : Type} (x : S50000x1.Idx → α) (i : Fin 50000) (c : Fin 128) :
    broadcastInDim S50000x128 ![0, 1] bcast_S50000x1_S50000x128_0_1 x (ix2 i c) = x (ix2 i 0) :=
  broadcastInDim_apply _ bcast_S50000x1_S50000x128_0_1 x (ix2 i c) (ix2 i 0) (fun a => match a with
    | ⟨0, _⟩ => by show i.val = if (50000 : Nat) = 1 then 0 else i.val; rw [if_neg (by decide)]
    | ⟨1, _⟩ => by show (0 : Nat) = if (1 : Nat) = 1 then 0 else c.val; rw [if_pos rfl])

/-- The 600000 row numbers as a column. -/
theorem ecol_apply {α : Type} (s : S600000.Idx → α) (e : Fin 600000) (u : Fin 1) :
    broadcastInDim S600000x1 ![0] bcast_S600000_S600000x1_0 s (ix2 e u) = s (ix1 e) :=
  broadcastInDim_apply _ bcast_S600000_S600000x1_0 s (ix2 e u) (ix1 e) (fun a => match a with
    | ⟨0, _⟩ => by show e.val = if (600000 : Nat) = 1 then 0 else e.val; rw [if_neg (by decide)])

/-- A scalar splat over the edges reads the scalar. -/
theorem splatE_apply {α : Type} (y : S_.Idx → α) (j : S600000.Idx) :
    broadcastInDim S600000 ![] bcast_S_S600000 y j = y ix0 :=
  broadcastInDim_apply _ bcast_S_S600000 y j ix0 (fun a => a.elim0)

/-- A scalar splat over the nodes reads the scalar. -/
theorem splatN_apply {α : Type} (y : S_.Idx → α) (j : S50000.Idx) :
    broadcastInDim S50000 ![] bcast_S_S50000 y j = y ix0 :=
  broadcastInDim_apply _ bcast_S_S50000 y j ix0 (fun a => a.elim0)

/-- A scalar splat over the node array reads the scalar. -/
theorem splatNC_apply {α : Type} (y : S_.Idx → α) (j : S50000x128.Idx) :
    broadcastInDim S50000x128 ![] bcast_S_S50000x128 y j = y ix0 :=
  broadcastInDim_apply _ bcast_S_S50000x128 y j ix0 (fun a => a.elim0)

/-! ## The printed gather and scatter records are the row forms -/

/-- The printed gather of rows, read at `(e, c)`: the operand at the clamped row `idx[e, 0]` and column `c`. -/
theorem gatherRows_apply {α : Type} (x : S50000x128.Idx → α) (idx : IVec S600000x1 32) (e : Fin 600000) (c : Fin 128) :
    Host.gather gather_S50000x128_S600000x1_S600000x128_1_0_n_n_0_1_1128 x idx (ix2 e c)
      = x (ix2 ⟨min (idx (ix2 e 0)).toInt.toNat (50000 - 1), by omega⟩ c) :=
  Cert.Lib.RowIndex.rowGather_apply (N := 50000) (C := 128) (E := 600000) (by decide)
    gather_S50000x128_S600000x1_S600000x128_1_0_n_n_0_1_1128_wf x idx e c

/-- The printed scatter-add of rows, read at `(i, c)`: the operand's entry plus the updates whose row number is `i`. -/
theorem scatterRows_apply (x : FVec Ideal S50000x128 .f32) (idx : IVec S600000x1 32) (upd : FVec Ideal S600000x128 .f32)
    (i : Fin 50000) (c : Fin 128) :
    Host.scatterAdd (F := Ideal) scatter_S50000x128_S600000x1_S600000x128_1_0_0_1 x idx upd (ix2 i c)
      = x (ix2 i c) + ∑ e ∈ Finset.univ.filter (fun e : Fin 600000 => (idx (ix2 e 0)).toInt = (i.val : Int)), upd (ix2 e c) :=
  Cert.Lib.RowScatterSum.rowScatterAdd_apply (N := 50000) (C := 128) (E := 600000)
    scatter_S50000x128_S600000x1_S600000x128_1_0_0_1_wf x idx upd i c

/-- The printed scatter-add of entries, read at `i`: the operand's entry plus the updates whose position is `i`. -/
theorem scatterVec_apply (x : FVec Ideal S50000 .f32) (idx : IVec S600000x1 32) (upd : FVec Ideal S600000 .f32)
    (i : Fin 50000) :
    Host.scatterAdd (F := Ideal) scatter_S50000_S600000x1_S600000_n_0_0_1 x idx upd (ix1 i)
      = x (ix1 i) + ∑ e ∈ Finset.univ.filter (fun e : Fin 600000 => (idx (ix2 e 0)).toInt = (i.val : Int)), upd (ix1 e) :=
  Cert.Lib.RowScatterSum.vecScatterAdd_apply (N := 50000) (E := 600000)
    scatter_S50000_S600000x1_S600000_n_0_0_1_wf x idx upd i

/-! ## The terms of one application of the scaled Laplacian -/

/-- The row number a gather uses is the normalised one. -/
theorem nrmT_apply (s : IVec S600000 32) (e : Fin 600000) :
    Terms.nrmT (F := Ideal) s (ix1 e) = Cert.Cheb.nrm (s (ix1 e)) := by
  unfold Terms.nrmT Cert.Cheb.nrm
  show Scalar.select (IntOp.cmpi .slt (s (ix1 e)) (broadcastInDim S600000 ![] bcast_S_S600000 (constantI S_ 32 0#32) (ix1 e)))
      (IntOp.addi (s (ix1 e)) (broadcastInDim S600000 ![] bcast_S_S600000 (constantI S_ 32 50000#32) (ix1 e))) (s (ix1 e)) = _
  rw [splatE_apply, splatE_apply]
  rfl

/-- The node array scaled by the per-node factor. -/
theorem scaleT_apply (d : FVec Ideal S50000 .f32) (v : FVec Ideal S50000x128 .f32) (i : Fin 50000) (c : Fin 128) :
    Terms.scaleT (F := Ideal) d v (ix2 i c) = d (ix1 i) * v (ix2 i c) := by
  unfold Terms.scaleT
  show FloatOps.mulf (broadcastInDim S50000x128 ![0, 1] bcast_S50000x1_S50000x128_0_1
      (broadcastInDim S50000x1 ![0] bcast_S50000_S50000x1_0 d) (ix2 i c)) (v (ix2 i c)) = _
  rw [rows_apply, col_apply]
  rfl

/-- The messages summed per destination row: zero plus, for every edge landing on row `i`, the gathered row's entry. -/
theorem msgT_apply (s t : IVec S600000 32) (u : FVec Ideal S50000x128 .f32) (i : Fin 50000) (c : Fin 128) :
    Terms.msgT (F := Ideal) s t u (ix2 i c)
      = 0 + ∑ e ∈ Cert.Cheb.lands (fun e => t (ix1 e)) i, u (ix2 (Cert.Cheb.grow (s (ix1 e))) c) := by
  unfold Terms.msgT
  rw [scatterRows_apply, splatNC_apply]
  refine congrArg₂ (· + ·) Ideal.ofBits_zero_f32 ?_
  unfold Cert.Cheb.lands
  refine Finset.sum_congr (Finset.filter_congr fun e _ => ?_) fun e _ => ?_
  · rw [ecol_apply]
  show Host.gather gather_S50000x128_S600000x1_S600000x128_1_0_n_n_0_1_1128 (truncf (F := Ideal) .bf16 u bitsLt_bf16_f32)
      (broadcastInDim S600000x1 ![0] bcast_S600000_S600000x1_0 (Terms.nrmT (F := Ideal) s)) (ix2 e c) = _
  rw [gatherRows_apply]
  show u (ix2 ⟨min (broadcastInDim S600000x1 ![0] bcast_S600000_S600000x1_0 (Terms.nrmT (F := Ideal) s) (ix2 e 0)).toInt.toNat (50000 - 1), _⟩ c) = _
  refine congrArg (fun r => u (ix2 r c)) (Fin.ext ?_)
  show min (broadcastInDim S600000x1 ![0] bcast_S600000_S600000x1_0 (Terms.nrmT (F := Ideal) s) (ix2 e 0)).toInt.toNat (50000 - 1)
    = min (Cert.Cheb.nrm (s (ix1 e))).toInt.toNat (50000 - 1)
  rw [ecol_apply, nrmT_apply]

/-- One application of the scaled Laplacian, node-scaled arrangement, read at `(i, c)`. -/
theorem lhatT_apply (d : FVec Ideal S50000 .f32) (s t : IVec S600000 32) (v : FVec Ideal S50000x128 .f32)
    (i : Fin 50000) (c : Fin 128) :
    Terms.lhatT (F := Ideal) d s t v (ix2 i c)
      = Cert.Cheb.LK (fun a => d (ix1 a)) (fun e => s (ix1 e)) (fun e => t (ix1 e)) (fun a b => v (ix2 a b)) i c := by
  unfold Terms.lhatT Cert.Cheb.LK
  show FloatOps.mulf (broadcastInDim S50000x128 ![0, 1] bcast_S50000x1_S50000x128_0_1
      (Host.negf (F := Ideal) (broadcastInDim S50000x1 ![0] bcast_S50000_S50000x1_0 d)) (ix2 i c))
      (Terms.msgT (F := Ideal) s t (Terms.scaleT (F := Ideal) d v) (ix2 i c)) = _
  rw [rows_apply, msgT_apply]
  show (-(broadcastInDim S50000x1 ![0] bcast_S50000_S50000x1_0 d (ix2 i 0))) * _ = _
  rw [col_apply]
  simp only [scaleT_apply]

/-! ## The edge list's rows, the weights and the bias -/

/-- The source row numbers are row 0 of the edge list. -/
theorem srcT_apply (ei : IVec S2x600000 32) (e : Fin 600000) :
    Terms.srcT (F := Ideal) ei (ix1 e) = ei (ix2 0 e) := by
  unfold Terms.srcT
  refine (shapeCast_1a_a_apply _ shapeCasts_S1x600000_S600000 e).trans ?_
  exact slice2_axis0_apply 0 ei slices_S2x600000_S1x600000_0_0 (0 : Fin 1) e (0 : Fin 2) rfl

/-- The destination row numbers are row 1 of the edge list. -/
theorem dstT_apply (ei : IVec S2x600000 32) (e : Fin 600000) :
    Terms.dstT (F := Ideal) ei (ix1 e) = ei (ix2 1 e) := by
  unfold Terms.dstT
  refine (shapeCast_1a_a_apply _ shapeCasts_S1x600000_S600000 e).trans ?_
  exact slice2_axis0_apply 1 ei slices_S2x600000_S1x600000_1_0 (0 : Fin 1) e (1 : Fin 2) rfl

/-- Weight matrix 0 of a layer's three. -/
theorem w0T_apply (W : FVec Ideal S3x128x128 .f32) (a b : Fin 128) :
    Terms.w0T (F := Ideal) W (ix2 a b) = W (ix3 0 a b) := by
  unfold Terms.w0T
  refine (shapeCast_1ab_ab_apply _ shapeCasts_S1x128x128_S128x128 a b).trans ?_
  exact extractStridedSlice_apply ![0, 0, 0] W slices_S3x128x128_S1x128x128_0_0_0 (ix3 (0 : Fin 1) a b) (ix3 (0 : Fin 3) a b)
    (fun x => match x with
      | ⟨0, _⟩ => by show (0 : Nat) = 0 + 0; rfl
      | ⟨1, _⟩ => by show a.val = 0 + a.val; omega
      | ⟨2, _⟩ => by show b.val = 0 + b.val; omega)

/-- Weight matrix 1 of a layer's three. -/
theorem w1T_apply (W : FVec Ideal S3x128x128 .f32) (a b : Fin 128) :
    Terms.w1T (F := Ideal) W (ix2 a b) = W (ix3 1 a b) := by
  unfold Terms.w1T
  refine (shapeCast_1ab_ab_apply _ shapeCasts_S1x128x128_S128x128 a b).trans ?_
  exact extractStridedSlice_apply ![1, 0, 0] W slices_S3x128x128_S1x128x128_1_0_0 (ix3 (0 : Fin 1) a b) (ix3 (1 : Fin 3) a b)
    (fun x => match x with
      | ⟨0, _⟩ => by show (1 : Nat) = 1 + 0; rfl
      | ⟨1, _⟩ => by show a.val = 0 + a.val; omega
      | ⟨2, _⟩ => by show b.val = 0 + b.val; omega)

/-- Weight matrix 2 of a layer's three. -/
theorem w2T_apply (W : FVec Ideal S3x128x128 .f32) (a b : Fin 128) :
    Terms.w2T (F := Ideal) W (ix2 a b) = W (ix3 2 a b) := by
  unfold Terms.w2T
  refine (shapeCast_1ab_ab_apply _ shapeCasts_S1x128x128_S128x128 a b).trans ?_
  exact extractStridedSlice_apply ![2, 0, 0] W slices_S3x128x128_S1x128x128_2_0_0 (ix3 (0 : Fin 1) a b) (ix3 (2 : Fin 3) a b)
    (fun x => match x with
      | ⟨0, _⟩ => by show (2 : Nat) = 2 + 0; rfl
      | ⟨1, _⟩ => by show a.val = 0 + a.val; omega
      | ⟨2, _⟩ => by show b.val = 0 + b.val; omega)

/-- A layer's bias as one row. -/
theorem biasT_apply (b : FVec Ideal S128 .f32) (c : Fin 128) :
    Terms.biasT (F := Ideal) b (ix2 0 c) = b (ix1 c) := by
  unfold Terms.biasT
  exact shapeCast_a_1a_apply b shapeCasts_S128_S1x128 (0 : Fin 1) c

/-! ## The degrees and the per-node factor -/

/-- A node's degree: zero plus a one for every edge whose source row number is the node. -/
theorem degT_apply (s : IVec S600000 32) (i : Fin 50000) :
    Terms.degT (F := Ideal) s (ix1 i) = Cert.Cheb.degS (fun e => s (ix1 e)) i := by
  unfold Terms.degT Cert.Cheb.degS
  rw [scatterVec_apply, splatN_apply]
  refine congrArg₂ (· + ·) Ideal.ofBits_zero_f32 ?_
  unfold Cert.Cheb.lands
  refine Finset.sum_congr (Finset.filter_congr fun e _ => ?_) fun e _ => ?_
  · rw [ecol_apply]
  · rw [splatE_apply]
    rfl

/-- The per-node factor: the inverse square root of the degree (at least one) where it is positive, else zero. -/
theorem dinvT_apply (s : IVec S600000 32) (i : Fin 50000) :
    Terms.dinvT (F := Ideal) s (ix1 i) = Cert.Cheb.dinvS (fun e => s (ix1 e)) i := by
  unfold Terms.dinvT Cert.Cheb.dinvS
  show Scalar.select
      (FloatOps.cmpf (F := Ideal) (φ := .f32) .ogt (Terms.degT (F := Ideal) s (ix1 i))
        (broadcastInDim S50000 ![] bcast_S_S50000 (constant (F := Ideal) S_ .f32 0x00000000#32) (ix1 i)))
      (FloatOps.hostUnary (F := Ideal) (φ := .f32) .rsqrt (FloatOps.maximumf (F := Ideal) (φ := .f32) (Terms.degT (F := Ideal) s (ix1 i))
        (broadcastInDim S50000 ![] bcast_S_S50000 (constant (F := Ideal) S_ .f32 0x3F800000#32) (ix1 i))))
      (broadcastInDim S50000 ![] bcast_S_S50000 (constant (F := Ideal) S_ .f32 0x00000000#32) (ix1 i)) = _
  rw [splatN_apply, splatN_apply, degT_apply]
  have h0 : constant (F := Ideal) S_ .f32 0x00000000#32 ix0 = (0 : EReal) := Ideal.ofBits_zero_f32
  have h1 : constant (F := Ideal) S_ .f32 0x3F800000#32 ix0 = Cert.Cheb.one := rfl
  rw [h0, h1, Ideal.hostUnary_rsqrt_def, Ideal.maximumf_def]

end Cert.KernelIdeal.TermsRead

end
-- ==== Proof.RegionBody.lean ====
/-
  The dense step of a layer, read at one index of a block.

  The kernel body computes, from three row blocks `t0`, `t1`, `l` (5000 rows of 128), three weight matrices and a bias row,
  the block `relu (t0·W0 + t1·W1 + (2·l − t0)·W2 + b)`: three matrix products into zero accumulators, added left to right,
  the bias row repeated over the rows, and a maximum with zero. On the extended reals the roundings to the narrow format in
  front of the products are the identity, a product at `(p, q)` is the sum over the contracted coordinate `k` of the left
  operand at `(p, k)` times the right operand at `(k, q)`, and every other operation acts coordinate by coordinate. So the
  block at `(p, q)` is the formula of `Cert.Cheb.comb` with the blocks in the place of the arrays.
-/
import proofs.«177079_j59863254171804_2_alg».proof.Proof.Gen.KernelIdeal.Skeleton
import proofs.«177079_j59863254171804_2_alg».proof.Proof.Spec
import Idealize.ShloMosaic.PureOps.Ideal.Laws
import Idealize.ShloMosaic.Lib.ValueIdx
import Idealize.ShloMosaic.Lib.ValueLayout

noncomputable section

namespace Cert.KernelIdeal.RegionValue

open Idealize.ShloMosaic Idealize.ShloMosaic.ValueIdx
open Cert.KernelIdeal Cert.KernelIdeal.Gen

/-- The offsets of a whole-block access are zero on both axes. -/
theorem zero_offsets : (![0, 0] : Fin 2 → Nat) = fun _ => 0 := funext fun a => by fin_cases a <;> rfl

/-- The contraction of the product `[5000,128] · [128,128]`: the left operand's columns against the right operand's rows. -/
abbrev DD : DotDims S5000x128 S128x128 S5000x128 := dot_S5000x128_S128x128_S5000x128_1_0_0_1_n_n

/-- The left operand's row coordinate is the output index's row. -/
theorem lhs_row (i : S5000x128.Idx) (r : DD.contr.Idx) : (DD.lhsIdx i r 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl

/-- The right operand's column coordinate is the output index's column. -/
theorem rhs_col (i : S5000x128.Idx) (r : DD.contr.Idx) : (DD.rhsIdx i r 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- The left operand of the product is read at row `p` of the output index and the contracted coordinate. -/
theorem lhs_at (p : Fin 5000) (q : Fin 128) (k : Fin 128) :
    DD.lhsIdx (ix2 p q) ((contrEquiv1 DD 128 rfl rfl).symm k) = ix2 p k := by
  have hk := contrEquiv1_symm_val DD 128 rfl rfl k
  refine funext fun a => Fin.ext ?_
  match a with
  | ⟨0, _⟩ => exact lhs_row _ _
  | ⟨1, _⟩ => exact (DD.lhsIdx_val_of_single rfl (ix2 p q) _).trans hk

/-- The right operand of the product is read at the contracted coordinate and column `q` of the output index. -/
theorem rhs_at (p : Fin 5000) (q : Fin 128) (k : Fin 128) :
    DD.rhsIdx (ix2 p q) ((contrEquiv1 DD 128 rfl rfl).symm k) = ix2 k q := by
  have hk := contrEquiv1_symm_val DD 128 rfl rfl k
  refine funext fun a => Fin.ext ?_
  match a with
  | ⟨0, _⟩ => exact (DD.rhsIdx_val_of_single rfl (ix2 p q) _).trans hk
  | ⟨1, _⟩ => exact rhs_col _ _

/-- A block product into the zero accumulator, at `(p, q)`: the sum over `k` of left `(p, k)` times right `(k, q)`. -/
theorem mm_apply {φ₁ φ₂ : FTy} (x : FVec Ideal S5000x128 φ₁) (w : FVec Ideal S128x128 φ₂) (p : Fin 5000) (q : Fin 128) :
    matmul DD none x w (constant (F := Ideal) S5000x128 .f32 0x00000000#32) (ix2 p q)
      = ∑ k : Fin 128, x (ix2 p k) * w (ix2 k q) := by
  refine (Ideal.matmul_constant_zero_apply DD none x w (ix2 p q)).trans ?_
  rw [← Equiv.sum_comp (contrEquiv1 DD 128 rfl rfl).symm]
  refine Finset.sum_congr rfl fun k _ => ?_
  rw [lhs_at, rhs_at]

/-- The body's stored block of region 0, at `(p, q)`: the dense step over the loaded blocks. -/
theorem pay0_apply (t0 t1 l : Vec Ideal S5000x128 .f32) (w0 w1 w2 : Vec Ideal S128x128 .f32) (b : Vec Ideal S1x128 .f32)
    (p : Fin 5000) (q : Fin 128) :
    Gen.k0_pay1 (F := Ideal) t0 t1 l w0 w1 w2 b (ix2 p q)
      = max ((((∑ k : Fin 128, t0 (ix2 p k) * w0 (ix2 k q)) + ∑ k : Fin 128, t1 (ix2 p k) * w1 (ix2 k q))
          + ∑ k : Fin 128, (Cert.Cheb.two * l (ix2 p k) - t0 (ix2 p k)) * w2 (ix2 k q)) + b (ix2 (0 : Fin 1) q)) 0 := by
  unfold Gen.k0_pay1
  rw [maximumf_apply, addf_apply, addf_apply, addf_apply]
  rw [mm_apply, mm_apply, mm_apply, broadcastTo_1b_ab_apply]
  simp only [shapeCast_self, truncf_apply, subf_apply, mulf_apply, broadcast_apply]
  unfold Cert.Cheb.two
  exact congrArg (max _) Ideal.ofBits_zero_f32

/-- The same block of region 0 when its loaded blocks are row block `n` of three node arrays, the whole of three weight
    matrices and the bias row: at `(p, q)` it is the dense step of the arrays at row `r = 5000·n + p` and column `q`. -/
theorem block0_comb (x0 x1 x2 : Vec Ideal S5000x128 .f32) (x3 x4 x5 : Vec Ideal S128x128 .f32) (x6 : Vec Ideal S1x128 .f32)
    (A0 A1 A2 : S50000x128.Idx → EReal) (A3 A4 A5 : S128x128.Idx → EReal) (A6 : S1x128.Idx → EReal)
    (p : Fin 5000) (q : Fin 128) (r : Fin 50000)
    (h0 : ∀ k : Fin 128, x0 (ix2 p k) = A0 (ix2 r k)) (h1 : ∀ k : Fin 128, x1 (ix2 p k) = A1 (ix2 r k))
    (h2 : ∀ k : Fin 128, x2 (ix2 p k) = A2 (ix2 r k))
    (h3 : ∀ k : Fin 128, x3 (ix2 k q) = A3 (ix2 k q)) (h4 : ∀ k : Fin 128, x4 (ix2 k q) = A4 (ix2 k q))
    (h5 : ∀ k : Fin 128, x5 (ix2 k q) = A5 (ix2 k q)) (h6 : x6 (ix2 (0 : Fin 1) q) = A6 (ix2 (0 : Fin 1) q)) :
    Gen.k0_pay1 (F := Ideal) x0 x1 x2 x3 x4 x5 x6 (ix2 p q)
      = Cert.Cheb.comb (fun a b => A0 (ix2 a b)) (fun a b => A1 (ix2 a b)) (fun a b => A2 (ix2 a b))
          (fun a b => A3 (ix2 a b)) (fun a b => A4 (ix2 a b)) (fun a b => A5 (ix2 a b)) (fun b => A6 (ix2 (0 : Fin 1) b)) r q := by
  rw [pay0_apply]
  unfold Cert.Cheb.comb
  simp only [h0, h1, h2, h3, h4, h5, h6]

/-- The body's stored block of region 1, at `(p, q)`: the dense step over the loaded blocks. -/
theorem pay1_apply (t0 t1 l : Vec Ideal S5000x128 .f32) (w0 w1 w2 : Vec Ideal S128x128 .f32) (b : Vec Ideal S1x128 .f32)
    (p : Fin 5000) (q : Fin 128) :
    Gen.k1_pay1 (F := Ideal) t0 t1 l w0 w1 w2 b (ix2 p q)
      = max ((((∑ k : Fin 128, t0 (ix2 p k) * w0 (ix2 k q)) + ∑ k : Fin 128, t1 (ix2 p k) * w1 (ix2 k q))
          + ∑ k : Fin 128, (Cert.Cheb.two * l (ix2 p k) - t0 (ix2 p k)) * w2 (ix2 k q)) + b (ix2 (0 : Fin 1) q)) 0 := by
  unfold Gen.k1_pay1
  rw [maximumf_apply, addf_apply, addf_apply, addf_apply]
  rw [mm_apply, mm_apply, mm_apply, broadcastTo_1b_ab_apply]
  simp only [shapeCast_self, truncf_apply, subf_apply, mulf_apply, broadcast_apply]
  unfold Cert.Cheb.two
  exact congrArg (max _) Ideal.ofBits_zero_f32

/-- The same block of region 1 when its loaded blocks are row block `n` of three node arrays, the whole of three weight
    matrices and the bias row: at `(p, q)` it is the dense step of the arrays at row `r = 5000·n + p` and column `q`. -/
theorem block1_comb (x0 x1 x2 : Vec Ideal S5000x128 .f32) (x3 x4 x5 : Vec Ideal S128x128 .f32) (x6 : Vec Ideal S1x128 .f32)
    (A0 A1 A2 : S50000x128.Idx → EReal) (A3 A4 A5 : S128x128.Idx → EReal) (A6 : S1x128.Idx → EReal)
    (p : Fin 5000) (q : Fin 128) (r : Fin 50000)
    (h0 : ∀ k : Fin 128, x0 (ix2 p k) = A0 (ix2 r k)) (h1 : ∀ k : Fin 128, x1 (ix2 p k) = A1 (ix2 r k))
    (h2 : ∀ k : Fin 128, x2 (ix2 p k) = A2 (ix2 r k))
    (h3 : ∀ k : Fin 128, x3 (ix2 k q) = A3 (ix2 k q)) (h4 : ∀ k : Fin 128, x4 (ix2 k q) = A4 (ix2 k q))
    (h5 : ∀ k : Fin 128, x5 (ix2 k q) = A5 (ix2 k q)) (h6 : x6 (ix2 (0 : Fin 1) q) = A6 (ix2 (0 : Fin 1) q)) :
    Gen.k1_pay1 (F := Ideal) x0 x1 x2 x3 x4 x5 x6 (ix2 p q)
      = Cert.Cheb.comb (fun a b => A0 (ix2 a b)) (fun a b => A1 (ix2 a b)) (fun a b => A2 (ix2 a b))
          (fun a b => A3 (ix2 a b)) (fun a b => A4 (ix2 a b)) (fun a b => A5 (ix2 a b)) (fun b => A6 (ix2 (0 : Fin 1) b)) r q := by
  rw [pay1_apply]
  unfold Cert.Cheb.comb
  simp only [h0, h1, h2, h3, h4, h5, h6]

/-- The body's stored block of region 2, at `(p, q)`: the dense step over the loaded blocks. -/
theorem pay2_apply (t0 t1 l : Vec Ideal S5000x128 .f32) (w0 w1 w2 : Vec Ideal S128x128 .f32) (b : Vec Ideal S1x128 .f32)
    (p : Fin 5000) (q : Fin 128) :
    Gen.k2_pay1 (F := Ideal) t0 t1 l w0 w1 w2 b (ix2 p q)
      = max ((((∑ k : Fin 128, t0 (ix2 p k) * w0 (ix2 k q)) + ∑ k : Fin 128, t1 (ix2 p k) * w1 (ix2 k q))
          + ∑ k : Fin 128, (Cert.Cheb.two * l (ix2 p k) - t0 (ix2 p k)) * w2 (ix2 k q)) + b (ix2 (0 : Fin 1) q)) 0 := by
  unfold Gen.k2_pay1
  rw [maximumf_apply, addf_apply, addf_apply, addf_apply]
  rw [mm_apply, mm_apply, mm_apply, broadcastTo_1b_ab_apply]
  simp only [shapeCast_self, truncf_apply, subf_apply, mulf_apply, broadcast_apply]
  unfold Cert.Cheb.two
  exact congrArg (max _) Ideal.ofBits_zero_f32

/-- The same block of region 2 when its loaded blocks are row block `n` of three node arrays, the whole of three weight
    matrices and the bias row: at `(p, q)` it is the dense step of the arrays at row `r = 5000·n + p` and column `q`. -/
theorem block2_comb (x0 x1 x2 : Vec Ideal S5000x128 .f32) (x3 x4 x5 : Vec Ideal S128x128 .f32) (x6 : Vec Ideal S1x128 .f32)
    (A0 A1 A2 : S50000x128.Idx → EReal) (A3 A4 A5 : S128x128.Idx → EReal) (A6 : S1x128.Idx → EReal)
    (p : Fin 5000) (q : Fin 128) (r : Fin 50000)
    (h0 : ∀ k : Fin 128, x0 (ix2 p k) = A0 (ix2 r k)) (h1 : ∀ k : Fin 128, x1 (ix2 p k) = A1 (ix2 r k))
    (h2 : ∀ k : Fin 128, x2 (ix2 p k) = A2 (ix2 r k))
    (h3 : ∀ k : Fin 128, x3 (ix2 k q) = A3 (ix2 k q)) (h4 : ∀ k : Fin 128, x4 (ix2 k q) = A4 (ix2 k q))
    (h5 : ∀ k : Fin 128, x5 (ix2 k q) = A5 (ix2 k q)) (h6 : x6 (ix2 (0 : Fin 1) q) = A6 (ix2 (0 : Fin 1) q)) :
    Gen.k2_pay1 (F := Ideal) x0 x1 x2 x3 x4 x5 x6 (ix2 p q)
      = Cert.Cheb.comb (fun a b => A0 (ix2 a b)) (fun a b => A1 (ix2 a b)) (fun a b => A2 (ix2 a b))
          (fun a b => A3 (ix2 a b)) (fun a b => A4 (ix2 a b)) (fun a b => A5 (ix2 a b)) (fun b => A6 (ix2 (0 : Fin 1) b)) r q := by
  rw [pay2_apply]
  unfold Cert.Cheb.comb
  simp only [h0, h1, h2, h3, h4, h5, h6]

end Cert.KernelIdeal.RegionValue

end
-- ==== Proof.Region0.lean ====
/-
  Region 0: the array the region writes, as one function of the arrays it finds.

  The region runs the dense step on ten row blocks of 5000 rows. At point `t` the three node windows hold rows
  `5000·t … 5000·t + 4999` of their arrays, the three weight windows and the bias window hold their whole arrays, and the
  block written back is the dense step of those blocks; it lands on rows `5000·t … 5000·t + 4999` of the output array.
  Row `r` is covered by point `r / 5000`, so the ten blocks tile the array and the array ends holding, at `(r, q)`,
  the dense step `Cert.Cheb.comb` of the arrays at `(r, q)`.
-/
import proofs.«177079_j59863254171804_2_alg».proof.Proof.Gen.KernelIdeal.Frame
import proofs.«177079_j59863254171804_2_alg».proof.Proof.RegionBody
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The array region 0 leaves, index by index: the dense step of the arrays the region finds. -/
def arr0 (c : Dev nD) : S50000x128.Idx → EReal := fun i =>
  Cert.Cheb.comb (fun a b => (V c main_arg0 : S50000x128.Idx → EReal) (ix2 a b))
      (fun a b => (V c main_v32 : S50000x128.Idx → EReal) (ix2 a b))
      (fun a b => (V c main_v51 : S50000x128.Idx → EReal) (ix2 a b))
      (fun a b => (V c main_v53 : S128x128.Idx → EReal) (ix2 a b))
      (fun a b => (V c main_v55 : S128x128.Idx → EReal) (ix2 a b))
      (fun a b => (V c main_v57 : S128x128.Idx → EReal) (ix2 a b))
      (fun b => (V c main_v58 : S1x128.Idx → EReal) (ix2 (0 : Fin 1) b)) (i 0) (i 1)

/-- The block index maps over the grid: the node windows and the output window sit at row block `t`, column block 0;
    the weight and bias windows at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point `t` is rows `5000·t … 5000·t + 4999` of its array. -/
theorem rows0_0 (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : S50000x128.Idx → EReal) (ix2 r k) := by
  obtain ⟨e0, e1, e2, e3, e4, e5, -⟩ := idx0 t
  show (V c main_arg0 : S50000x128.Idx → EReal) (((cfg0.win 0).blk t).view.emb (ix2 p k)) = _
  refine congrArg (V c main_arg0 : S50000x128.Idx → EReal) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Window 1's block at point `t` is rows `5000·t … 5000·t + 4999` of its array. -/
theorem rows0_1 (c : Dev nD) (t : Fin cfg0.N) (p : Fin 5000) (k : Fin 128) (r : Fin 50000)
    (hr : r.val = t.val * 5000 + p.val) :
    (iblk0 V c 1 t : Vec Ideal S5000x128 .f32) (ix2 p k) = (V c main_v32 : S50000x128.Idx → EReal) (ix2 r k) := by
  obtain ⟨e0, e1, e2, e3, e4, e5, -⟩ := idx0 t
  show (V c main_v32 : S50000x128.Idx → EReal) (((cfg0.win 1).blk t).view.emb (ix2 p k)) = _
  refine congrArg (V c main_v32 : S50000x128.Idx → EReal) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Window 2's block at point `t` is rows `5000·t … 5000·t + 4999` of its array. -/
theorem rows0_2 (c : Dev nD) (t : Fin cfg0.N) (p : Fin 5000) (k : Fin 128) (r : Fin 50000)
    (hr : r.val = t.val * 5000 + p.val) :
    (iblk0 V c 2 t : Vec Ideal S5000x128 .f32) (ix2 p k) = (V c main_v51 : S50000x128.Idx → EReal) (ix2 r k) := by
  obtain ⟨e0, e1, e2, e3, e4, e5, -⟩ := idx0 t
  show (V c main_v51 : S50000x128.Idx → EReal) (((cfg0.win 2).blk t).view.emb (ix2 p k)) = _
  refine congrArg (V c main_v51 : S50000x128.Idx → EReal) (funext fun a => Fin.ext ?_)
  match a with
  | ⟨0, _⟩ => show win0_2.index t (0 : Fin 2) * 5000 + 1 * p.val = r.val; omega
  | ⟨1, _⟩ => show win0_2.index t (1 : Fin 2) * 128 + 1 * k.val = k.val; omega

/-- Window 3's block at every point is the whole of its weight matrix. -/
theorem whole0_3 (c : Dev nD) (t : Fin cfg0.N) (x y : Fin 128) :
    (iblk0 V c 3 t : Vec Ideal S128x128 .f32) (ix2 x y) = (V c main_v53 : S128x128.Idx → EReal) (ix2 x y) := by
  obtain ⟨-, -, -, -, -, -, e6, e7, e8, e9, e10, e11, -⟩ := idx0 t
  show (V c main_v53 : S128x128.Idx → EReal) (((cfg0.win 3).blk t).view.emb (ix2 x y)) = _
  refine congrArg (V c main_v53 : S128x128.Idx → EReal) (funext fun a => Fin.ext ?_)
  match a with
  | ⟨0, _⟩ => show win0_3.index t (0 : Fin 2) * 128 + 1 * x.val = x.val; omega
  | ⟨1, _⟩ => show win0_3.index t (1 : Fin 2) * 128 + 1 * y.val = y.val; omega

/-- Window 4's block at every point is the whole of its weight matrix. -/
theorem whole0_4 (c : Dev nD) (t : Fin cfg0.N) (x y : Fin 128) :
    (iblk0 V c 4 t : Vec Ideal S128x128 .f32) (ix2 x y) = (V c main_v55 : S128x128.Idx → EReal) (ix2 x y) := by
  obtain ⟨-, -, -, -, -, -, e6, e7, e8, e9, e10, e11, -⟩ := idx0 t
  show (V c main_v55 : S128x128.Idx → EReal) (((cfg0.win 4).blk t).view.emb (ix2 x y)) = _
  refine congrArg (V c main_v55 : S128x128.Idx → EReal) (funext fun a => Fin.ext ?_)
  match a with
  | ⟨0, _⟩ => show win0_4.index t (0 : Fin 2) * 128 + 1 * x.val = x.val; omega
  | ⟨1, _⟩ => show win0_4.index t (1 : Fin 2) * 128 + 1 * y.val = y.val; omega

/-- Window 5's block at every point is the whole of its weight matrix. -/
theorem whole0_5 (c : Dev nD) (t : Fin cfg0.N) (x y : Fin 128) :
    (iblk0 V c 5 t : Vec Ideal S128x128 .f32) (ix2 x y) = (V c main_v57 : S128x128.Idx → EReal) (ix2 x y) := by
  obtain ⟨-, -, -, -, -, -, e6, e7, e8, e9, e10, e11, -⟩ := idx0 t
  show (V c main_v57 : S128x128.Idx → EReal) (((cfg0.win 5).blk t).view.emb (ix2 x y)) = _
  refine congrArg (V c main_v57 : S128x128.Idx → EReal) (funext fun a => Fin.ext ?_)
  match a with
  | ⟨0, _⟩ => show win0_5.index t (0 : Fin 2) * 128 + 1 * x.val = x.val; omega
  | ⟨1, _⟩ => show win0_5.index t (1 : Fin 2) * 128 + 1 * y.val = y.val; omega

/-- Window 6's block at every point is the whole bias row. -/
theorem whole0_6 (c : Dev nD) (t : Fin cfg0.N) (y : Fin 128) :
    (iblk0 V c 6 t : Vec Ideal S1x128 .f32) (ix2 (0 : Fin 1) y) = (V c main_v58 : S1x128.Idx → EReal) (ix2 (0 : Fin 1) y) := by
  obtain ⟨-, -, -, -, -, -, -, -, -, -, -, -, e12, e13, -⟩ := idx0 t
  show (V c main_v58 : S1x128.Idx → EReal) (((cfg0.win 6).blk t).view.emb (ix2 (0 : Fin 1) y)) = _
  refine congrArg (V c main_v58 : S1x128.Idx → EReal) (funext fun a => Fin.ext ?_)
  match a with
  | ⟨0, _⟩ => show win0_6.index t (0 : Fin 2) * 1 + 1 * 0 = 0; omega
  | ⟨1, _⟩ => show win0_6.index t (1 : Fin 2) * 128 + 1 * y.val = y.val; omega

/-- What point `t` writes back is block `t` of `arr0`. -/
theorem flushed0_eq (c : Dev nD) (t : Fin cfg0.N) :
    (dat0 V c).flushed 7 t = ((cfg0.win 7).blk t).view.read (Elt Ideal) (arr0 V c) := by
  show (cfg0.win 7).cut (grid0.coords t) ((dat0 V c).after 7 t) = _
  rw [after0_7]
  unfold out0_7
  rw [View.canon_unit_zero zero_offsets]
  simp only [View.ld_unit_zero (S := S5000x128) zero_offsets, View.ld_unit_zero (S := S128x128) zero_offsets,
    View.ld_unit_zero (S := S1x128) zero_offsets]
  funext j
  have hp : (j 0).val < 5000 := (j 0).isLt
  have hq : (j 1).val < 128 := (j 1).isLt
  have ht : t.val < 10 := lt_of_lt_of_eq t.isLt N_0
  have hr : t.val * 5000 + (j 0).val < 50000 := by omega
  obtain ⟨-, -, -, -, -, -, -, -, -, -, -, -, -, -, e14, e15⟩ := idx0 t
  have h0 : (((cfg0.win 7).blk t).view.emb j) 0 = (⟨t.val * 5000 + (j 0).val, hr⟩ : Fin 50000) :=
    Fin.ext (by show win0_7.index t (0 : Fin 2) * 5000 + 1 * (j 0).val = t.val * 5000 + (j 0).val; omega)
  have h1 : (((cfg0.win 7).blk t).view.emb j) 1 = (⟨(j 1).val, hq⟩ : Fin 128) :=
    Fin.ext (by show win0_7.index t (1 : Fin 2) * 128 + 1 * (j 1).val = (j 1).val; omega)
  have hj : ((cfg0.win 7).xinj (grid0.coords t) j : S5000x128.Idx)
      = ix2 (⟨(j 0).val, hp⟩ : Fin 5000) (⟨(j 1).val, hq⟩ : Fin 128) :=
    funext fun a => by match a with | ⟨0, _⟩ => rfl | ⟨1, _⟩ => rfl
  refine (congrArg (k0_pay1 (F := Ideal) (iblk0 V c 0 t) (iblk0 V c 1 t) (iblk0 V c 2 t) (iblk0 V c 3 t)
    (iblk0 V c 4 t) (iblk0 V c 5 t) (iblk0 V c 6 t)) hj).trans ((block0_comb (iblk0 V c 0 t) (iblk0 V c 1 t) (iblk0 V c 2 t) (iblk0 V c 3 t) (iblk0 V c 4 t)
        (iblk0 V c 5 t) (iblk0 V c 6 t) (V c main_arg0) (V c main_v32) (V c main_v51) (V c main_v53) (V c main_v55) (V c main_v57) (V c main_v58)
        ⟨(j 0).val, hp⟩ ⟨(j 1).val, hq⟩ ⟨t.val * 5000 + (j 0).val, hr⟩
        (fun k => rows0_0 V c t _ k _ rfl) (fun k => rows0_1 V c t _ k _ rfl) (fun k => rows0_2 V c t _ k _ rfl)
        (fun k => whole0_3 V c t k _) (fun k => whole0_4 V c t k _) (fun k => whole0_5 V c t k _)
        (whole0_6 V c t _)).trans ?_)
  show _ = arr0 V c (((cfg0.win 7).blk t).view.emb j)
  exact (congrArg₂ (Cert.Cheb.comb (fun a b => (V c main_arg0 : S50000x128.Idx → EReal) (ix2 a b))
      (fun a b => (V c main_v32 : S50000x128.Idx → EReal) (ix2 a b))
      (fun a b => (V c main_v51 : S50000x128.Idx → EReal) (ix2 a b))
      (fun a b => (V c main_v53 : S128x128.Idx → EReal) (ix2 a b))
      (fun a b => (V c main_v55 : S128x128.Idx → EReal) (ix2 a b))
      (fun a b => (V c main_v57 : S128x128.Idx → EReal) (ix2 a b))
      (fun b => (V c main_v58 : S1x128.Idx → EReal) (ix2 (0 : Fin 1) b))) h0 h1).symm

/-- An index of the output array is in point `t`'s block iff each coordinate is in the block's range on its axis. -/
theorem mem_blk0 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v59).slice (win0_7.rect t)).set ↔ _
  rw [View.set_slice_whole, Rect.mem_set_unit]
  exact Iff.rfl

/-- Every index of the output array is in some point's block: row `r` is in the block of point `r / 5000`. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, htv⟩ : ∃ t : Fin cfg0.N, t.val = (i 0).val / 5000 :=
    ⟨⟨(i 0).val / 5000, lt_of_lt_of_eq (show (i 0).val / 5000 < 10 by omega) N_0.symm⟩, rfl⟩
  obtain ⟨-, -, -, -, -, -, -, -, -, -, -, -, -, -, e14, e15⟩ := idx0 t
  refine ⟨t, flush0_7 t, ?_⟩
  rw [mem_blk0]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

/-- The output array after region 0 is `arr0` of the arrays the region finds. -/
theorem final0 (c : Dev nD) : (dat0 V c).arrAt 7 cfg0.N = arr0 V c :=
  (dat0 V c).arrAt_eq_of_cover 7 (arr0 V c) (fun t _ => flushed0_eq V c t) cover0

/-- The output array after region 0, read at row `i` and column `k`. -/
theorem value0 (c : Dev nD) (i : Fin 50000) (k : Fin 128) :
    ((dat0 (F := Ideal) V c).arrAt 7 cfg0.N : S50000x128.Idx → EReal) (ix2 i k)
      = Cert.Cheb.comb (fun a b => (V c main_arg0 : S50000x128.Idx → EReal) (ix2 a b))
      (fun a b => (V c main_v32 : S50000x128.Idx → EReal) (ix2 a b))
      (fun a b => (V c main_v51 : S50000x128.Idx → EReal) (ix2 a b))
      (fun a b => (V c main_v53 : S128x128.Idx → EReal) (ix2 a b))
      (fun a b => (V c main_v55 : S128x128.Idx → EReal) (ix2 a b))
      (fun a b => (V c main_v57 : S128x128.Idx → EReal) (ix2 a b))
      (fun b => (V c main_v58 : S1x128.Idx → EReal) (ix2 (0 : Fin 1) b)) i k :=
  congrFun (final0 V c) (ix2 i k)

end Cert.KernelIdeal.RegionValue

end
-- ==== Proof.Region1.lean ====
/-
  Region 1: the array the region writes, as one function of the arrays it finds.

  The region runs the dense step on ten row blocks of 5000 rows. At point `t` the three node windows hold rows
  `5000·t … 5000·t + 4999` of their arrays, the three weight windows and the bias window hold their whole arrays, and the
  block written back is the dense step of those blocks; it lands on rows `5000·t … 5000·t + 4999` of the output array.
  Row `r` is covered by point `r / 5000`, so the ten blocks tile the array and the array ends holding, at `(r, q)`,
  the dense step `Cert.Cheb.comb` of the arrays at `(r, q)`.
-/
import proofs.«177079_j59863254171804_2_alg».proof.Proof.Gen.KernelIdeal.Frame
import proofs.«177079_j59863254171804_2_alg».proof.Proof.RegionBody
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The array region 1 leaves, index by index: the dense step of the arrays the region finds. -/
def arr1 (c : Dev nD) : S50000x128.Idx → EReal := fun i =>
  Cert.Cheb.comb (fun a b => (V c main_v59 : S50000x128.Idx → EReal) (ix2 a b))
      (fun a b => (V c main_v78 : S50000x128.Idx → EReal) (ix2 a b))
      (fun a b => (V c main_v97 : S50000x128.Idx → EReal) (ix2 a b))
      (fun a b => (V c main_v99 : S128x128.Idx → EReal) (ix2 a b))
      (fun a b => (V c main_v101 : S128x128.Idx → EReal) (ix2 a b))
      (fun a b => (V c main_v103 : S128x128.Idx → EReal) (ix2 a b))
      (fun b => (V c main_v104 : S1x128.Idx → EReal) (ix2 (0 : Fin 1) b)) (i 0) (i 1)

/-- The block index maps over the grid: the node windows and the output window sit at row block `t`, column block 0;
    the weight and bias windows at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Window 0's block at point `t` is rows `5000·t … 5000·t + 4999` of its array. -/
theorem rows1_0 (c : Dev nD) (t : Fin cfg1.N) (p : Fin 5000) (k : Fin 128) (r : Fin 50000)
    (hr : r.val = t.val * 5000 + p.val) :
    (iblk1 V c 0 t : Vec Ideal S5000x128 .f32) (ix2 p k) = (V c main_v59 : S50000x128.Idx → EReal) (ix2 r k) := by
  obtain ⟨e0, e1, e2, e3, e4, e5, -⟩ := idx1 t
  show (V c main_v59 : S50000x128.Idx → EReal) (((cfg1.win 0).blk t).view.emb (ix2 p k)) = _
  refine congrArg (V c main_v59 : S50000x128.Idx → EReal) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Window 1's block at point `t` is rows `5000·t … 5000·t + 4999` of its array. -/
theorem rows1_1 (c : Dev nD) (t : Fin cfg1.N) (p : Fin 5000) (k : Fin 128) (r : Fin 50000)
    (hr : r.val = t.val * 5000 + p.val) :
    (iblk1 V c 1 t : Vec Ideal S5000x128 .f32) (ix2 p k) = (V c main_v78 : S50000x128.Idx → EReal) (ix2 r k) := by
  obtain ⟨e0, e1, e2, e3, e4, e5, -⟩ := idx1 t
  show (V c main_v78 : S50000x128.Idx → EReal) (((cfg1.win 1).blk t).view.emb (ix2 p k)) = _
  refine congrArg (V c main_v78 : S50000x128.Idx → EReal) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- Window 2's block at point `t` is rows `5000·t … 5000·t + 4999` of its array. -/
theorem rows1_2 (c : Dev nD) (t : Fin cfg1.N) (p : Fin 5000) (k : Fin 128) (r : Fin 50000)
    (hr : r.val = t.val * 5000 + p.val) :
    (iblk1 V c 2 t : Vec Ideal S5000x128 .f32) (ix2 p k) = (V c main_v97 : S50000x128.Idx → EReal) (ix2 r k) := by
  obtain ⟨e0, e1, e2, e3, e4, e5, -⟩ := idx1 t
  show (V c main_v97 : S50000x128.Idx → EReal) (((cfg1.win 2).blk t).view.emb (ix2 p k)) = _
  refine congrArg (V c main_v97 : S50000x128.Idx → EReal) (funext fun a => Fin.ext ?_)
  match a with
  | ⟨0, _⟩ => show win1_2.index t (0 : Fin 2) * 5000 + 1 * p.val = r.val; omega
  | ⟨1, _⟩ => show win1_2.index t (1 : Fin 2) * 128 + 1 * k.val = k.val; omega

/-- Window 3's block at every point is the whole of its weight matrix. -/
theorem whole1_3 (c : Dev nD) (t : Fin cfg1.N) (x y : Fin 128) :
    (iblk1 V c 3 t : Vec Ideal S128x128 .f32) (ix2 x y) = (V c main_v99 : S128x128.Idx → EReal) (ix2 x y) := by
  obtain ⟨-, -, -, -, -, -, e6, e7, e8, e9, e10, e11, -⟩ := idx1 t
  show (V c main_v99 : S128x128.Idx → EReal) (((cfg1.win 3).blk t).view.emb (ix2 x y)) = _
  refine congrArg (V c main_v99 : S128x128.Idx → EReal) (funext fun a => Fin.ext ?_)
  match a with
  | ⟨0, _⟩ => show win1_3.index t (0 : Fin 2) * 128 + 1 * x.val = x.val; omega
  | ⟨1, _⟩ => show win1_3.index t (1 : Fin 2) * 128 + 1 * y.val = y.val; omega

/-- Window 4's block at every point is the whole of its weight matrix. -/
theorem whole1_4 (c : Dev nD) (t : Fin cfg1.N) (x y : Fin 128) :
    (iblk1 V c 4 t : Vec Ideal S128x128 .f32) (ix2 x y) = (V c main_v101 : S128x128.Idx → EReal) (ix2 x y) := by
  obtain ⟨-, -, -, -, -, -, e6, e7, e8, e9, e10, e11, -⟩ := idx1 t
  show (V c main_v101 : S128x128.Idx → EReal) (((cfg1.win 4).blk t).view.emb (ix2 x y)) = _
  refine congrArg (V c main_v101 : S128x128.Idx → EReal) (funext fun a => Fin.ext ?_)
  match a with
  | ⟨0, _⟩ => show win1_4.index t (0 : Fin 2) * 128 + 1 * x.val = x.val; omega
  | ⟨1, _⟩ => show win1_4.index t (1 : Fin 2) * 128 + 1 * y.val = y.val; omega

/-- Window 5's block at every point is the whole of its weight matrix. -/
theorem whole1_5 (c : Dev nD) (t : Fin cfg1.N) (x y : Fin 128) :
    (iblk1 V c 5 t : Vec Ideal S128x128 .f32) (ix2 x y) = (V c main_v103 : S128x128.Idx → EReal) (ix2 x y) := by
  obtain ⟨-, -, -, -, -, -, e6, e7, e8, e9, e10, e11, -⟩ := idx1 t
  show (V c main_v103 : S128x128.Idx → EReal) (((cfg1.win 5).blk t).view.emb (ix2 x y)) = _
  refine congrArg (V c main_v103 : S128x128.Idx → EReal) (funext fun a => Fin.ext ?_)
  match a with
  | ⟨0, _⟩ => show win1_5.index t (0 : Fin 2) * 128 + 1 * x.val = x.val; omega
  | ⟨1, _⟩ => show win1_5.index t (1 : Fin 2) * 128 + 1 * y.val = y.val; omega

/-- Window 6's block at every point is the whole bias row. -/
theorem whole1_6 (c : Dev nD) (t : Fin cfg1.N) (y : Fin 128) :
    (iblk1 V c 6 t : Vec Ideal S1x128 .f32) (ix2 (0 : Fin 1) y) = (V c main_v104 : S1x128.Idx → EReal) (ix2 (0 : Fin 1) y) := by
  obtain ⟨-, -, -, -, -, -, -, -, -, -, -, -, e12, e13, -⟩ := idx1 t
  show (V c main_v104 : S1x128.Idx → EReal) (((cfg1.win 6).blk t).view.emb (ix2 (0 : Fin 1) y)) = _
  refine congrArg (V c main_v104 : S1x128.Idx → EReal) (funext fun a => Fin.ext ?_)
  match a with
  | ⟨0, _⟩ => show win1_6.index t (0 : Fin 2) * 1 + 1 * 0 = 0; omega
  | ⟨1, _⟩ => show win1_6.index t (1 : Fin 2) * 128 + 1 * y.val = y.val; omega

/-- What point `t` writes back is block `t` of `arr1`. -/
theorem flushed1_eq (c : Dev nD) (t : Fin cfg1.N) :
    (dat1 V c).flushed 7 t = ((cfg1.win 7).blk t).view.read (Elt Ideal) (arr1 V c) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  funext j
  have hp : (j 0).val < 5000 := (j 0).isLt
  have hq : (j 1).val < 128 := (j 1).isLt
  have ht : t.val < 10 := lt_of_lt_of_eq t.isLt N_1
  have hr : t.val * 5000 + (j 0).val < 50000 := by omega
  obtain ⟨-, -, -, -, -, -, -, -, -, -, -, -, -, -, e14, e15⟩ := idx1 t
  have h0 : (((cfg1.win 7).blk t).view.emb j) 0 = (⟨t.val * 5000 + (j 0).val, hr⟩ : Fin 50000) :=
    Fin.ext (by show win1_7.index t (0 : Fin 2) * 5000 + 1 * (j 0).val = t.val * 5000 + (j 0).val; omega)
  have h1 : (((cfg1.win 7).blk t).view.emb j) 1 = (⟨(j 1).val, hq⟩ : Fin 128) :=
    Fin.ext (by show win1_7.index t (1 : Fin 2) * 128 + 1 * (j 1).val = (j 1).val; omega)
  have hj : ((cfg1.win 7).xinj (grid1.coords t) j : S5000x128.Idx)
      = ix2 (⟨(j 0).val, hp⟩ : Fin 5000) (⟨(j 1).val, hq⟩ : Fin 128) :=
    funext fun a => by match a with | ⟨0, _⟩ => rfl | ⟨1, _⟩ => rfl
  refine (congrArg (k1_pay1 (F := Ideal) (iblk1 V c 0 t) (iblk1 V c 1 t) (iblk1 V c 2 t) (iblk1 V c 3 t)
    (iblk1 V c 4 t) (iblk1 V c 5 t) (iblk1 V c 6 t)) hj).trans ((block1_comb (iblk1 V c 0 t) (iblk1 V c 1 t) (iblk1 V c 2 t) (iblk1 V c 3 t) (iblk1 V c 4 t)
        (iblk1 V c 5 t) (iblk1 V c 6 t) (V c main_v59) (V c main_v78) (V c main_v97) (V c main_v99) (V c main_v101) (V c main_v103) (V c main_v104)
        ⟨(j 0).val, hp⟩ ⟨(j 1).val, hq⟩ ⟨t.val * 5000 + (j 0).val, hr⟩
        (fun k => rows1_0 V c t _ k _ rfl) (fun k => rows1_1 V c t _ k _ rfl) (fun k => rows1_2 V c t _ k _ rfl)
        (fun k => whole1_3 V c t k _) (fun k => whole1_4 V c t k _) (fun k => whole1_5 V c t k _)
        (whole1_6 V c t _)).trans ?_)
  show _ = arr1 V c (((cfg1.win 7).blk t).view.emb j)
  exact (congrArg₂ (Cert.Cheb.comb (fun a b => (V c main_v59 : S50000x128.Idx → EReal) (ix2 a b))
      (fun a b => (V c main_v78 : S50000x128.Idx → EReal) (ix2 a b))
      (fun a b => (V c main_v97 : S50000x128.Idx → EReal) (ix2 a b))
      (fun a b => (V c main_v99 : S128x128.Idx → EReal) (ix2 a b))
      (fun a b => (V c main_v101 : S128x128.Idx → EReal) (ix2 a b))
      (fun a b => (V c main_v103 : S128x128.Idx → EReal) (ix2 a b))
      (fun b => (V c main_v104 : S1x128.Idx → EReal) (ix2 (0 : Fin 1) b))) h0 h1).symm

/-- An index of the output array is in point `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v105).slice (win1_7.rect t)).set ↔ _
  rw [View.set_slice_whole, Rect.mem_set_unit]
  exact Iff.rfl

/-- Every index of the output array is in some point's block: row `r` is in the block of point `r / 5000`. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, htv⟩ : ∃ t : Fin cfg1.N, t.val = (i 0).val / 5000 :=
    ⟨⟨(i 0).val / 5000, lt_of_lt_of_eq (show (i 0).val / 5000 < 10 by omega) N_1.symm⟩, rfl⟩
  obtain ⟨-, -, -, -, -, -, -, -, -, -, -, -, -, -, e14, e15⟩ := idx1 t
  refine ⟨t, flush1_7 t, ?_⟩
  rw [mem_blk1]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

/-- The output array after region 1 is `arr1` of the arrays the region finds. -/
theorem final1 (c : Dev nD) : (dat1 V c).arrAt 7 cfg1.N = arr1 V c :=
  (dat1 V c).arrAt_eq_of_cover 7 (arr1 V c) (fun t _ => flushed1_eq V c t) cover1

/-- The output array after region 1, read at row `i` and column `k`. -/
theorem value1 (c : Dev nD) (i : Fin 50000) (k : Fin 128) :
    ((dat1 (F := Ideal) V c).arrAt 7 cfg1.N : S50000x128.Idx → EReal) (ix2 i k)
      = Cert.Cheb.comb (fun a b => (V c main_v59 : S50000x128.Idx → EReal) (ix2 a b))
      (fun a b => (V c main_v78 : S50000x128.Idx → EReal) (ix2 a b))
      (fun a b => (V c main_v97 : S50000x128.Idx → EReal) (ix2 a b))
      (fun a b => (V c main_v99 : S128x128.Idx → EReal) (ix2 a b))
      (fun a b => (V c main_v101 : S128x128.Idx → EReal) (ix2 a b))
      (fun a b => (V c main_v103 : S128x128.Idx → EReal) (ix2 a b))
      (fun b => (V c main_v104 : S1x128.Idx → EReal) (ix2 (0 : Fin 1) b)) i k :=
  congrFun (final1 V c) (ix2 i k)

end Cert.KernelIdeal.RegionValue

end
-- ==== Proof.Region2.lean ====
/-
  Region 2: the array the region writes, as one function of the arrays it finds.

  The region runs the dense step on ten row blocks of 5000 rows. At point `t` the three node windows hold rows
  `5000·t … 5000·t + 4999` of their arrays, the three weight windows and the bias window hold their whole arrays, and the
  block written back is the dense step of those blocks; it lands on rows `5000·t … 5000·t + 4999` of the output array.
  Row `r` is covered by point `r / 5000`, so the ten blocks tile the array and the array ends holding, at `(r, q)`,
  the dense step `Cert.Cheb.comb` of the arrays at `(r, q)`.
-/
import proofs.«177079_j59863254171804_2_alg».proof.Proof.Gen.KernelIdeal.Frame
import proofs.«177079_j59863254171804_2_alg».proof.Proof.RegionBody
import Idealize.ShloMosaic.Lib.Pipeline.Value

set_option maxRecDepth 16384

noncomputable section

namespace Cert.KernelIdeal.RegionValue

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The array region 2 leaves, index by index: the dense step of the arrays the region finds. -/
def arr2 (c : Dev nD) : S50000x128.Idx → EReal := fun i =>
  Cert.Cheb.comb (fun a b => (V c main_v105 : S50000x128.Idx → EReal) (ix2 a b))
      (fun a b => (V c main_v124 : S50000x128.Idx → EReal) (ix2 a b))
      (fun a b => (V c main_v143 : S50000x128.Idx → EReal) (ix2 a b))
      (fun a b => (V c main_v145 : S128x128.Idx → EReal) (ix2 a b))
      (fun a b => (V c main_v147 : S128x128.Idx → EReal) (ix2 a b))
      (fun a b => (V c main_v149 : S128x128.Idx → EReal) (ix2 a b))
      (fun b => (V c main_v150 : S1x128.Idx → EReal) (ix2 (0 : Fin 1) b)) (i 0) (i 1)

/-- The block index maps over the grid: the node windows and the output window sit at row block `t`, column block 0;
    the weight and bias windows at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Window 0's block at point `t` is rows `5000·t … 5000·t + 4999` of its array. -/
theorem rows2_0 (c : Dev nD) (t : Fin cfg2.N) (p : Fin 5000) (k : Fin 128) (r : Fin 50000)
    (hr : r.val = t.val * 5000 + p.val) :
    (iblk2 V c 0 t : Vec Ideal S5000x128 .f32) (ix2 p k) = (V c main_v105 : S50000x128.Idx → EReal) (ix2 r k) := by
  obtain ⟨e0, e1, e2, e3, e4, e5, -⟩ := idx2 t
  show (V c main_v105 : S50000x128.Idx → EReal) (((cfg2.win 0).blk t).view.emb (ix2 p k)) = _
  refine congrArg (V c main_v105 : S50000x128.Idx → EReal) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Window 1's block at point `t` is rows `5000·t … 5000·t + 4999` of its array. -/
theorem rows2_1 (c : Dev nD) (t : Fin cfg2.N) (p : Fin 5000) (k : Fin 128) (r : Fin 50000)
    (hr : r.val = t.val * 5000 + p.val) :
    (iblk2 V c 1 t : Vec Ideal S5000x128 .f32) (ix2 p k) = (V c main_v124 : S50000x128.Idx → EReal) (ix2 r k) := by
  obtain ⟨e0, e1, e2, e3, e4, e5, -⟩ := idx2 t
  show (V c main_v124 : S50000x128.Idx → EReal) (((cfg2.win 1).blk t).view.emb (ix2 p k)) = _
  refine congrArg (V c main_v124 : S50000x128.Idx → EReal) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Window 2's block at point `t` is rows `5000·t … 5000·t + 4999` of its array. -/
theorem rows2_2 (c : Dev nD) (t : Fin cfg2.N) (p : Fin 5000) (k : Fin 128) (r : Fin 50000)
    (hr : r.val = t.val * 5000 + p.val) :
    (iblk2 V c 2 t : Vec Ideal S5000x128 .f32) (ix2 p k) = (V c main_v143 : S50000x128.Idx → EReal) (ix2 r k) := by
  obtain ⟨e0, e1, e2, e3, e4, e5, -⟩ := idx2 t
  show (V c main_v143 : S50000x128.Idx → EReal) (((cfg2.win 2).blk t).view.emb (ix2 p k)) = _
  refine congrArg (V c main_v143 : S50000x128.Idx → EReal) (funext fun a => Fin.ext ?_)
  match a with
  | ⟨0, _⟩ => show win2_2.index t (0 : Fin 2) * 5000 + 1 * p.val = r.val; omega
  | ⟨1, _⟩ => show win2_2.index t (1 : Fin 2) * 128 + 1 * k.val = k.val; omega

/-- Window 3's block at every point is the whole of its weight matrix. -/
theorem whole2_3 (c : Dev nD) (t : Fin cfg2.N) (x y : Fin 128) :
    (iblk2 V c 3 t : Vec Ideal S128x128 .f32) (ix2 x y) = (V c main_v145 : S128x128.Idx → EReal) (ix2 x y) := by
  obtain ⟨-, -, -, -, -, -, e6, e7, e8, e9, e10, e11, -⟩ := idx2 t
  show (V c main_v145 : S128x128.Idx → EReal) (((cfg2.win 3).blk t).view.emb (ix2 x y)) = _
  refine congrArg (V c main_v145 : S128x128.Idx → EReal) (funext fun a => Fin.ext ?_)
  match a with
  | ⟨0, _⟩ => show win2_3.index t (0 : Fin 2) * 128 + 1 * x.val = x.val; omega
  | ⟨1, _⟩ => show win2_3.index t (1 : Fin 2) * 128 + 1 * y.val = y.val; omega

/-- Window 4's block at every point is the whole of its weight matrix. -/
theorem whole2_4 (c : Dev nD) (t : Fin cfg2.N) (x y : Fin 128) :
    (iblk2 V c 4 t : Vec Ideal S128x128 .f32) (ix2 x y) = (V c main_v147 : S128x128.Idx → EReal) (ix2 x y) := by
  obtain ⟨-, -, -, -, -, -, e6, e7, e8, e9, e10, e11, -⟩ := idx2 t
  show (V c main_v147 : S128x128.Idx → EReal) (((cfg2.win 4).blk t).view.emb (ix2 x y)) = _
  refine congrArg (V c main_v147 : S128x128.Idx → EReal) (funext fun a => Fin.ext ?_)
  match a with
  | ⟨0, _⟩ => show win2_4.index t (0 : Fin 2) * 128 + 1 * x.val = x.val; omega
  | ⟨1, _⟩ => show win2_4.index t (1 : Fin 2) * 128 + 1 * y.val = y.val; omega

/-- Window 5's block at every point is the whole of its weight matrix. -/
theorem whole2_5 (c : Dev nD) (t : Fin cfg2.N) (x y : Fin 128) :
    (iblk2 V c 5 t : Vec Ideal S128x128 .f32) (ix2 x y) = (V c main_v149 : S128x128.Idx → EReal) (ix2 x y) := by
  obtain ⟨-, -, -, -, -, -, e6, e7, e8, e9, e10, e11, -⟩ := idx2 t
  show (V c main_v149 : S128x128.Idx → EReal) (((cfg2.win 5).blk t).view.emb (ix2 x y)) = _
  refine congrArg (V c main_v149 : S128x128.Idx → EReal) (funext fun a => Fin.ext ?_)
  match a with
  | ⟨0, _⟩ => show win2_5.index t (0 : Fin 2) * 128 + 1 * x.val = x.val; omega
  | ⟨1, _⟩ => show win2_5.index t (1 : Fin 2) * 128 + 1 * y.val = y.val; omega

/-- Window 6's block at every point is the whole bias row. -/
theorem whole2_6 (c : Dev nD) (t : Fin cfg2.N) (y : Fin 128) :
    (iblk2 V c 6 t : Vec Ideal S1x128 .f32) (ix2 (0 : Fin 1) y) = (V c main_v150 : S1x128.Idx → EReal) (ix2 (0 : Fin 1) y) := by
  obtain ⟨-, -, -, -, -, -, -, -, -, -, -, -, e12, e13, -⟩ := idx2 t
  show (V c main_v150 : S1x128.Idx → EReal) (((cfg2.win 6).blk t).view.emb (ix2 (0 : Fin 1) y)) = _
  refine congrArg (V c main_v150 : S1x128.Idx → EReal) (funext fun a => Fin.ext ?_)
  match a with
  | ⟨0, _⟩ => show win2_6.index t (0 : Fin 2) * 1 + 1 * 0 = 0; omega
  | ⟨1, _⟩ => show win2_6.index t (1 : Fin 2) * 128 + 1 * y.val = y.val; omega

/-- What point `t` writes back is block `t` of `arr2`. -/
theorem flushed2_eq (c : Dev nD) (t : Fin cfg2.N) :
    (dat2 V c).flushed 7 t = ((cfg2.win 7).blk t).view.read (Elt Ideal) (arr2 V c) := by
  show (cfg2.win 7).cut (grid2.coords t) ((dat2 V c).after 7 t) = _
  rw [after2_7]
  unfold out2_7
  rw [View.canon_unit_zero zero_offsets]
  simp only [View.ld_unit_zero (S := S5000x128) zero_offsets, View.ld_unit_zero (S := S128x128) zero_offsets,
    View.ld_unit_zero (S := S1x128) zero_offsets]
  funext j
  have hp : (j 0).val < 5000 := (j 0).isLt
  have hq : (j 1).val < 128 := (j 1).isLt
  have ht : t.val < 10 := lt_of_lt_of_eq t.isLt N_2
  have hr : t.val * 5000 + (j 0).val < 50000 := by omega
  obtain ⟨-, -, -, -, -, -, -, -, -, -, -, -, -, -, e14, e15⟩ := idx2 t
  have h0 : (((cfg2.win 7).blk t).view.emb j) 0 = (⟨t.val * 5000 + (j 0).val, hr⟩ : Fin 50000) :=
    Fin.ext (by show win2_7.index t (0 : Fin 2) * 5000 + 1 * (j 0).val = t.val * 5000 + (j 0).val; omega)
  have h1 : (((cfg2.win 7).blk t).view.emb j) 1 = (⟨(j 1).val, hq⟩ : Fin 128) :=
    Fin.ext (by show win2_7.index t (1 : Fin 2) * 128 + 1 * (j 1).val = (j 1).val; omega)
  have hj : ((cfg2.win 7).xinj (grid2.coords t) j : S5000x128.Idx)
      = ix2 (⟨(j 0).val, hp⟩ : Fin 5000) (⟨(j 1).val, hq⟩ : Fin 128) :=
    funext fun a => by match a with | ⟨0, _⟩ => rfl | ⟨1, _⟩ => rfl
  refine (congrArg (k2_pay1 (F := Ideal) (iblk2 V c 0 t) (iblk2 V c 1 t) (iblk2 V c 2 t) (iblk2 V c 3 t)
    (iblk2 V c 4 t) (iblk2 V c 5 t) (iblk2 V c 6 t)) hj).trans ((block2_comb (iblk2 V c 0 t) (iblk2 V c 1 t) (iblk2 V c 2 t) (iblk2 V c 3 t) (iblk2 V c 4 t)
        (iblk2 V c 5 t) (iblk2 V c 6 t) (V c main_v105) (V c main_v124) (V c main_v143) (V c main_v145) (V c main_v147) (V c main_v149) (V c main_v150)
        ⟨(j 0).val, hp⟩ ⟨(j 1).val, hq⟩ ⟨t.val * 5000 + (j 0).val, hr⟩
        (fun k => rows2_0 V c t _ k _ rfl) (fun k => rows2_1 V c t _ k _ rfl) (fun k => rows2_2 V c t _ k _ rfl)
        (fun k => whole2_3 V c t k _) (fun k => whole2_4 V c t k _) (fun k => whole2_5 V c t k _)
        (whole2_6 V c t _)).trans ?_)
  show _ = arr2 V c (((cfg2.win 7).blk t).view.emb j)
  exact (congrArg₂ (Cert.Cheb.comb (fun a b => (V c main_v105 : S50000x128.Idx → EReal) (ix2 a b))
      (fun a b => (V c main_v124 : S50000x128.Idx → EReal) (ix2 a b))
      (fun a b => (V c main_v143 : S50000x128.Idx → EReal) (ix2 a b))
      (fun a b => (V c main_v145 : S128x128.Idx → EReal) (ix2 a b))
      (fun a b => (V c main_v147 : S128x128.Idx → EReal) (ix2 a b))
      (fun a b => (V c main_v149 : S128x128.Idx → EReal) (ix2 a b))
      (fun b => (V c main_v150 : S1x128.Idx → EReal) (ix2 (0 : Fin 1) b))) h0 h1).symm

/-- An index of the output array is in point `t`'s block iff each coordinate is in the block's range on its axis. -/
theorem mem_blk2 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v151).slice (win2_7.rect t)).set ↔ _
  rw [View.set_slice_whole, Rect.mem_set_unit]
  exact Iff.rfl

/-- Every index of the output array is in some point's block: row `r` is in the block of point `r / 5000`. -/
theorem cover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, htv⟩ : ∃ t : Fin cfg2.N, t.val = (i 0).val / 5000 :=
    ⟨⟨(i 0).val / 5000, lt_of_lt_of_eq (show (i 0).val / 5000 < 10 by omega) N_2.symm⟩, rfl⟩
  obtain ⟨-, -, -, -, -, -, -, -, -, -, -, -, -, -, e14, e15⟩ := idx2 t
  refine ⟨t, flush2_7 t, ?_⟩
  rw [mem_blk2]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 128 ≤ (i 1).val ∧ (i 1).val < win2_7.index t (1 : Fin 2) * 128 + 128
    omega

/-- The output array after region 2 is `arr2` of the arrays the region finds. -/
theorem final2 (c : Dev nD) : (dat2 V c).arrAt 7 cfg2.N = arr2 V c :=
  (dat2 V c).arrAt_eq_of_cover 7 (arr2 V c) (fun t _ => flushed2_eq V c t) cover2

/-- The output array after region 2, read at row `i` and column `k`. -/
theorem value2 (c : Dev nD) (i : Fin 50000) (k : Fin 128) :
    ((dat2 (F := Ideal) V c).arrAt 7 cfg2.N : S50000x128.Idx → EReal) (ix2 i k)
      = Cert.Cheb.comb (fun a b => (V c main_v105 : S50000x128.Idx → EReal) (ix2 a b))
      (fun a b => (V c main_v124 : S50000x128.Idx → EReal) (ix2 a b))
      (fun a b => (V c main_v143 : S50000x128.Idx → EReal) (ix2 a b))
      (fun a b => (V c main_v145 : S128x128.Idx → EReal) (ix2 a b))
      (fun a b => (V c main_v147 : S128x128.Idx → EReal) (ix2 a b))
      (fun a b => (V c main_v149 : S128x128.Idx → EReal) (ix2 a b))
      (fun b => (V c main_v150 : S1x128.Idx → EReal) (ix2 (0 : Fin 1) b)) i k :=
  congrFun (final2 V c) (ix2 i k)

end Cert.KernelIdeal.RegionValue

end
-- ==== Proof.KValue.lean ====
/-
  The kernel program's three layer outputs and its result, in the specification's terms.

  A region's output array is, index by index, the dense step `comb` of the arrays its windows read. At a region's
  entry those arrays are the previous layer's output `h`, the scaled Laplacian (node-scaled arrangement) applied to it
  once and twice, the layer's three weight matrices and its bias row. So each layer's output is `layerK` of the
  previous one, and the result is the tail of the third.
-/
import proofs.«177079_j59863254171804_2_alg».proof.Proof.KUnwind
import proofs.«177079_j59863254171804_2_alg».proof.Proof.KRead
import proofs.«177079_j59863254171804_2_alg».proof.Proof.Region0
import proofs.«177079_j59863254171804_2_alg».proof.Proof.Region1
import proofs.«177079_j59863254171804_2_alg».proof.Proof.Region2

set_option maxRecDepth 16384

noncomputable section

namespace Cert.KernelIdeal.KValue

open Cert.KernelIdeal Cert.KernelIdeal.Gen Cert.KernelIdeal.Terms Cert.KernelIdeal.Unwind Cert.KernelIdeal.TermsRead
open Cert.KernelIdeal.RegionValue
open Idealize.ShloMosaic Idealize.ShloMosaic.TcCoe Idealize.SL.Sem Idealize.ShloMosaic.ValueIdx Cert.Cheb

/-- The dense step of arrays that are a layer's input, its two Laplacian applications, its weights and its bias row is
    the layer in the node-scaled arrangement. -/
theorem layer_value (A0 A1 A2 : FVec Ideal S50000x128 .f32) (B0 B1 B2 : FVec Ideal S128x128 .f32) (Bb : FVec Ideal S1x128 .f32)
    (d : FVec Ideal S50000 .f32) (s t : IVec S600000 32) (h : FVec Ideal S50000x128 .f32) (W : FVec Ideal S3x128x128 .f32) (b : FVec Ideal S128 .f32)
    (e0 : A0 = h) (e1 : A1 = lhatT (F := Ideal) d s t h) (e2 : A2 = lhatT (F := Ideal) d s t (lhatT (F := Ideal) d s t h))
    (f0 : B0 = w0T (F := Ideal) W) (f1 : B1 = w1T (F := Ideal) W) (f2 : B2 = w2T (F := Ideal) W) (fb : Bb = biasT (F := Ideal) b)
    (i : Fin 50000) (k : Fin 128) :
    comb (fun a b' => A0 (ix2 a b')) (fun a b' => A1 (ix2 a b')) (fun a b' => A2 (ix2 a b'))
        (fun a b' => B0 (ix2 a b')) (fun a b' => B1 (ix2 a b')) (fun a b' => B2 (ix2 a b')) (fun b' => Bb (ix2 (0 : Fin 1) b')) i k
      = layerK (fun a => d (ix1 a)) (fun e => s (ix1 e)) (fun e => t (ix1 e)) (fun a b' => h (ix2 a b'))
          (fun a b' => W (ix3 0 a b')) (fun a b' => W (ix3 1 a b')) (fun a b' => W (ix3 2 a b')) (fun b' => b (ix1 b')) i k := by
  subst e0 e1 e2 f0 f1 f2 fb
  have l1 : (fun a b' => lhatT (F := Ideal) d s t A0 (ix2 a b'))
      = LK (fun a => d (ix1 a)) (fun e => s (ix1 e)) (fun e => t (ix1 e)) (fun a b' => A0 (ix2 a b')) :=
    funext fun a => funext fun b' => lhatT_apply d s t A0 a b'
  have l2 : (fun a b' => lhatT (F := Ideal) d s t (lhatT (F := Ideal) d s t A0) (ix2 a b'))
      = LK (fun a => d (ix1 a)) (fun e => s (ix1 e)) (fun e => t (ix1 e))
          (LK (fun a => d (ix1 a)) (fun e => s (ix1 e)) (fun e => t (ix1 e)) (fun a b' => A0 (ix2 a b'))) := by
    rw [← l1]
    exact funext fun a => funext fun b' => lhatT_apply d s t (lhatT (F := Ideal) d s t A0) a b'
  have g0 : (fun a b' => w0T (F := Ideal) W (ix2 a b')) = fun a b' => W (ix3 0 a b') :=
    funext fun a => funext fun b' => w0T_apply W a b'
  have g1 : (fun a b' => w1T (F := Ideal) W (ix2 a b')) = fun a b' => W (ix3 1 a b') :=
    funext fun a => funext fun b' => w1T_apply W a b'
  have g2 : (fun a b' => w2T (F := Ideal) W (ix2 a b')) = fun a b' => W (ix3 2 a b') :=
    funext fun a => funext fun b' => w2T_apply W a b'
  have gb : (fun b' => biasT (F := Ideal) b (ix2 (0 : Fin 1) b')) = fun b' => b (ix1 b') :=
    funext fun b' => biasT_apply b b'
  rw [l1, l2, g0, g1, g2, gb]
  rfl

variable (m : (ℓ : Loc nD τ sig) → Buf (Elt Ideal) ℓ) (ρ : Dev nD → PrngReg) (c : Dev nD)

/-- The first layer's output at an index. -/
theorem h1_apply (i : Fin 50000) (k : Fin 128) :
    (W4 m ρ c (Proc.devRef .tc main_v59) : FVec Ideal S50000x128 .f32) (ix2 i k)
      = layerK (fun a => dinvA m c (ix1 a)) (fun e => srcA m c (ix1 e)) (fun e => dstA m c (ix1 e))
          (fun a b' => (m ((c : Thread nD τ).loc main_arg0) : FVec Ideal S50000x128 .f32) (ix2 a b'))
          (fun a b' => (m ((c : Thread nD τ).loc main_arg3) : FVec Ideal S3x128x128 .f32) (ix3 0 a b'))
          (fun a b' => (m ((c : Thread nD τ).loc main_arg3) : FVec Ideal S3x128x128 .f32) (ix3 1 a b'))
          (fun a b' => (m ((c : Thread nD τ).loc main_arg3) : FVec Ideal S3x128x128 .f32) (ix3 2 a b'))
          (fun b' => (m ((c : Thread nD τ).loc main_arg4) : FVec Ideal S128 .f32) (ix1 b')) i k :=
  (congrFun (W4_v59 m ρ c) (ix2 i k)).trans ((value0 (V3 m ρ) c i k).trans
    (layer_value _ _ _ _ _ _ _ _ _ _ _ _ _ (W3_arg0 m ρ c) (W3_v32 m ρ c) (W3_v51 m ρ c)
      (W3_v53 m ρ c) (W3_v55 m ρ c) (W3_v57 m ρ c) (W3_v58 m ρ c) i k))

/-- The second layer's output at an index, over the first's. -/
theorem h2_apply (i : Fin 50000) (k : Fin 128) :
    (W6 m ρ c (Proc.devRef .tc main_v105) : FVec Ideal S50000x128 .f32) (ix2 i k)
      = layerK (fun a => dinvA m c (ix1 a)) (fun e => srcA m c (ix1 e)) (fun e => dstA m c (ix1 e))
          (fun a b' => (W4 m ρ c (Proc.devRef .tc main_v59) : FVec Ideal S50000x128 .f32) (ix2 a b'))
          (fun a b' => (m ((c : Thread nD τ).loc main_arg5) : FVec Ideal S3x128x128 .f32) (ix3 0 a b'))
          (fun a b' => (m ((c : Thread nD τ).loc main_arg5) : FVec Ideal S3x128x128 .f32) (ix3 1 a b'))
          (fun a b' => (m ((c : Thread nD τ).loc main_arg5) : FVec Ideal S3x128x128 .f32) (ix3 2 a b'))
          (fun b' => (m ((c : Thread nD τ).loc main_arg6) : FVec Ideal S128 .f32) (ix1 b')) i k :=
  (congrFun (W6_v105 m ρ c) (ix2 i k)).trans ((value1 (V5 m ρ) c i k).trans
    (layer_value _ _ _ _ _ _ _ _ _ _ _ _ _ (W5_v59 m ρ c) (W5_v78 m ρ c) (W5_v97 m ρ c)
      (W5_v99 m ρ c) (W5_v101 m ρ c) (W5_v103 m ρ c) (W5_v104 m ρ c) i k))

/-- The third layer's output at an index, over the second's. -/
theorem h3_apply (i : Fin 50000) (k : Fin 128) :
    (W8 m ρ c (Proc.devRef .tc main_v151) : FVec Ideal S50000x128 .f32) (ix2 i k)
      = layerK (fun a => dinvA m c (ix1 a)) (fun e => srcA m c (ix1 e)) (fun e => dstA m c (ix1 e))
          (fun a b' => (W6 m ρ c (Proc.devRef .tc main_v105) : FVec Ideal S50000x128 .f32) (ix2 a b'))
          (fun a b' => (m ((c : Thread nD τ).loc main_arg7) : FVec Ideal S3x128x128 .f32) (ix3 0 a b'))
          (fun a b' => (m ((c : Thread nD τ).loc main_arg7) : FVec Ideal S3x128x128 .f32) (ix3 1 a b'))
          (fun a b' => (m ((c : Thread nD τ).loc main_arg7) : FVec Ideal S3x128x128 .f32) (ix3 2 a b'))
          (fun b' => (m ((c : Thread nD τ).loc main_arg8) : FVec Ideal S128 .f32) (ix1 b')) i k :=
  (congrFun (W8_v151 m ρ c) (ix2 i k)).trans ((value2 (V7 m ρ) c i k).trans
    (layer_value _ _ _ _ _ _ _ _ _ _ _ _ _ (W7_v105 m ρ c) (W7_v124 m ρ c) (W7_v143 m ρ c)
      (W7_v145 m ρ c) (W7_v147 m ρ c) (W7_v149 m ρ c) (W7_v150 m ρ c) i k))

end Cert.KernelIdeal.KValue

end
-- ==== Proof.RefOpLemmas.lean ====
/-
  The reference's operations, read at an index written by coordinates, over VARIABLES: the normalised row numbers,
  the per-edge weight, one application of the edge-weighted scaled Laplacian (gather the rows at the edges' sources,
  weight them, scatter-add them on the rows the edges' targets name), the three slices of a layer's weights, the
  product of a node array with a weight matrix, the bias, the node factor, and one whole layer, which is
  `Cert.Cheb.layerR` of the readings of its arguments. Each definition is the program's own operation term on the
  extended reals; each lemma says what it holds at one index.
-/
import proofs.«177079_j59863254171804_2_alg».proof.Proof.Gen.ReferenceIdeal
import proofs.«177079_j59863254171804_2_alg».proof.Proof.Spec
import proofs.«177079_j59863254171804_2_alg».proof.Proof.LibRowScatterSum
import Idealize.ShloMosaic.Lib.Pipeline.Value
import Idealize.ShloMosaic.Lib.ValueIdx
import Idealize.ShloMosaic.PureOps.Ideal.Laws

noncomputable section

namespace Cert.ReferenceIdeal.RefOps

open Cert.ReferenceIdeal Cert.ReferenceIdeal.Gen Idealize.ShloMosaic Idealize.ShloMosaic.TcCoe Idealize.SL.Sem Idealize.ShloMosaic.StableHlo
open Idealize.ShloMosaic.ValueIdx Cert.Lib.RowIndex Cert.Lib.RowScatterSum

/-! ## Row numbers: normalised, and as a column -/

/-- The row numbers counted from the end when negative, as the program computes them:
    `select (s < 0) (s + 50000) s`, entry by entry. -/
def nrmV (s : IVec S600000 32) : IVec S600000 32 :=
  select (cmpi .slt s (broadcastInDim S600000 ![] bcast_S_S600000 (constantI S_ 32 0#32)))
    (addi s (broadcastInDim S600000 ![] bcast_S_S600000 (constantI S_ 32 50000#32))) s

theorem nrmV_apply (s : IVec S600000 32) (e : Fin 600000) :
    nrmV s (ix1 e) = Cert.Cheb.nrm (s (ix1 e)) := by
  have h0 : ∀ (y : IVec S_ 32), broadcastInDim S600000 ![] bcast_S_S600000 y (ix1 e) = y ix0 :=
    fun y => broadcastInDim_apply _ bcast_S_S600000 y (ix1 e) ix0 (fun a => a.elim0)
  show Scalar.select (IntOp.cmpi .slt (s (ix1 e)) (broadcastInDim S600000 ![] bcast_S_S600000 (constantI S_ 32 0#32) (ix1 e)))
      (IntOp.addi (s (ix1 e)) (broadcastInDim S600000 ![] bcast_S_S600000 (constantI S_ 32 50000#32) (ix1 e))) (s (ix1 e)) = _
  rw [h0, h0]
  rfl

/-- A vector of 600000 entries as a column `[600000, 1]`. -/
def colV {α : Type} (s : S600000.Idx → α) : S600000x1.Idx → α :=
  broadcastInDim S600000x1 ![0] bcast_S600000_S600000x1_0 s

theorem colV_apply {α : Type} (s : S600000.Idx → α) (e : Fin 600000) (u : Fin 1) :
    colV s (ix2 e u) = s (ix1 e) :=
  broadcastInDim_apply _ bcast_S600000_S600000x1_0 s (ix2 e u) (ix1 e) (fun a => match a with
    | ⟨0, _⟩ => by show e.val = if (600000 : Nat) = 1 then 0 else e.val; rw [if_neg (by decide)])

/-! ## The per-edge weight -/

theorem gatherVec_rec : gather_S50000_S600000x1_S600000_n_0_n_n_0_1_1
    = vecGatherDims 50000 600000 gather_S50000_S600000x1_S600000_n_0_n_n_0_1_1_wf := rfl

/-- The node factor read at the (normalised, clamped) row numbers `s`. -/
def gatherD (d : FVec Ideal S50000 .f32) (s : IVec S600000 32) : FVec Ideal S600000 .f32 :=
  Host.gather gather_S50000_S600000x1_S600000_n_0_n_n_0_1_1 d (colV (nrmV s))

theorem gatherD_apply (d : FVec Ideal S50000 .f32) (s : IVec S600000 32) (e : Fin 600000) :
    gatherD d s (ix1 e) = d (ix1 (Cert.Cheb.grow (s (ix1 e)))) := by
  unfold gatherD
  rw [gatherVec_rec, vecGather_apply (by decide)]
  refine congrArg d (congrArg ix1 (Fin.ext ?_))
  show min (colV (nrmV s) (ix2 e 0)).toInt.toNat (50000 - 1) = min (Cert.Cheb.nrm (s (ix1 e))).toInt.toNat (50000 - 1)
  rw [colV_apply, nrmV_apply]

/-- The edge weight `-(d[src] * d[dst])`. -/
def ewV (d : FVec Ideal S50000 .f32) (s t : IVec S600000 32) : FVec Ideal S600000 .f32 :=
  Host.negf (mulf (gatherD d s) (gatherD d t))

theorem ewV_apply (d : FVec Ideal S50000 .f32) (s t : IVec S600000 32) (e : Fin 600000) :
    ewV d s t (ix1 e)
      = -(d (ix1 (Cert.Cheb.grow (s (ix1 e)))) * d (ix1 (Cert.Cheb.grow (t (ix1 e))))) := by
  show FloatOps.hostNegf (FloatOps.mulf (gatherD d s (ix1 e)) (gatherD d t (ix1 e))) = _
  rw [Ideal.hostNegf_def, Ideal.negf_def, Ideal.mulf_def, gatherD_apply, gatherD_apply]

/-! ## The scaled Laplacian: gather rows, weight, scatter-add -/

theorem gatherRow_rec : gather_S50000x128_S600000x1_S600000x128_1_0_n_n_0_1_1128
    = rowGatherDims 50000 128 600000 gather_S50000x128_S600000x1_S600000x128_1_0_n_n_0_1_1128_wf := rfl

theorem scatterRow_rec : scatter_S50000x128_S600000x1_S600000x128_1_0_0_1
    = rowScatterDims 50000 128 600000 scatter_S50000x128_S600000x1_S600000x128_1_0_0_1_wf := rfl

/-- A splat of the zero word is zero everywhere. -/
theorem zeros_apply (j : S50000x128.Idx) :
    broadcastInDim S50000x128 ![] bcast_S_S50000x128 (constant (F := Ideal) S_ .f32 0x00000000#32) j = 0 := by
  rw [broadcastInDim_apply _ bcast_S_S50000x128 _ j ix0 (fun a => a.elim0)]
  exact Ideal.ofBits_zero_f32

/-- One application of the edge-weighted Laplacian: the rows of `v` at the edges' sources, each times its edge's
    weight, added up on the rows the edges' targets name. -/
def lhatV (ew : FVec Ideal S600000 .f32) (s t : IVec S600000 32) (v : FVec Ideal S50000x128 .f32) :
    FVec Ideal S50000x128 .f32 :=
  Host.scatterAdd scatter_S50000x128_S600000x1_S600000x128_1_0_0_1
    (broadcastInDim S50000x128 ![] bcast_S_S50000x128 (constant (F := Ideal) S_ .f32 0x00000000#32))
    (colV t)
    (mulf (broadcastInDim S600000x128 ![0, 1] bcast_S600000x1_S600000x128_0_1 (colV ew))
      (Host.gather gather_S50000x128_S600000x1_S600000x128_1_0_n_n_0_1_1128 v (colV (nrmV s))))

theorem keep_apply (ew : FVec Ideal S600000 .f32) (e : Fin 600000) (c : Fin 128) :
    broadcastInDim S600000x128 ![0, 1] bcast_S600000x1_S600000x128_0_1 (colV ew) (ix2 e c) = ew (ix1 e) := by
  rw [broadcastInDim_apply _ bcast_S600000x1_S600000x128_0_1 _ (ix2 e c) (ix2 e (0 : Fin 1)) (fun a => match a with
    | ⟨0, _⟩ => by show e.val = if (600000 : Nat) = 1 then 0 else e.val; rw [if_neg (by decide)]
    | ⟨1, _⟩ => by show 0 = if (1 : Nat) = 1 then 0 else c.val; rw [if_pos rfl])]
  exact colV_apply ew e 0

theorem gatherRows_apply (v : FVec Ideal S50000x128 .f32) (s : IVec S600000 32) (e : Fin 600000) (c : Fin 128) :
    Host.gather gather_S50000x128_S600000x1_S600000x128_1_0_n_n_0_1_1128 v (colV (nrmV s)) (ix2 e c)
      = v (ix2 (Cert.Cheb.grow (s (ix1 e))) c) := by
  rw [gatherRow_rec, rowGather_apply (by decide)]
  refine congrArg v (congrArg (fun r => ix2 r c) (Fin.ext ?_))
  show min (colV (nrmV s) (ix2 e 0)).toInt.toNat (50000 - 1) = min (Cert.Cheb.nrm (s (ix1 e))).toInt.toNat (50000 - 1)
  rw [colV_apply, nrmV_apply]

theorem lhatV_apply (ew : FVec Ideal S600000 .f32) (s t : IVec S600000 32) (v : FVec Ideal S50000x128 .f32)
    (i : Fin 50000) (c : Fin 128) :
    lhatV ew s t v (ix2 i c)
      = 0 + ∑ e ∈ Cert.Cheb.lands (fun e => t (ix1 e)) i, ew (ix1 e) * v (ix2 (Cert.Cheb.grow (s (ix1 e))) c) := by
  unfold lhatV
  rw [scatterRow_rec, rowScatterAdd_apply, zeros_apply]
  have hl : Finset.univ.filter (fun e : Fin 600000 => (colV t (ix2 e 0)).toInt = (i.val : Int))
      = Cert.Cheb.lands (fun e => t (ix1 e)) i := by
    unfold Cert.Cheb.lands
    exact Finset.filter_congr (fun e _ => by rw [colV_apply])
  rw [hl]
  refine congrArg (fun z => (0 : EReal) + z) (Finset.sum_congr rfl fun e _ => ?_)
  show broadcastInDim S600000x128 ![0, 1] bcast_S600000x1_S600000x128_0_1 (colV ew) (ix2 e c)
      * Host.gather gather_S50000x128_S600000x1_S600000x128_1_0_n_n_0_1_1128 v (colV (nrmV s)) (ix2 e c) = _
  rw [keep_apply, gatherRows_apply]

/-- With the program's edge weight the Laplacian is `Cert.Cheb.LR`, for any reading `V` of the node array. -/
theorem lhatV_LR (d : FVec Ideal S50000 .f32) (s t : IVec S600000 32) (v : FVec Ideal S50000x128 .f32)
    (V : Fin 50000 → Fin 128 → EReal) (hv : ∀ a b, v (ix2 a b) = V a b) (i : Fin 50000) (c : Fin 128) :
    lhatV (ewV d s t) s t v (ix2 i c)
      = Cert.Cheb.LR (fun a => d (ix1 a)) (fun e => s (ix1 e)) (fun e => t (ix1 e)) V i c := by
  rw [lhatV_apply]
  unfold Cert.Cheb.LR
  refine congrArg (fun z => (0 : EReal) + z) (Finset.sum_congr rfl fun e _ => ?_)
  rw [ewV_apply, hv]

/-! ## The dense step -/

/-- Slice `0` of the weights `[3, 128, 128]`, as a matrix. -/
def w0V (W : FVec Ideal S3x128x128 .f32) : FVec Ideal S128x128 .f32 :=
  shapeCast _ (extractStridedSlice S1x128x128 ![0, 0, 0] W slices_S3x128x128_S1x128x128_0_0_0) shapeCasts_S1x128x128_S128x128

theorem w0V_apply (W : FVec Ideal S3x128x128 .f32) (k c : Fin 128) : w0V W (ix2 k c) = W (ix3 0 k c) := by
  unfold w0V
  rw [shapeCast_apply _ shapeCasts_S1x128x128_S128x128 (ix2 k c) (ix3 (0 : Fin 1) k c)
    (by rewrite [Shape.rowMajor_val_three, Shape.rowMajor_val_two]
        show (0 * 128 + k.val) * 128 + c.val = k.val * 128 + c.val
        omega)]
  exact extractStridedSlice_apply ![0, 0, 0] W slices_S3x128x128_S1x128x128_0_0_0 (ix3 (0 : Fin 1) k c) (ix3 0 k c)
    (fun a => match a with
      | ⟨0, _⟩ => by show 0 = 0 + 0; omega
      | ⟨1, _⟩ => by show k.val = 0 + k.val; omega
      | ⟨2, _⟩ => by show c.val = 0 + c.val; omega)

/-- Slice `1` of the weights `[3, 128, 128]`, as a matrix. -/
def w1V (W : FVec Ideal S3x128x128 .f32) : FVec Ideal S128x128 .f32 :=
  shapeCast _ (extractStridedSlice S1x128x128 ![1, 0, 0] W slices_S3x128x128_S1x128x128_1_0_0) shapeCasts_S1x128x128_S128x128

theorem w1V_apply (W : FVec Ideal S3x128x128 .f32) (k c : Fin 128) : w1V W (ix2 k c) = W (ix3 1 k c) := by
  unfold w1V
  rw [shapeCast_apply _ shapeCasts_S1x128x128_S128x128 (ix2 k c) (ix3 (0 : Fin 1) k c)
    (by rewrite [Shape.rowMajor_val_three, Shape.rowMajor_val_two]
        show (0 * 128 + k.val) * 128 + c.val = k.val * 128 + c.val
        omega)]
  exact extractStridedSlice_apply ![1, 0, 0] W slices_S3x128x128_S1x128x128_1_0_0 (ix3 (0 : Fin 1) k c) (ix3 1 k c)
    (fun a => match a with
      | ⟨0, _⟩ => by show 1 = 1 + 0; omega
      | ⟨1, _⟩ => by show k.val = 0 + k.val; omega
      | ⟨2, _⟩ => by show c.val = 0 + c.val; omega)

/-- Slice `2` of the weights `[3, 128, 128]`, as a matrix. -/
def w2V (W : FVec Ideal S3x128x128 .f32) : FVec Ideal S128x128 .f32 :=
  shapeCast _ (extractStridedSlice S1x128x128 ![2, 0, 0] W slices_S3x128x128_S1x128x128_2_0_0) shapeCasts_S1x128x128_S128x128

theorem w2V_apply (W : FVec Ideal S3x128x128 .f32) (k c : Fin 128) : w2V W (ix2 k c) = W (ix3 2 k c) := by
  unfold w2V
  rw [shapeCast_apply _ shapeCasts_S1x128x128_S128x128 (ix2 k c) (ix3 (0 : Fin 1) k c)
    (by rewrite [Shape.rowMajor_val_three, Shape.rowMajor_val_two]
        show (0 * 128 + k.val) * 128 + c.val = k.val * 128 + c.val
        omega)]
  exact extractStridedSlice_apply ![2, 0, 0] W slices_S3x128x128_S1x128x128_2_0_0 (ix3 (0 : Fin 1) k c) (ix3 2 k c)
    (fun a => match a with
      | ⟨0, _⟩ => by show 2 = 2 + 0; omega
      | ⟨1, _⟩ => by show k.val = 0 + k.val; omega
      | ⟨2, _⟩ => by show c.val = 0 + c.val; omega)

/-- A node array times a weight matrix. -/
def dotV (a : FVec Ideal S50000x128 .f32) (w : FVec Ideal S128x128 .f32) : FVec Ideal S50000x128 .f32 :=
  Host.dotGeneral dot_S50000x128_S128x128_S50000x128_1_0_0_1_n_n none a w

theorem dot_lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem dot_lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q

theorem dot_rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q

theorem dot_rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- Entry `(i, c)` of the product is the sum over `k` of row `i` times column `c`. -/
theorem dotV_apply (a : FVec Ideal S50000x128 .f32) (w : FVec Ideal S128x128 .f32) (i : Fin 50000) (c : Fin 128) :
    dotV a w (ix2 i c) = ∑ k : Fin 128, a (ix2 i k) * w (ix2 k c) := by
  unfold dotV
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i c)
      ((ValueIdx.contrEquiv1 dot_S50000x128_S128x128_S50000x128_1_0_0_1_n_n 128 rfl rfl).symm k) = ix2 i k :=
    funext fun b => Fin.ext (by
      match b with
      | ⟨0, _⟩ => exact dot_lhs_0 _ _
      | ⟨1, _⟩ => exact (dot_lhs_1 _ _).trans hk)
  have er : dot_S50000x128_S128x128_S50000x128_1_0_0_1_n_n.rhsIdx (ix2 i c)
      ((ValueIdx.contrEquiv1 dot_S50000x128_S128x128_S50000x128_1_0_0_1_n_n 128 rfl rfl).symm k) = ix2 k c :=
    funext fun b => Fin.ext (by
      match b with
      | ⟨0, _⟩ => exact (dot_rhs_0 _ _).trans hk
      | ⟨1, _⟩ => exact dot_rhs_1 _ _)
  rw [el, er]

/-- The bias, copied into every row. -/
def biasV (b : FVec Ideal S128 .f32) : FVec Ideal S50000x128 .f32 :=
  broadcastInDim S50000x128 ![0, 1] bcast_S1x128_S50000x128_0_1 (broadcastInDim S1x128 ![1] bcast_S128_S1x128_1 b)

theorem biasV_apply (b : FVec Ideal S128 .f32) (i : Fin 50000) (c : Fin 128) : biasV b (ix2 i c) = b (ix1 c) := by
  unfold biasV
  rw [broadcastInDim_apply _ bcast_S1x128_S50000x128_0_1 _ (ix2 i c) (ix2 (0 : Fin 1) c) (fun a => match a with
    | ⟨0, _⟩ => by show 0 = if (1 : Nat) = 1 then 0 else i.val; rw [if_pos rfl]
    | ⟨1, _⟩ => by show c.val = if (128 : Nat) = 1 then 0 else c.val; rw [if_neg (by decide)])]
  exact broadcastInDim_apply _ bcast_S128_S1x128_1 b (ix2 (0 : Fin 1) c) (ix1 c) (fun a => match a with
    | ⟨0, _⟩ => by show c.val = if (128 : Nat) = 1 then 0 else c.val; rw [if_neg (by decide)])

/-- A splat of the word of `2.0` is `Cert.Cheb.two` everywhere. -/
theorem twos_apply (j : S50000x128.Idx) :
    broadcastInDim S50000x128 ![] bcast_S_S50000x128 (constant (F := Ideal) S_ .f32 0x40000000#32) j = Cert.Cheb.two := by
  rw [broadcastInDim_apply _ bcast_S_S50000x128 _ j ix0 (fun a => a.elim0)]
  rfl

/-! ## One layer -/

/-- One layer, operation by operation: the edge weight, two applications of the Laplacian, the three products with the
    slices of the weights (the third of `2·L(L h) − h`), their sum, the bias, and the maximum with zero. -/
def layerT (d : FVec Ideal S50000 .f32) (s t : IVec S600000 32) (h : FVec Ideal S50000x128 .f32)
    (W : FVec Ideal S3x128x128 .f32) (b : FVec Ideal S128 .f32) : FVec Ideal S50000x128 .f32 :=
  maximumf
    (addf
      (addf
        (addf (dotV h (w0V W)) (dotV (lhatV (ewV d s t) s t h) (w1V W)))
        (dotV
          (subf
            (mulf (broadcastInDim S50000x128 ![] bcast_S_S50000x128 (constant (F := Ideal) S_ .f32 0x40000000#32))
              (lhatV (ewV d s t) s t (lhatV (ewV d s t) s t h)))
            h)
          (w2V W)))
      (biasV b))
    (broadcastInDim S50000x128 ![] bcast_S_S50000x128 (constant (F := Ideal) S_ .f32 0x00000000#32))

theorem layerT_apply (d : FVec Ideal S50000 .f32) (s t : IVec S600000 32) (h : FVec Ideal S50000x128 .f32)
    (W : FVec Ideal S3x128x128 .f32) (b : FVec Ideal S128 .f32) (i : Fin 50000) (c : Fin 128) :
    layerT d s t h W b (ix2 i c)
      = Cert.Cheb.layerR (fun a => d (ix1 a)) (fun e => s (ix1 e)) (fun e => t (ix1 e)) (fun a b' => h (ix2 a b'))
          (fun a b' => W (ix3 0 a b')) (fun a b' => W (ix3 1 a b')) (fun a b' => W (ix3 2 a b')) (fun b' => b (ix1 b')) i c := by
  have hL1 : ∀ a b', lhatV (ewV d s t) s t h (ix2 a b')
      = Cert.Cheb.LR (fun a => d (ix1 a)) (fun e => s (ix1 e)) (fun e => t (ix1 e)) (fun a b' => h (ix2 a b')) a b' :=
    fun a b' => lhatV_LR d s t h _ (fun _ _ => rfl) a b'
  have hL2 : ∀ a b', lhatV (ewV d s t) s t (lhatV (ewV d s t) s t h) (ix2 a b')
      = Cert.Cheb.LR (fun a => d (ix1 a)) (fun e => s (ix1 e)) (fun e => t (ix1 e))
          (Cert.Cheb.LR (fun a => d (ix1 a)) (fun e => s (ix1 e)) (fun e => t (ix1 e)) (fun a b' => h (ix2 a b'))) a b' :=
    fun a b' => lhatV_LR d s t _ _ hL1 a b'
  show max (((dotV h (w0V W) (ix2 i c) + dotV (lhatV (ewV d s t) s t h) (w1V W) (ix2 i c))
      + dotV (subf (mulf (broadcastInDim S50000x128 ![] bcast_S_S50000x128 (constant (F := Ideal) S_ .f32 0x40000000#32))
              (lhatV (ewV d s t) s t (lhatV (ewV d s t) s t h))) h) (w2V W) (ix2 i c))
      + biasV b (ix2 i c))
      (broadcastInDim S50000x128 ![] bcast_S_S50000x128 (constant (F := Ideal) S_ .f32 0x00000000#32) (ix2 i c)) = _
  rw [dotV_apply, dotV_apply, dotV_apply, biasV_apply, zeros_apply]
  unfold Cert.Cheb.layerR Cert.Cheb.comb
  have e0 : ∑ k : Fin 128, h (ix2 i k) * w0V W (ix2 k c) = ∑ k : Fin 128, h (ix2 i k) * W (ix3 0 k c) :=
    Finset.sum_congr rfl fun k _ => by rw [w0V_apply]
  have e1 : ∑ k : Fin 128, lhatV (ewV d s t) s t h (ix2 i k) * w1V W (ix2 k c)
      = ∑ k : Fin 128, Cert.Cheb.LR (fun a => d (ix1 a)) (fun e => s (ix1 e)) (fun e => t (ix1 e)) (fun a b' => h (ix2 a b')) i k
          * W (ix3 1 k c) :=
    Finset.sum_congr rfl fun k _ => by rw [w1V_apply, hL1]
  have e2 : ∑ k : Fin 128, subf (mulf (broadcastInDim S50000x128 ![] bcast_S_S50000x128 (constant (F := Ideal) S_ .f32 0x40000000#32))
              (lhatV (ewV d s t) s t (lhatV (ewV d s t) s t h))) h (ix2 i k) * w2V W (ix2 k c)
      = ∑ k : Fin 128, (Cert.Cheb.two * Cert.Cheb.LR (fun a => d (ix1 a)) (fun e => s (ix1 e)) (fun e => t (ix1 e))
          (Cert.Cheb.LR (fun a => d (ix1 a)) (fun e => s (ix1 e)) (fun e => t (ix1 e)) (fun a b' => h (ix2 a b'))) i k
            - h (ix2 i k)) * W (ix3 2 k c) :=
    Finset.sum_congr rfl fun k _ => by
      show (broadcastInDim S50000x128 ![] bcast_S_S50000x128 (constant (F := Ideal) S_ .f32 0x40000000#32) (ix2 i k)
          * lhatV (ewV d s t) s t (lhatV (ewV d s t) s t h) (ix2 i k) - h (ix2 i k)) * w2V W (ix2 k c) = _
      rw [twos_apply, hL2, w2V_apply]
  rw [e0, e1, e2]

/-! ## The node factor -/

theorem scatterVec_rec : scatter_S50000_S600000x1_S600000_n_0_0_1
    = vecScatterDims 50000 600000 scatter_S50000_S600000x1_S600000_n_0_0_1_wf := rfl

/-- A splat over the nodes reads the scalar everywhere. -/
theorem splatN_apply (y : FVec Ideal S_ .f32) (j : S50000.Idx) :
    broadcastInDim S50000 ![] bcast_S_S50000 y j = y ix0 :=
  broadcastInDim_apply _ bcast_S_S50000 y j ix0 (fun a => a.elim0)

/-- A splat over the edges reads the scalar everywhere. -/
theorem splatE_apply (y : FVec Ideal S_ .f32) (j : S600000.Idx) :
    broadcastInDim S600000 ![] bcast_S_S600000 y j = y ix0 :=
  broadcastInDim_apply _ bcast_S_S600000 y j ix0 (fun a => a.elim0)

/-- The degree: a one for every edge, added up on the row its source names. -/
def degV (s : IVec S600000 32) : FVec Ideal S50000 .f32 :=
  Host.scatterAdd scatter_S50000_S600000x1_S600000_n_0_0_1
    (broadcastInDim S50000 ![] bcast_S_S50000 (constant (F := Ideal) S_ .f32 0x00000000#32))
    (colV s)
    (broadcastInDim S600000 ![] bcast_S_S600000 (constant (F := Ideal) S_ .f32 0x3F800000#32))

theorem degV_apply (s : IVec S600000 32) (i : Fin 50000) :
    degV s (ix1 i) = Cert.Cheb.degS (fun e => s (ix1 e)) i := by
  unfold degV
  rw [scatterVec_rec, vecScatterAdd_apply, splatN_apply]
  have hl : Finset.univ.filter (fun e : Fin 600000 => (colV s (ix2 e 0)).toInt = (i.val : Int))
      = Cert.Cheb.lands (fun e => s (ix1 e)) i := by
    unfold Cert.Cheb.lands
    exact Finset.filter_congr (fun e _ => by rw [colV_apply])
  rw [hl]
  unfold Cert.Cheb.degS
  refine congr (congrArg HAdd.hAdd ?_) (Finset.sum_congr rfl fun e _ => ?_)
  · exact Ideal.ofBits_zero_f32
  · rw [splatE_apply]; rfl

/-- The node factor: the inverse square root of the degree (at least one), or zero at degree zero. -/
def dinvV (s : IVec S600000 32) : FVec Ideal S50000 .f32 :=
  select (cmpf .ogt (degV s) (broadcastInDim S50000 ![] bcast_S_S50000 (constant (F := Ideal) S_ .f32 0x00000000#32)))
    (Host.rsqrt (maximumf (degV s) (broadcastInDim S50000 ![] bcast_S_S50000 (constant (F := Ideal) S_ .f32 0x3F800000#32))))
    (broadcastInDim S50000 ![] bcast_S_S50000 (id (constant (F := Ideal) S_ .f32 0x00000000#32)))

theorem dinvV_apply (s : IVec S600000 32) (i : Fin 50000) :
    dinvV s (ix1 i) = Cert.Cheb.dinvS (fun e => s (ix1 e)) i := by
  show Scalar.select
      (FloatOps.cmpf .ogt (degV s (ix1 i))
        (broadcastInDim S50000 ![] bcast_S_S50000 (constant (F := Ideal) S_ .f32 0x00000000#32) (ix1 i)))
      (FloatOps.hostUnary .rsqrt (FloatOps.maximumf (degV s (ix1 i))
        (broadcastInDim S50000 ![] bcast_S_S50000 (constant (F := Ideal) S_ .f32 0x3F800000#32) (ix1 i))))
      (broadcastInDim S50000 ![] bcast_S_S50000 (id (constant (F := Ideal) S_ .f32 0x00000000#32)) (ix1 i)) = _
  rw [splatN_apply, splatN_apply, splatN_apply, degV_apply, Ideal.hostUnary_rsqrt_def, Ideal.maximumf_def]
  unfold Cert.Cheb.dinvS
  have hz : constant (F := Ideal) S_ .f32 0x00000000#32 ix0 = (0 : EReal) := Ideal.ofBits_zero_f32
  have hz' : id (constant (F := Ideal) S_ .f32 0x00000000#32) ix0 = (0 : EReal) := Ideal.ofBits_zero_f32
  have ho : constant (F := Ideal) S_ .f32 0x3F800000#32 ix0 = Cert.Cheb.one := rfl
  rw [hz, hz', ho]

/-! ## The two rows of the edge list -/

/-- Row `0` of the edge list `[2, 600000]`, as a vector. -/
def srcV (ei : IVec S2x600000 32) : IVec S600000 32 :=
  shapeCast _ (extractStridedSlice S1x600000 ![0, 0] ei slices_S2x600000_S1x600000_0_0) shapeCasts_S1x600000_S600000

/-- Row `1` of the edge list, as a vector. -/
def dstV (ei : IVec S2x600000 32) : IVec S600000 32 :=
  shapeCast _ (extractStridedSlice S1x600000 ![1, 0] ei slices_S2x600000_S1x600000_1_0) shapeCasts_S1x600000_S600000

theorem srcV_apply (ei : IVec S2x600000 32) (e : Fin 600000) : srcV ei (ix1 e) = ei (ix2 0 e) := by
  unfold srcV
  rw [shapeCast_apply _ shapeCasts_S1x600000_S600000 (ix1 e) (ix2 (0 : Fin 1) e)
    (by rewrite [Shape.rowMajor_val_two, Shape.rowMajor_val_one]
        show 0 * 600000 + e.val = e.val
        omega)]
  exact extractStridedSlice_apply ![0, 0] ei slices_S2x600000_S1x600000_0_0 (ix2 (0 : Fin 1) e) (ix2 0 e)
    (fun a => match a with
      | ⟨0, _⟩ => by show 0 = 0 + 0; omega
      | ⟨1, _⟩ => by show e.val = 0 + e.val; omega)

theorem dstV_apply (ei : IVec S2x600000 32) (e : Fin 600000) : dstV ei (ix1 e) = ei (ix2 1 e) := by
  unfold dstV
  rw [shapeCast_apply _ shapeCasts_S1x600000_S600000 (ix1 e) (ix2 (0 : Fin 1) e)
    (by rewrite [Shape.rowMajor_val_two, Shape.rowMajor_val_one]
        show 0 * 600000 + e.val = e.val
        omega)]
  exact extractStridedSlice_apply ![1, 0] ei slices_S2x600000_S1x600000_1_0 (ix2 (0 : Fin 1) e) (ix2 1 e)
    (fun a => match a with
      | ⟨0, _⟩ => by show 1 = 1 + 0; omega
      | ⟨1, _⟩ => by show e.val = 0 + e.val; omega)

end Cert.ReferenceIdeal.RefOps

end
-- ==== Proof.RefRead.lean ====
/-
  The reference's grouped terms read at an index: the two rows of the edge list, the node factor, and one layer,
  which is `Cert.Cheb.layerR` of the readings of its arguments. Each term is, operation for operation, the term of the
  same name read in `RefOps`, so each reading is that module's.
-/
import proofs.«177079_j59863254171804_2_alg».proof.Proof.RTerms
import proofs.«177079_j59863254171804_2_alg».proof.Proof.Spec
import proofs.«177079_j59863254171804_2_alg».proof.Proof.RefOpLemmas

noncomputable section

namespace Cert.ReferenceIdeal.TermsRead

open Cert.ReferenceIdeal Idealize.ShloMosaic Idealize.ShloMosaic.ValueIdx

/-! ## Each grouped term is the term read in `RefOps` -/

theorem srcT_eq (ei : (⟨S2x600000, .i32⟩ : BufTy).Contents (Elt Ideal)) :
    Terms.srcT (F := Ideal) ei = RefOps.srcV ei := rfl

theorem dstT_eq (ei : (⟨S2x600000, .i32⟩ : BufTy).Contents (Elt Ideal)) :
    Terms.dstT (F := Ideal) ei = RefOps.dstV ei := rfl

theorem dinvT_eq (s : (⟨S600000, .i32⟩ : BufTy).Contents (Elt Ideal)) :
    Terms.dinvT (F := Ideal) s = RefOps.dinvV s := rfl

theorem layerT_eq (d : (⟨S50000, .f32⟩ : BufTy).Contents (Elt Ideal)) (s t : (⟨S600000, .i32⟩ : BufTy).Contents (Elt Ideal))
    (h : (⟨S50000x128, .f32⟩ : BufTy).Contents (Elt Ideal)) (W : (⟨S3x128x128, .f32⟩ : BufTy).Contents (Elt Ideal))
    (b : (⟨S128, .f32⟩ : BufTy).Contents (Elt Ideal)) :
    Terms.layerT (F := Ideal) d s t h W b = RefOps.layerT d s t h W b := rfl

/-! ## The readings -/

/-- The source row number of edge `e` is entry `(0, e)` of the edge list. -/
theorem srcT_apply (ei : (⟨S2x600000, .i32⟩ : BufTy).Contents (Elt Ideal)) (e : Fin 600000) :
    Terms.srcT (F := Ideal) ei (ix1 e) = ei (ix2 0 e) := by
  rw [srcT_eq]; exact RefOps.srcV_apply ei e

/-- The destination row number of edge `e` is entry `(1, e)` of the edge list. -/
theorem dstT_apply (ei : (⟨S2x600000, .i32⟩ : BufTy).Contents (Elt Ideal)) (e : Fin 600000) :
    Terms.dstT (F := Ideal) ei (ix1 e) = ei (ix2 1 e) := by
  rw [dstT_eq]; exact RefOps.dstV_apply ei e

/-- The node factor at node `i` is `Cert.Cheb.dinvS` of the source row numbers. -/
theorem dinvT_apply (s : (⟨S600000, .i32⟩ : BufTy).Contents (Elt Ideal)) (i : Fin 50000) :
    Terms.dinvT (F := Ideal) s (ix1 i) = Cert.Cheb.dinvS (fun e => s (ix1 e)) i := by
  rw [dinvT_eq]; exact RefOps.dinvV_apply s i

/-- One layer at `(i, c)` is `Cert.Cheb.layerR` of the readings of its six arguments. -/
theorem layerT_apply (d : (⟨S50000, .f32⟩ : BufTy).Contents (Elt Ideal)) (s t : (⟨S600000, .i32⟩ : BufTy).Contents (Elt Ideal))
    (h : (⟨S50000x128, .f32⟩ : BufTy).Contents (Elt Ideal)) (W : (⟨S3x128x128, .f32⟩ : BufTy).Contents (Elt Ideal))
    (b : (⟨S128, .f32⟩ : BufTy).Contents (Elt Ideal)) (i : Fin 50000) (c : Fin 128) :
    Terms.layerT (F := Ideal) d s t h W b (ix2 i c)
      = Cert.Cheb.layerR (fun a => d (ix1 a)) (fun e => s (ix1 e)) (fun e => t (ix1 e)) (fun a b' => h (ix2 a b'))
          (fun a b' => W (ix3 0 a b')) (fun a b' => W (ix3 1 a b')) (fun a b' => W (ix3 2 a b')) (fun b' => b (ix1 b')) i c := by
  rw [layerT_eq]; exact RefOps.layerT_apply d s t h W b i c

end Cert.ReferenceIdeal.TermsRead

end
-- ==== Proof.Algebra.lean ====
/-
  Real-number facts about one Chebyshev graph-convolution layer.

  Every operation of the layer (sum, product, difference, negation, maximum, a finite sum, the inverse square root of a
  number that is at least one) sends real numbers to real numbers, so every intermediate array of a layer is real once
  its inputs are. On real entries the two arrangements of the scaled Laplacian agree: an update that lands on row `i`
  has a non-negative signed row number equal to `i`, so the gather row of its destination is `i` itself, and a real
  factor distributes over a finite sum of reals.
-/
import proofs.«177079_j59863254171804_2_alg».proof.Proof.Spec
import Idealize.ShloMosaic.PureOps.Ideal.Laws

noncomputable section

namespace Cert.Cheb

open Idealize.ShloMosaic

/-! ### Closure of the real numbers inside the extended reals -/

theorem IsReal.add {x y : EReal} : IsReal x → IsReal y → IsReal (x + y) := by
  rintro ⟨a, rfl⟩ ⟨b, rfl⟩
  exact ⟨a + b, EReal.coe_add a b⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.sub {x y : EReal} : IsReal x → IsReal y → IsReal (x - y) := by
  rintro ⟨a, rfl⟩ ⟨b, rfl⟩
  exact ⟨a - b, (EReal.coe_sub a b).symm⟩

theorem IsReal.max {x y : EReal} : IsReal x → IsReal y → IsReal (Max.max x y) := by
  intro hx hy
  rcases le_total x y with h | h
  · rw [max_eq_right h]; exact hy
  · rw [max_eq_left h]; exact hx

theorem isReal_zero : IsReal 0 := ⟨0, rfl⟩

/-- The word `0x40000000` is the number two. -/
theorem two_eq : two = ((2 : ℝ) : EReal) := by
  simp [two, Ideal.ofBits, Ideal.ieee]
  rw [← EReal.coe_mul]
  norm_num

/-- The word `0x3F800000` is the number one. -/
theorem one_eq : one = ((1 : ℝ) : EReal) := by
  simp [one, Ideal.ofBits, Ideal.ieee]
  rw [← EReal.coe_mul, ← EReal.coe_one]
  norm_num

theorem isReal_two : IsReal two := ⟨2, two_eq⟩

theorem isReal_one : IsReal one := ⟨1, one_eq⟩

theorem isReal_sum {ι : Type*} (s : Finset ι) (f : ι → EReal) (h : ∀ a ∈ s, IsReal (f a)) :
    IsReal (∑ a ∈ s, f a) := by
  classical
  induction s using Finset.induction_on with
  | empty => simpa using isReal_zero
  | insert a s ha ih =>
    rw [Finset.sum_insert ha]
    exact (h a (Finset.mem_insert_self a s)).add (ih fun b hb => h b (Finset.mem_insert_of_mem hb))

/-- The coercion from the reals commutes with finite sums. -/
theorem ereal_coe_sum {ι : Type*} (s : Finset ι) (f : ι → ℝ) :
    (∑ a ∈ s, ((f a : ℝ) : EReal)) = ((∑ a ∈ s, f a : ℝ) : EReal) := by
  classical
  induction s using Finset.induction_on with
  | empty => simp
  | insert a s ha ih => rw [Finset.sum_insert ha, Finset.sum_insert ha, ih, EReal.coe_add]

/-- A finite sum of non-negative reals is a non-negative real. -/
theorem nonneg_real_sum {ι : Type*} (s : Finset ι) (f : ι → EReal)
    (h : ∀ a ∈ s, ∃ r : ℝ, 0 ≤ r ∧ f a = (r : EReal)) : ∃ r : ℝ, 0 ≤ r ∧ ∑ a ∈ s, f a = (r : EReal) := by
  classical
  induction s using Finset.induction_on with
  | empty => exact ⟨0, le_refl 0, by simp⟩
  | insert a s ha ih =>
    obtain ⟨r, hr, hra⟩ := h a (Finset.mem_insert_self a s)
    obtain ⟨t, ht, hts⟩ := ih fun b hb => h b (Finset.mem_insert_of_mem hb)
    refine ⟨r + t, add_nonneg hr ht, ?_⟩
    rw [Finset.sum_insert ha, hra, hts, EReal.coe_add]

/-! ### The degree and the per-node factor -/

/-- A degree is a non-negative real: zero plus a one per incident edge. -/
theorem degS_nonneg_real (src : Fin 600000 → BitVec 32) (i : Fin 50000) :
    ∃ r : ℝ, 0 ≤ r ∧ degS src i = (r : EReal) := by
  obtain ⟨r, hr, h⟩ := nonneg_real_sum (lands src i) (fun _ => one) (fun _ _ => ⟨1, zero_le_one, one_eq⟩)
  exact ⟨r, hr, by unfold degS; rw [h, zero_add]⟩

/-- The per-node factor is real: either zero, or the inverse square root of a real that is at least one. -/
theorem dinvS_real (src : Fin 600000 → BitVec 32) (i : Fin 50000) : IsReal (dinvS src i) := by
  obtain ⟨r, hr, h⟩ := degS_nonneg_real src i
  have hm : ∃ t : ℝ, 1 ≤ t ∧ Max.max (r : EReal) ((1 : ℝ) : EReal) = (t : EReal) := by
    rcases le_total r 1 with h1 | h1
    · exact ⟨1, le_refl 1, max_eq_right (EReal.coe_le_coe_iff.2 h1)⟩
    · exact ⟨r, h1, max_eq_left (EReal.coe_le_coe_iff.2 h1)⟩
  obtain ⟨t, ht, hmt⟩ := hm
  unfold dinvS Scalar.select
  split
  · rw [h, one_eq, hmt, Ideal.rsqrt_coe, if_neg (by linarith), if_neg (by linarith)]
    exact ⟨_, rfl⟩
  · exact isReal_zero

/-! ### The scaled Laplacian -/

theorem LR_real {d : Fin 50000 → EReal} {src dst : Fin 600000 → BitVec 32} {v : Fin 50000 → Fin 128 → EReal}
    (hd : ∀ i, IsReal (d i)) (hv : ∀ i c, IsReal (v i c)) : ∀ i c, IsReal (LR d src dst v i c) := by
  intro i c
  unfold LR
  exact isReal_zero.add (isReal_sum _ _ fun e _ => ((hd _).mul (hd _)).neg.mul (hv _ _))

/-- A row number whose signed value is the row `i` of a 50000-row array is not negative, so counting from the end
    leaves it alone and the clamp does nothing: the gather reads row `i`. -/
theorem grow_of_toInt {s : BitVec 32} {i : Fin 50000} (h : s.toInt = (i.val : Int)) : grow s = i := by
  have hlt : s.slt 0#32 = false := by
    rw [BitVec.slt_eq_decide, BitVec.toInt_zero, h]
    simp
  have hn : nrm s = s := by
    unfold nrm Scalar.select IntOp.cmpi
    simp [hlt]
  apply Fin.ext
  have := i.isLt
  simp only [grow, hn, h]
  simp
  omega

/-- An update that lands on row `i` is gathered from row `i`. -/
theorem grow_of_mem_lands {dst : Fin 600000 → BitVec 32} {i : Fin 50000} {e : Fin 600000}
    (he : e ∈ lands dst i) : grow (dst e) = i :=
  grow_of_toInt (by simpa [lands] using he)

/-- On real entries the node-scaled and the edge-weighted arrangements of the scaled Laplacian agree. -/
theorem LK_eq_LR {d : Fin 50000 → EReal} {src dst : Fin 600000 → BitVec 32} {v : Fin 50000 → Fin 128 → EReal}
    (hd : ∀ i, IsReal (d i)) (hv : ∀ i c, IsReal (v i c)) : LK d src dst v = LR d src dst v := by
  funext i c
  choose dr hdr using hd
  choose vr hvr using hv
  unfold LK LR
  rw [zero_add, zero_add]
  have hsum : ∑ e ∈ lands dst i, (-(d (grow (src e)) * d (grow (dst e)))) * v (grow (src e)) c
      = ∑ e ∈ lands dst i, ((-(dr i) * (dr (grow (src e)) * vr (grow (src e)) c) : ℝ) : EReal) := by
    refine Finset.sum_congr rfl fun e he => ?_
    rw [grow_of_mem_lands he]
    simp only [hdr, hvr]
    rw [← EReal.coe_mul, ← EReal.coe_neg, ← EReal.coe_mul]
    congr 1
    ring
  have hsum2 : ∑ e ∈ lands dst i, d (grow (src e)) * v (grow (src e)) c
      = ∑ e ∈ lands dst i, ((dr (grow (src e)) * vr (grow (src e)) c : ℝ) : EReal) := by
    refine Finset.sum_congr rfl fun e _ => ?_
    simp only [hdr, hvr]
    rw [← EReal.coe_mul]
  rw [hsum, hsum2, ereal_coe_sum, ereal_coe_sum, hdr, ← EReal.coe_neg, ← EReal.coe_mul, Finset.mul_sum]

/-! ### The dense step and a whole layer -/

theorem comb_real {t0 t1 l : Fin 50000 → Fin 128 → EReal} {w0 w1 w2 : Fin 128 → Fin 128 → EReal}
    {b : Fin 128 → EReal}
    (h0 : ∀ i k, IsReal (t0 i k)) (h1 : ∀ i k, IsReal (t1 i k)) (hl : ∀ i k, IsReal (l i k))
    (hw0 : ∀ k c, IsReal (w0 k c)) (hw1 : ∀ k c, IsReal (w1 k c)) (hw2 : ∀ k c, IsReal (w2 k c))
    (hb : ∀ c, IsReal (b c)) : ∀ i c, IsReal (comb t0 t1 l w0 w1 w2 b i c) := by
  intro i c
  unfold comb
  refine IsReal.max ?_ isReal_zero
  refine IsReal.add (IsReal.add (IsReal.add ?_ ?_) ?_) (hb c)
  · exact isReal_sum _ _ fun k _ => (h0 i k).mul (hw0 k c)
  · exact isReal_sum _ _ fun k _ => (h1 i k).mul (hw1 k c)
  · exact isReal_sum _ _ fun k _ => ((isReal_two.mul (hl i k)).sub (h0 i k)).mul (hw2 k c)

theorem layerK_eq_layerR {d : Fin 50000 → EReal} {src dst : Fin 600000 → BitVec 32}
    {h : Fin 50000 → Fin 128 → EReal} {w0 w1 w2 : Fin 128 → Fin 128 → EReal} {b : Fin 128 → EReal}
    (hd : ∀ i, IsReal (d i)) (hh : ∀ i c, IsReal (h i c)) :
    layerK d src dst h w0 w1 w2 b = layerR d src dst h w0 w1 w2 b := by
  unfold layerK layerR
  rw [LK_eq_LR hd hh, LK_eq_LR hd (LR_real hd hh)]

theorem layerR_real {d : Fin 50000 → EReal} {src dst : Fin 600000 → BitVec 32}
    {h : Fin 50000 → Fin 128 → EReal} {w0 w1 w2 : Fin 128 → Fin 128 → EReal} {b : Fin 128 → EReal}
    (hd : ∀ i, IsReal (d i)) (hh : ∀ i c, IsReal (h i c))
    (hw0 : ∀ k c, IsReal (w0 k c)) (hw1 : ∀ k c, IsReal (w1 k c)) (hw2 : ∀ k c, IsReal (w2 k c))
    (hb : ∀ c, IsReal (b c)) : ∀ i c, IsReal (layerR d src dst h w0 w1 w2 b i c) :=
  comb_real hh (LR_real hd hh) (LR_real hd (LR_real hd hh)) hw0 hw1 hw2 hb

end Cert.Cheb

end
-- ==== Proof.Bridge.lean ====
/-
  Three layers in the two arrangements give the same arrays.

  `K₁, K₂, K₃` are arrays that are, entry by entry, a layer in the node-scaled arrangement of the previous one
  (`K₀ = x`), and `R₁, R₂, R₃` the same in the edge-weighted arrangement. When the per-node factor, the input, the
  weights and the biases are real numbers, every layer's output is real (finite sums, products and maxima of reals),
  so the two arrangements agree layer after layer, and the third outputs are the same array.
-/
import proofs.«177079_j59863254171804_2_alg».proof.Proof.Spec
import proofs.«177079_j59863254171804_2_alg».proof.Proof.Algebra
import Idealize.ShloMosaic.Lib.ValueIdx

noncomputable section

namespace Cert.Cheb

open Idealize.ShloMosaic Idealize.ShloMosaic.ValueIdx

/-- An array over `[50000, 128]` viewed by its two coordinates. -/
abbrev view2 (a : FVec Ideal ⟨2, ![50000, 128]⟩ .f32) : Fin 50000 → Fin 128 → EReal := fun i k => a (ix2 i k)

/-- One step: if the previous outputs agree and are real, so do the next ones. -/
theorem step_eq {d : Fin 50000 → EReal} {src dst : Fin 600000 → BitVec 32}
    {w0 w1 w2 : Fin 128 → Fin 128 → EReal} {b : Fin 128 → EReal}
    (hd : ∀ i, IsReal (d i)) (hw0 : ∀ a c, IsReal (w0 a c)) (hw1 : ∀ a c, IsReal (w1 a c)) (hw2 : ∀ a c, IsReal (w2 a c))
    (hb : ∀ c, IsReal (b c))
    (Kp Rp Kn Rn : FVec Ideal ⟨2, ![50000, 128]⟩ .f32)
    (hp : view2 Kp = view2 Rp) (hpr : ∀ i k, IsReal (view2 Rp i k))
    (hK : ∀ i k, Kn (ix2 i k) = layerK d src dst (view2 Kp) w0 w1 w2 b i k)
    (hR : ∀ i k, Rn (ix2 i k) = layerR d src dst (view2 Rp) w0 w1 w2 b i k) :
    view2 Kn = view2 Rn ∧ ∀ i k, IsReal (view2 Rn i k) := by
  refine ⟨funext fun i => funext fun k => ?_, fun i k => ?_⟩
  · show Kn (ix2 i k) = Rn (ix2 i k)
    rw [hK i k, hR i k, hp, layerK_eq_layerR hd hpr]
  · show IsReal (Rn (ix2 i k))
    rw [hR i k]
    exact layerR_real hd hpr hw0 hw1 hw2 hb i k

/-- Two arrays over `[50000, 128]` with the same view by coordinates are the same array. -/
theorem eq_of_view2 {A B : FVec Ideal ⟨2, ![50000, 128]⟩ .f32} (h : view2 A = view2 B) : A = B := by
  funext j
  have e : A (ix2 (j 0) (j 1)) = B (ix2 (j 0) (j 1)) := congrFun (congrFun h (j 0)) (j 1)
  rw [eq_ix2 j]
  exact e

end Cert.Cheb

end
-- ==== Proof.Finite.lean ====
/-
  From the precondition to real entries.

  The precondition is the conjunction, over the nine floating-point arguments, of "every entry has absolute value
  below plus infinity". On the extended reals `max x (-x) < ⊤` rules out both infinities, so every such entry is a
  real number.
-/
import proofs.«177079_j59863254171804_2_alg».proof.Pre_finite_inputs
import proofs.«177079_j59863254171804_2_alg».proof.Proof.Spec
import Idealize.ShloMosaic.Lib.ReduceAll
import Idealize.ShloMosaic.PureOps.Ideal.Laws

noncomputable section

namespace Cert.Cheb

open Idealize.ShloMosaic

/-- An extended real whose absolute value compares below the word of plus infinity is a real number. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

instance : Subsingleton Cert.Pre_finite_inputs.S_.Idx := ⟨fun a b => funext fun d => d.elim0⟩

/-- One `all (|x| < +inf)` of the precondition: if the reduction by `and` of the comparisons is one, every entry
    of the array is real. -/
theorem isReal_of_all {s : Shape} {axes : List (Fin s.rank)} (x : FVec Ideal s .f32)
    (b : Cert.Pre_finite_inputs.S_.BroadcastsInDim s (![] : Fin 0 → Fin s.rank))
    (h : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] b (constant (F := Ideal) Cert.Pre_finite_inputs.S_ .f32 0x7F800000#32)))
          (constantI Cert.Pre_finite_inputs.S_ 1 1#1) h hu j = 1#1) :
    ∀ i, IsReal (x i) := by
  intro i
  have hi := Host.reduce_andi_all _ _ h hu j e i
  exact isReal_of_abs_lt_inf (x i) hi

open Cert.Pre_finite_inputs in
/-- Under the precondition every entry of every floating-point argument is a real number. -/
theorem real_of_pre [Cert.Pre_finite_inputs.Facts]
    (x0 : FVec Ideal S50000x128 .f32) (x1 : IVec S2x600000 32) (x2 : IVec S50000 32)
    (x3 : FVec Ideal S3x128x128 .f32) (x4 : FVec Ideal S128 .f32)
    (x5 : FVec Ideal S3x128x128 .f32) (x6 : FVec Ideal S128 .f32)
    (x7 : FVec Ideal S3x128x128 .f32) (x8 : FVec Ideal S128 .f32)
    (x9 : FVec Ideal S128x32 .f32) (x10 : FVec Ideal S32 .f32)
    (h : Cert.Pre_finite_inputs.fn (F := Ideal) x0 x1 x2 x3 x4 x5 x6 x7 x8 x9 x10 = fun _ => 1#1) :
    (∀ j, IsReal (x0 j)) ∧ (∀ j, IsReal (x3 j)) ∧ (∀ j, IsReal (x4 j)) ∧ (∀ j, IsReal (x5 j))
      ∧ (∀ j, IsReal (x6 j)) ∧ (∀ j, IsReal (x7 j)) ∧ (∀ j, IsReal (x8 j)) ∧ (∀ j, IsReal (x9 j))
      ∧ (∀ j, IsReal (x10 j)) := by
  have h0 := congrFun h ValueIdx.ix0
  dsimp only [Cert.Pre_finite_inputs.fn, Cert.Pre_finite_inputs.fn_part1, Cert.Pre_finite_inputs.fn_part2,
    Idealize.ShloMosaic.andi] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨isReal_of_all x0 _ _ _ _ e0, isReal_of_all x3 _ _ _ _ e3, isReal_of_all x4 _ _ _ _ e4,
    isReal_of_all x5 _ _ _ _ e5, isReal_of_all x6 _ _ _ _ e6, isReal_of_all x7 _ _ _ _ e7,
    isReal_of_all x8 _ _ _ _ e8, isReal_of_all x9 _ _ _ _ e9, isReal_of_all x10 _ _ _ _ e10⟩

end Cert.Cheb

end
-- ==== Proof.Final.lean ====
/-
  The kernel's result is the reference's term of the same arguments.

  Both programs compute the per-node factor, the source and destination row numbers and the tail by the same
  operations. The three layers differ only in the arrangement of the scaled Laplacian; with every float argument real
  the arrangements agree layer after layer (`Cert.Cheb.step_eq`), so the third layer's outputs are one array and the
  tails of it are equal.
-/
import proofs.«177079_j59863254171804_2_alg».proof.Proof.KValue
import proofs.«177079_j59863254171804_2_alg».proof.Proof.RefRead
import proofs.«177079_j59863254171804_2_alg».proof.Proof.Bridge
import proofs.«177079_j59863254171804_2_alg».proof.Proof.Finite
import proofs.«177079_j59863254171804_2_alg».proof.Proof.Gen.Pre_finite_inputs

set_option maxRecDepth 16384

noncomputable section

namespace Cert.Proof.Final

open Idealize.ShloMosaic Idealize.ShloMosaic.TcCoe Idealize.SL.Sem Idealize.ShloMosaic.ValueIdx Cert.Cheb

/-- Under the precondition the result buffer's final value is the reference's tail of its three layers, all over the
    kernel's own argument arrays. -/
theorem value_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1) :
    Cert.KernelIdeal.Gen.W9 m ρ c (Proc.devRef .tc Cert.KernelIdeal.main_v167)
      = Cert.ReferenceIdeal.Terms.tailT (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
          (Cert.ReferenceIdeal.Terms.layerT (F := Ideal) (Cert.KernelIdeal.Unwind.dinvA m c) (Cert.KernelIdeal.Unwind.srcA m c) (Cert.KernelIdeal.Unwind.dstA m c) (Cert.ReferenceIdeal.Terms.layerT (F := Ideal) (Cert.KernelIdeal.Unwind.dinvA m c) (Cert.KernelIdeal.Unwind.srcA m c) (Cert.KernelIdeal.Unwind.dstA m c) (Cert.ReferenceIdeal.Terms.layerT (F := Ideal) (Cert.KernelIdeal.Unwind.dinvA m c) (Cert.KernelIdeal.Unwind.srcA m c) (Cert.KernelIdeal.Unwind.dstA m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) := by
  obtain ⟨hx0, hx3, hx4, hx5, hx6, hx7, hx8, -, -⟩ := Cert.Cheb.real_of_pre _ _ _ _ _ _ _ _ _ _ _ hpre
  -- the per-node factor is a real number at every node
  have hd : ∀ a : Fin 50000, IsReal ((Cert.KernelIdeal.Unwind.dinvA m c : FVec Ideal Cert.KernelIdeal.S50000 .f32) (ix1 a)) := fun a => by
    have e := Cert.ReferenceIdeal.TermsRead.dinvT_apply (Cert.KernelIdeal.Unwind.srcA m c) a
    rw [show (Cert.KernelIdeal.Unwind.dinvA m c : FVec Ideal Cert.KernelIdeal.S50000 .f32) (ix1 a)
        = Cert.ReferenceIdeal.Terms.dinvT (F := Ideal) (Cert.KernelIdeal.Unwind.srcA m c) (ix1 a) from rfl, e]
    exact dinvS_real _ _
  -- layer by layer the two arrangements agree and stay real
  have s1 := step_eq (d := fun a => (Cert.KernelIdeal.Unwind.dinvA m c : FVec Ideal Cert.KernelIdeal.S50000 .f32) (ix1 a))
      (src := fun e => (Cert.KernelIdeal.Unwind.srcA m c : IVec Cert.KernelIdeal.S600000 32) (ix1 e)) (dst := fun e => (Cert.KernelIdeal.Unwind.dstA m c : IVec Cert.KernelIdeal.S600000 32) (ix1 e))
      hd (fun a b' => hx3 _) (fun a b' => hx3 _) (fun a b' => hx3 _) (fun b' => hx4 _)
      (m ((c.tc : Thread Cert.KernelIdeal.nD Cert.KernelIdeal.τ).loc Cert.KernelIdeal.main_arg0)) (m ((c.tc : Thread Cert.KernelIdeal.nD Cert.KernelIdeal.τ).loc Cert.KernelIdeal.main_arg0)) (Cert.KernelIdeal.Gen.W4 m ρ c (Proc.devRef .tc Cert.KernelIdeal.main_v59) : FVec Ideal Cert.KernelIdeal.S50000x128 .f32) (Cert.ReferenceIdeal.Terms.layerT (F := Ideal) (Cert.KernelIdeal.Unwind.dinvA m c) (Cert.KernelIdeal.Unwind.srcA m c) (Cert.KernelIdeal.Unwind.dstA m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      rfl (fun i k => hx0 _) (Cert.KernelIdeal.KValue.h1_apply m ρ c)
      (fun i k => Cert.ReferenceIdeal.TermsRead.layerT_apply _ _ _ _ _ _ i k)
  have s2 := step_eq (d := fun a => (Cert.KernelIdeal.Unwind.dinvA m c : FVec Ideal Cert.KernelIdeal.S50000 .f32) (ix1 a))
      (src := fun e => (Cert.KernelIdeal.Unwind.srcA m c : IVec Cert.KernelIdeal.S600000 32) (ix1 e)) (dst := fun e => (Cert.KernelIdeal.Unwind.dstA m c : IVec Cert.KernelIdeal.S600000 32) (ix1 e))
      hd (fun a b' => hx5 _) (fun a b' => hx5 _) (fun a b' => hx5 _) (fun b' => hx6 _)
      (Cert.KernelIdeal.Gen.W4 m ρ c (Proc.devRef .tc Cert.KernelIdeal.main_v59) : FVec Ideal Cert.KernelIdeal.S50000x128 .f32) (Cert.ReferenceIdeal.Terms.layerT (F := Ideal) (Cert.KernelIdeal.Unwind.dinvA m c) (Cert.KernelIdeal.Unwind.srcA m c) (Cert.KernelIdeal.Unwind.dstA m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (Cert.KernelIdeal.Gen.W6 m ρ c (Proc.devRef .tc Cert.KernelIdeal.main_v105) : FVec Ideal Cert.KernelIdeal.S50000x128 .f32) (Cert.ReferenceIdeal.Terms.layerT (F := Ideal) (Cert.KernelIdeal.Unwind.dinvA m c) (Cert.KernelIdeal.Unwind.srcA m c) (Cert.KernelIdeal.Unwind.dstA m c) (Cert.ReferenceIdeal.Terms.layerT (F := Ideal) (Cert.KernelIdeal.Unwind.dinvA m c) (Cert.KernelIdeal.Unwind.srcA m c) (Cert.KernelIdeal.Unwind.dstA m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      s1.1 s1.2 (Cert.KernelIdeal.KValue.h2_apply m ρ c)
      (fun i k => Cert.ReferenceIdeal.TermsRead.layerT_apply _ _ _ _ _ _ i k)
  have s3 := step_eq (d := fun a => (Cert.KernelIdeal.Unwind.dinvA m c : FVec Ideal Cert.KernelIdeal.S50000 .f32) (ix1 a))
      (src := fun e => (Cert.KernelIdeal.Unwind.srcA m c : IVec Cert.KernelIdeal.S600000 32) (ix1 e)) (dst := fun e => (Cert.KernelIdeal.Unwind.dstA m c : IVec Cert.KernelIdeal.S600000 32) (ix1 e))
      hd (fun a b' => hx7 _) (fun a b' => hx7 _) (fun a b' => hx7 _) (fun b' => hx8 _)
      (Cert.KernelIdeal.Gen.W6 m ρ c (Proc.devRef .tc Cert.KernelIdeal.main_v105) : FVec Ideal Cert.KernelIdeal.S50000x128 .f32) (Cert.ReferenceIdeal.Terms.layerT (F := Ideal) (Cert.KernelIdeal.Unwind.dinvA m c) (Cert.KernelIdeal.Unwind.srcA m c) (Cert.KernelIdeal.Unwind.dstA m c) (Cert.ReferenceIdeal.Terms.layerT (F := Ideal) (Cert.KernelIdeal.Unwind.dinvA m c) (Cert.KernelIdeal.Unwind.srcA m c) (Cert.KernelIdeal.Unwind.dstA m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.KernelIdeal.Gen.W8 m ρ c (Proc.devRef .tc Cert.KernelIdeal.main_v151) : FVec Ideal Cert.KernelIdeal.S50000x128 .f32) (Cert.ReferenceIdeal.Terms.layerT (F := Ideal) (Cert.KernelIdeal.Unwind.dinvA m c) (Cert.KernelIdeal.Unwind.srcA m c) (Cert.KernelIdeal.Unwind.dstA m c) (Cert.ReferenceIdeal.Terms.layerT (F := Ideal) (Cert.KernelIdeal.Unwind.dinvA m c) (Cert.KernelIdeal.Unwind.srcA m c) (Cert.KernelIdeal.Unwind.dstA m c) (Cert.ReferenceIdeal.Terms.layerT (F := Ideal) (Cert.KernelIdeal.Unwind.dinvA m c) (Cert.KernelIdeal.Unwind.srcA m c) (Cert.KernelIdeal.Unwind.dstA m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      s2.1 s2.2 (Cert.KernelIdeal.KValue.h3_apply m ρ c)
      (fun i k => Cert.ReferenceIdeal.TermsRead.layerT_apply _ _ _ _ _ _ i k)
  -- the tails of one array
  refine (Cert.KernelIdeal.Unwind.W9_v167 m ρ c).trans ?_
  exact congrArg (Cert.ReferenceIdeal.Terms.tailT (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (eq_of_view2 s3.1)

end Cert.Proof.Final

end
-- ==== Proof.lean ====
/-
  The certificate of the three-layer Chebyshev graph convolution with mean pooling and a linear head.

  The kernel program computes each layer's dense step in a pipelined region (blocks of 5000 rows; three matrix products
  into zero accumulators, the recurrence `2·L − T0`, the bias, the rectifier) and the scaled Laplacian on the host in the
  node-scaled arrangement `-dinv · Σ_{dst = i} (dinv · v)[src]`; the reference weights each edge's message by
  `-(dinv[src] · dinv[dst])`. Every float argument being finite, all intermediate arrays are real and a real factor
  moves across the finite sums, so the two programs end with the same result array.

  The three frames: the two kernel programs' are the launch over the regions; the reference's is its run with the
  result dropped. Nothing was rewritten between the kernel and its idealization, so that claim is trivial.
-/
import proofs.«177079_j59863254171804_2_alg».proof.Defs
import proofs.«177079_j59863254171804_2_alg».proof.Proof.Gen.Kernel
import proofs.«177079_j59863254171804_2_alg».proof.Proof.Gen.Kernel.Skeleton
import proofs.«177079_j59863254171804_2_alg».proof.Proof.Gen.Kernel.Launch
import proofs.«177079_j59863254171804_2_alg».proof.Proof.Gen.Kernel.Points
import proofs.«177079_j59863254171804_2_alg».proof.Proof.Gen.Kernel.Frame
import proofs.«177079_j59863254171804_2_alg».proof.Proof.Gen.KernelIdeal
import proofs.«177079_j59863254171804_2_alg».proof.Proof.Gen.KernelIdeal.Skeleton
import proofs.«177079_j59863254171804_2_alg».proof.Proof.Gen.KernelIdeal.Launch
import proofs.«177079_j59863254171804_2_alg».proof.Proof.Gen.KernelIdeal.Points
import proofs.«177079_j59863254171804_2_alg».proof.Proof.Gen.KernelIdeal.Frame
import proofs.«177079_j59863254171804_2_alg».proof.Proof.Gen.ReferenceIdeal
import proofs.«177079_j59863254171804_2_alg».proof.Proof.Gen.Pre_finite_inputs
import proofs.«177079_j59863254171804_2_alg».proof.Proof.KernelRun
import proofs.«177079_j59863254171804_2_alg».proof.Proof.RefRun
import proofs.«177079_j59863254171804_2_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result forgotten. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- From memories agreeing on the arguments both programs end with the same result: the kernel's final value of the
    result buffer, which under the precondition is the reference's term of the same arguments. -/
theorem algebraic : Cert.algebraic_KernelIdeal_ReferenceIdeal := by
  intro m ρ m' ρ' hpre hagree
  refine ⟨fun c => Cert.KernelIdeal.Gen.W9 m ρ c (Proc.devRef .tc Cert.KernelIdeal.main_v167),
    Cert.KernelIdeal.RunValue.run (F := Ideal) m ρ, ?_⟩
  refine (θ_run Cert.ReferenceIdeal.defs _ _).mono (fun r h c => ⟨(h c).1.trans ?_, (h c).2⟩)
    (Cert.ReferenceIdeal.RunValue.run (F := Ideal) m' ρ')
  obtain ⟨e0, e1, e2, e3, e4, e5, e6, e7, e8, e9, e10⟩ := hagree c
  rw [e0, e1, e2, e3, e4, e5, e6, e7, e8, e9, e10]
  exact (Cert.Proof.Final.value_eq m ρ c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
